-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S_ : Shape := ⟨0, ![]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S4096x1024, .bf16⟩
  | .local _ .vmem, ⟨14, _⟩ => ⟨S4096x1024, .bf16⟩
  | .local _ .vmem, ⟨15, _⟩ => ⟨S512x1024, .f32⟩
  | .local _ .vmem, ⟨16, _⟩ => ⟨S512x1024, .f32⟩
  | .local _ .vmem, ⟨17, _⟩ => ⟨S512x1, .f32⟩
  | .local _ .vmem, ⟨18, _⟩ => ⟨S512x1, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v7 : Index := Scalar.indexCast v4
  let c0_2 : Index := 0#32
  ![v7.toNat, 0]
def k1_cond2 (i : grid1.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_21 : BitVec 32 := 0#32
  let v46 : BitVec 1 := Scalar.cmpi .ne v45 c0_i32_21
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S1024x1024 : S_.BroadcastsInDim S1024x1024 (![] : Fin 0 → Fin S1024x1024.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x1024.size a ≤ S4096x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S4096x1024_S4096x4096_1_1_0_0_n_n_wf : DotDims.WF S4096x1024 S4096x1024 S4096x4096 [1] [1] [0] [0] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.BitsRegion0.lean ====
/-
  The projection region of the kernel as printed as a pipeline segment's body: what each of its three output blocks
  holds after the body at a grid point (the x block times a weight matrix), and that the body runs there.
-/
import proofs.«175549_j54159537602870_2_alg».proof.Proof.Gen.Kernel.Launch
import proofs.«175549_j54159537602870_2_alg».proof.Proof.Gen.Kernel.Skeleton
import proofs.«175549_j54159537602870_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection region: q, k, v blocks from an x block and the three weight matrices

At a grid point the body reads the x block (512 rows) and the three whole weight matrices, and stores three
512-row blocks: the products of the x block with each weight matrix. Nothing is kept between points. -/

section Region0

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole 512-row block and the whole weight matrix, as rectangles. -/
abbrev rB0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-- What the body leaves in the q, k and v blocks: one whole-block store each, of the x block times a weight matrix. -/
def out0_4 (x0 : Vec F S512x1024 .f32) (x1 : Vec F S1024x1024 .bf16) : Vec F S512x1024 .bf16 :=
  View.canon [⟨rB0, k0_pay2 (View.ld x0 rB0) (View.ld x1 rW0)⟩]
def out0_5 (x0 : Vec F S512x1024 .f32) (x2 : Vec F S1024x1024 .bf16) : Vec F S512x1024 .bf16 :=
  View.canon [⟨rB0, k0_pay3 (View.ld x0 rB0) (View.ld x2 rW0)⟩]
def out0_6 (x0 : Vec F S512x1024 .f32) (x3 : Vec F S1024x1024 .bf16) : Vec F S512x1024 .bf16 :=
  View.canon [⟨rB0, k0_pay4 (View.ld x0 rB0) (View.ld x3 rW0)⟩]

/-- One whole-block store covers the block. -/
theorem cover0_B (p0 : Vec F S512x1024 .bf16) (y : S512x1024.Idx) :
    ∃ pc ∈ ([⟨rB0, p0⟩] : List (View.Piece (Elt F) S512x1024 .bf16)), y ∈ pc.1.set :=
  View.cover_of_tiled [⟨rB0, p0⟩] S512x1024.size (by rfl) y

set_option maxHeartbeats 4000000 in
/-- The body's triple: from the four input buffers at their contents and the three output buffers at anything, the body
    runs and leaves the inputs as they were and each output at its product block. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_B _)
  isplitl [H6]
  · iexists _; isplitr
    swap; · iexact H6
    ipureintro
    exact View.read_writes_eq_canon _ _ _ (cover0_B _)
  iexists _; isplitr
  swap; · iexact H7
  ipureintro
  exact View.read_writes_eq_canon _ _ _ (cover0_B _)

/-- The proof data of the projection region on core `c`: the arrays as the region finds them; after the body each input
    buffer at its block, each output buffer at its product block; nothing kept between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BitsRegion1Defs.lean ====
/-
  The attention region of the kernel as printed: the definitions its case-by-case runs share.
-/
import proofs.«175549_j54159537602870_2_alg».proof.Proof.Gen.Kernel.Launch
import proofs.«175549_j54159537602870_2_alg».proof.Proof.Gen.Kernel.Skeleton
import proofs.«175549_j54159537602870_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: shared definitions

The grid is 8 query tiles by 8 key tiles, the key tile varying fastest. At a point the body reads the query block, the
key and value tiles (cut out of the whole k and v arrays at the key tile's offset) and three scratch buffers it keeps
between points: the running row maximum, the running row sum and the running weighted sum. At a query tile's first
key tile it resets them; at its last it stores the quotient into the output block. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first branch: the key tile is the first of its query tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch: the key tile is the last of its query tile. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, except at a last key tile. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point `t`, as the pipeline passes it, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The three scratch buffers: the running maximum, the running sum, the running weighted sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- The scoped buffers of the core that belong to the other region, each at some contents. -/
def Oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Region1

end Cert.Kernel.Hand

end
-- ==== Proof.BitsRegion1Runs.lean ====
/-
  The attention body of the kernel as printed run in each of the three cases its branches meet on the grid.
-/
import proofs.«175549_j54159537602870_2_alg».proof.Proof.Gen.Kernel.Launch
import proofs.«175549_j54159537602870_2_alg».proof.Proof.Gen.Kernel.Skeleton
import proofs.«175549_j54159537602870_2_alg».proof.Proof.Gen.Kernel.Points
import proofs.«175549_j54159537602870_2_alg».proof.Proof.BitsRegion1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention body, case by case

Three cases meet the grid: the first key tile of a query tile (the scratch is reset, then updated), a middle key tile
(the scratch is updated), the last key tile (the scratch is updated and the quotient is stored). In each the body runs
from whole buffers and leaves each scratch buffer, and in the last case the output block, written by whole-buffer
stores; the lists of stored pieces are found by running the body. -/

section Runs

set_option maxHeartbeats 4000000 in
/-- FIRST key tile (not the last): the inputs at their contents, the output block handed back untouched, the three scratch
    buffers at anything; they end written by the pieces found. -/
noncomputable def kernelRun1_A (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .bf16) (x1 x2 : Vec F S4096x1024 .bf16) :
    Σ' (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- A MIDDLE key tile: the three scratch buffers at what the point before left. -/
noncomputable def kernelRun1_B (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .bf16) (x1 x2 : Vec F S4096x1024 .bf16) (xs0 xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- The LAST key tile: the scratch at what the point before left, the output block at anything; it ends written too. -/
noncomputable def kernelRun1_C (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .bf16) (x1 x2 : Vec F S4096x1024 .bf16) (xs0 xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Runs

end Cert.Kernel.Hand

end
-- ==== Proof.BitsRegion1.lean ====
/-
  The attention region of the kernel as printed: what the scratch buffers and the output block hold after each grid
  point (by recursion on the point), the invariant that carries the scratch between points, and the body obligation.
-/
import proofs.«175549_j54159537602870_2_alg».proof.Proof.Gen.Kernel.Launch
import proofs.«175549_j54159537602870_2_alg».proof.Proof.Gen.Kernel.Skeleton
import proofs.«175549_j54159537602870_2_alg».proof.Proof.Gen.Kernel.Points
import proofs.«175549_j54159537602870_2_alg».proof.Proof.BitsRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- One staging buffer of the output window, and the scratch buffers, as views through which contents are stated. -/
abbrev VO1_3 : View sig .tc .vmem S512x1024 .f32 := (Memref.whole cc1_stg3_0 : Memref sig .tc .vmem S512x1024 .f32).view
abbrev VS1_0 : View sig .tc .vmem S512x1 .f32 := scM1_0.view
abbrev VS1_1 : View sig .tc .vmem S512x1 .f32 := scM1_1.view
abbrev VS1_2 : View sig .tc .vmem S512x1024 .f32 := scM1_2.view

/-! ## What each case leaves -/

/-- The pieces case A stores into scratch 0 cover it. -/
theorem scover1_A_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) (y : S512x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S512x1.size (by sl_kernel_rfl) y
/-- What case A leaves in scratch 0: its pieces read back. -/
def sout1_A_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) : Vec F S512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)

/-- The pieces case A stores into scratch 1 cover it. -/
theorem scover1_A_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) (y : S512x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S512x1.size (by sl_kernel_rfl) y
/-- What case A leaves in scratch 1: its pieces read back. -/
def sout1_A_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) : Vec F S512x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

/-- The pieces case A stores into scratch 2 cover it. -/
theorem scover1_A_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) (y : S512x1024.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S512x1024.size (by sl_kernel_rfl) y
/-- What case A leaves in scratch 2: its pieces read back. -/
def sout1_A_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) : Vec F S512x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

/-- The pieces case B stores into scratch 0 cover it. -/
theorem scover1_B_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S512x1.size (by sl_kernel_rfl) y
/-- What case B leaves in scratch 0: its pieces read back. -/
def sout1_B_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)

/-- The pieces case B stores into scratch 1 cover it. -/
theorem scover1_B_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S512x1.size (by sl_kernel_rfl) y
/-- What case B leaves in scratch 1: its pieces read back. -/
def sout1_B_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)

/-- The pieces case B stores into scratch 2 cover it. -/
theorem scover1_B_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S512x1024.size (by sl_kernel_rfl) y
/-- What case B leaves in scratch 2: its pieces read back. -/
def sout1_B_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

/-- The pieces case C stores into scratch 0 cover it. -/
theorem scover1_C_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S512x1.size (by sl_kernel_rfl) y
/-- What case C leaves in scratch 0: its pieces read back. -/
def sout1_C_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- The pieces case C stores into scratch 1 cover it. -/
theorem scover1_C_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S512x1.size (by sl_kernel_rfl) y
/-- What case C leaves in scratch 1: its pieces read back. -/
def sout1_C_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- The pieces case C stores into scratch 2 cover it. -/
theorem scover1_C_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S512x1024.size (by sl_kernel_rfl) y
/-- What case C leaves in scratch 2: its pieces read back. -/
def sout1_C_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) : Vec F S512x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- The pieces the last case stores into the output block cover it. -/
theorem cover1_C_3 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S512x1024.size (by sl_kernel_rfl) y
/-- What the last case leaves in the output block. -/
def out1_C_3 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) : Vec F S512x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-! ## The state point by point -/

/-- The state after a point: the output block, then the three scratch buffers. -/
abbrev St1 (F : FTy → Type) [FloatOps F] : Type := Vec F S512x1024 .f32 × Vec F S512x1 .f32 × Vec F S512x1 .f32 × Vec F S512x1024 .f32

/-- The state a first key tile leaves (the output block is not stored: a placeholder). -/
def stA (c : Dev nD) (t : Fin cfg1.N) (h0 : t.val % 8 = 0) (h1 : ¬t.val % 8 = 7) : St1 F :=
  (VO1_3.read (Elt F) VO1_3.junk,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))
/-- The state a middle key tile leaves, from what the point before left. -/
def stB (c : Dev nD) (t : Fin cfg1.N) (h0 : ¬t.val % 8 = 0) (h1 : ¬t.val % 8 = 7) (p : St1 F) : St1 F :=
  (VO1_3.read (Elt F) VO1_3.junk,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)
/-- The state a last key tile leaves, from what the point before left. -/
def stC (c : Dev nD) (t : Fin cfg1.N) (h0 : ¬t.val % 8 = 0) (h1 : t.val % 8 = 7) (p : St1 F) : St1 F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

/-- THE ACCUMULATION: the state after the body at position `n`, by recursion on the position. -/
def outsAt1 (c : Dev nD) : (n : ℕ) → n < cfg1.N → St1 F
  | 0, hn => stA V c ⟨0, hn⟩ (Nat.zero_mod _) (by show ¬(0 % 8 = 7); decide)
  | n + 1, hn =>
    if h0 : (n + 1) % 8 = 0 then
      if h1 : (n + 1) % 8 = 7 then False.elim (by omega)
      else stA V c ⟨n + 1, hn⟩ h0 h1
    else
      if h1 : (n + 1) % 8 = 7 then stC V c ⟨n + 1, hn⟩ h0 h1 (outsAt1 c n (Nat.lt_of_succ_lt hn))
      else stB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = stA V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = stB V c t h0 h1 (outsAt1 V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = stC V c t h0 h1 (outsAt1 V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h1).trans rfl)

/-- The region invariant before position `n`: before the first point the class's; afterwards the other region's buffers at
    anything and the three scratch buffers at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-- The proof data of the attention region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the closed forms of the branch conditions say which case the point is in; the invariant hands
    the body the scratch at what the point before left (at anything before the first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold stA sout1_A_0 sout1_A_1 sout1_A_2; (try dsimp only)
    by_cases hz : t.val = 0
    · rw [PhiS1_castSucc V c t, PhiS1_zero V c _ _ hz, PhiA1_eq]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold stC out1_C_3 sout1_C_0 sout1_C_1 sout1_C_2; (try dsimp only)
      rw [PhiS1_castSucc V c t, PhiS1_pos V c _ _ hz]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold stB sout1_B_0 sout1_B_1 sout1_B_2; (try dsimp only)
      rw [PhiS1_castSucc V c t, PhiS1_pos V c _ _ hz]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation of the attention region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨B1, B2, B3, B4, B5, B6, B7, B8, B9, B10, B11, HS0, HS1, HS2⟩, Hg⟩
  isplitl [B1 B2 B3 B4 B5 B6 B7 B8 B9 B10 B11 HS0 HS1 HS2]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [HS0]; · iexists _; iexact HS0
    isplitl [HS1]; · iexists _; iexact HS1
    iexists _; iexact HS2
  iexact Hg

end Region1

end Cert.Kernel.Hand

end
-- ==== Proof.BitsRun.lean ====
/-
  The printed kernel's whole run: @main as a host stretch and two kernel regions, the buffer contents at each
  boundary, and the final state — the result buffer at what the attention region's write-backs leave, the arguments
  unchanged.
-/
import proofs.«175549_j54159537602870_2_alg».proof.Proof.Gen.Kernel.Launch
import proofs.«175549_j54159537602870_2_alg».proof.Proof.Gen.Kernel.Skeleton
import proofs.«175549_j54159537602870_2_alg».proof.Proof.Gen.Kernel.Points
import proofs.«175549_j54159537602870_2_alg».proof.Proof.Gen.Kernel.Regions
import proofs.«175549_j54159537602870_2_alg».proof.Proof.BitsRegion0
import proofs.«175549_j54159537602870_2_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's segments from the launch to the return

The host operations scale Wq and change the weights' format; then the projection region writes q, k, v; then the
attention region writes the result. The buffer contents at each boundary are a fold from the launch memory. -/

variable (m : (ℓ : Loc nD τ sig) → Buf (Elt F) ℓ) (ρ : Dev nD → PrngReg)

/-- Core `c`'s buffers at launch, and after the host operations (the projection region's entry). -/
abbrev W0 : Dev nD → Valuation τ sig (Elt F) := fun c => Gen.V0 m c
abbrev W1 : Dev nD → Valuation τ sig (Elt F) := fun c => Gen.V1 m c
abbrev V1' : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1' m) c).arrAt w cfg0.N
theorem W2_arr (c : Dev nD) (w : Fin cfg0.W) :
    W2 m c (Proc.devRef .tc (Pipeline.arrRef spec0 w)) = (dat0 (V1' m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2' : (c : Dev nD) → (b : Ref sig .tc) → Buf (Elt F) ((c : Thread nD τ).loc b) := fun c b => W2 m c b
theorem hF0 (c : Dev nD) (w : Fin cfg0.W) : (dat0 (V1' m) c).arrAt w cfg0.N = V2' m c (Pipeline.arrRef spec0 w) :=
  (W2_arr m c w).symm
theorem hrest0 (c : Dev nD) : ∀ b, b ∉ Finset.univ.image (Pipeline.arrRef spec0) → V2' m c b = V1' m c b :=
  fun b hb => W2_of_ne m c b fun w e => hb (Finset.mem_image.mpr ⟨w, Finset.mem_univ _, e⟩)
/-- At the attention region's exit. -/
def W3 (c : Dev nD) : Valuation τ sig (Elt F) :=
  Pipeline.withArrays spec1 c (W2 m c) fun w => (dat1 (V2' m) c).arrAt w cfg1.N
theorem W3_arr (c : Dev nD) (w : Fin cfg1.W) :
    W3 m c (Proc.devRef .tc (Pipeline.arrRef spec1 w)) = (dat1 (V2' m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3' : (c : Dev nD) → (b : Ref sig .tc) → Buf (Elt F) ((c : Thread nD τ).loc b) := fun c b => W3 m c b
theorem hF1 (c : Dev nD) (w : Fin cfg1.W) : (dat1 (V2' m) c).arrAt w cfg1.N = V3' m c (Pipeline.arrRef spec1 w) :=
  (W3_arr m c w).symm
theorem hrest1 (c : Dev nD) : ∀ b, b ∉ Finset.univ.image (Pipeline.arrRef spec1) → V3' m c b = V2' m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1' m) c).arrAt_in 0 rfl _).trans (A_eq0 (V1' m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1' m) c
  | ⟨1, _⟩ => fun c => dat1 (V2' m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at the contents before it, left with them at
    the contents after it. Its arrays are split out of the unscoped buffers and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1' m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1' m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1' m c) (V2' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2' m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2' m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2' m) c
    unfold Pipeline.ΦA at h
    rw [show (pdats m 1 c).Φ 0 = (dat1 (V2' m) c).Φ 0 from rfl]
    iintro ⟨Hp, -, Hr⟩
    iapply h
    isplitl [Hr]; · iexact Hr
    iexact Hp
  hout c := by
    rw [Pipeline.ownSems0_none, show (pdats m 1 c).Φ (Fin.last _) = (dat1 (V2' m) c).Φ (Fin.last cfg1.N) from rfl]
    have h := hout1 (V2' m) c
    unfold Pipeline.ΦA at h
    have h2 : (iprop(Pipeline.scopedRest spec1 c ∗ ∃ r, prngReg c r) : sProp 𝕄)
        ⊢ iprop((∃ r, prngReg c r) ∗ emp ∗ Pipeline.scopedRest spec1 c) := by
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2' m c) (V3' m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final state holds the result buffer at the last fold's contents and each argument as launched. -/
theorem run_main : θ_run defs (onTc (τ := τ) (main (F := F))) ⟨m, fun _ => 0, ρ⟩ (fun r => ∀ c : Dev nD,
      r.2.mem ((c.tc : Thread nD τ).loc main_v6) = W3 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v6 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.IdealRegion0.lean ====
/-
  The projection region of the idealized kernel as a pipeline segment's body: what each of its three output blocks
  holds after the body at a grid point (the x block times a weight matrix), and that the body runs there.
-/
import proofs.«175549_j54159537602870_2_alg».proof.Proof.Gen.KernelIdeal.Launch
import proofs.«175549_j54159537602870_2_alg».proof.Proof.Gen.KernelIdeal.Skeleton
import proofs.«175549_j54159537602870_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection region: q, k, v blocks from an x block and the three weight matrices

At a grid point the body reads the x block (512 rows) and the three whole weight matrices, and stores three
512-row blocks: the products of the x block with each weight matrix. Nothing is kept between points. -/

section Region0

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole 512-row block and the whole weight matrix, as rectangles. -/
abbrev rB0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-- What the body leaves in the q, k and v blocks: one whole-block store each, of the x block times a weight matrix. -/
def out0_4 (x0 : Vec F S512x1024 .f32) (x1 : Vec F S1024x1024 .bf16) : Vec F S512x1024 .bf16 :=
  View.canon [⟨rB0, k0_pay2 (View.ld x0 rB0) (View.ld x1 rW0)⟩]
def out0_5 (x0 : Vec F S512x1024 .f32) (x2 : Vec F S1024x1024 .bf16) : Vec F S512x1024 .bf16 :=
  View.canon [⟨rB0, k0_pay3 (View.ld x0 rB0) (View.ld x2 rW0)⟩]
def out0_6 (x0 : Vec F S512x1024 .f32) (x3 : Vec F S1024x1024 .bf16) : Vec F S512x1024 .bf16 :=
  View.canon [⟨rB0, k0_pay4 (View.ld x0 rB0) (View.ld x3 rW0)⟩]

/-- One whole-block store covers the block. -/
theorem cover0_B (p0 : Vec F S512x1024 .bf16) (y : S512x1024.Idx) :
    ∃ pc ∈ ([⟨rB0, p0⟩] : List (View.Piece (Elt F) S512x1024 .bf16)), y ∈ pc.1.set :=
  View.cover_of_tiled [⟨rB0, p0⟩] S512x1024.size (by rfl) y

set_option maxHeartbeats 4000000 in
/-- The body's triple: from the four input buffers at their contents and the three output buffers at anything, the body
    runs and leaves the inputs as they were and each output at its product block. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_B _)
  isplitl [H6]
  · iexists _; isplitr
    swap; · iexact H6
    ipureintro
    exact View.read_writes_eq_canon _ _ _ (cover0_B _)
  iexists _; isplitr
  swap; · iexact H7
  ipureintro
  exact View.read_writes_eq_canon _ _ _ (cover0_B _)

/-- The proof data of the projection region on core `c`: the arrays as the region finds them; after the body each input
    buffer at its block, each output buffer at its product block; nothing kept between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.IdealRegion1Defs.lean ====
/-
  The attention region of the idealized kernel: the definitions its case-by-case runs share.
-/
import proofs.«175549_j54159537602870_2_alg».proof.Proof.Gen.KernelIdeal.Launch
import proofs.«175549_j54159537602870_2_alg».proof.Proof.Gen.KernelIdeal.Skeleton
import proofs.«175549_j54159537602870_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: shared definitions

The grid is 8 query tiles by 8 key tiles, the key tile varying fastest. At a point the body reads the query block, the
key and value tiles (cut out of the whole k and v arrays at the key tile's offset) and three scratch buffers it keeps
between points: the running row maximum, the running row sum and the running weighted sum. At a query tile's first
key tile it resets them; at its last it stores the quotient into the output block. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first branch: the key tile is the first of its query tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch: the key tile is the last of its query tile. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, except at a last key tile. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point `t`, as the pipeline passes it, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The three scratch buffers: the running maximum, the running sum, the running weighted sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- The scoped buffers of the core that belong to the other region, each at some contents. -/
def Oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Region1

end Cert.KernelIdeal.Hand

end
-- ==== Proof.IdealRegion1Runs.lean ====
/-
  The attention body of the idealized kernel run in each of the three cases its branches meet on the grid.
-/
import proofs.«175549_j54159537602870_2_alg».proof.Proof.Gen.KernelIdeal.Launch
import proofs.«175549_j54159537602870_2_alg».proof.Proof.Gen.KernelIdeal.Skeleton
import proofs.«175549_j54159537602870_2_alg».proof.Proof.Gen.KernelIdeal.Points
import proofs.«175549_j54159537602870_2_alg».proof.Proof.IdealRegion1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention body, case by case

Three cases meet the grid: the first key tile of a query tile (the scratch is reset, then updated), a middle key tile
(the scratch is updated), the last key tile (the scratch is updated and the quotient is stored). In each the body runs
from whole buffers and leaves each scratch buffer, and in the last case the output block, written by whole-buffer
stores; the lists of stored pieces are found by running the body. -/

section Runs

set_option maxHeartbeats 4000000 in
/-- FIRST key tile (not the last): the inputs at their contents, the output block handed back untouched, the three scratch
    buffers at anything; they end written by the pieces found. -/
noncomputable def kernelRun1_A (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .bf16) (x1 x2 : Vec F S4096x1024 .bf16) :
    Σ' (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- A MIDDLE key tile: the three scratch buffers at what the point before left. -/
noncomputable def kernelRun1_B (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .bf16) (x1 x2 : Vec F S4096x1024 .bf16) (xs0 xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- The LAST key tile: the scratch at what the point before left, the output block at anything; it ends written too. -/
noncomputable def kernelRun1_C (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .bf16) (x1 x2 : Vec F S4096x1024 .bf16) (xs0 xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Runs

end Cert.KernelIdeal.Hand

end
-- ==== Proof.IdealRegion1.lean ====
/-
  The attention region of the idealized kernel: what the scratch buffers and the output block hold after each grid
  point (by recursion on the point), the invariant that carries the scratch between points, and the body obligation.
-/
import proofs.«175549_j54159537602870_2_alg».proof.Proof.Gen.KernelIdeal.Launch
import proofs.«175549_j54159537602870_2_alg».proof.Proof.Gen.KernelIdeal.Skeleton
import proofs.«175549_j54159537602870_2_alg».proof.Proof.Gen.KernelIdeal.Points
import proofs.«175549_j54159537602870_2_alg».proof.Proof.IdealRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- One staging buffer of the output window, and the scratch buffers, as views through which contents are stated. -/
abbrev VO1_3 : View sig .tc .vmem S512x1024 .f32 := (Memref.whole cc1_stg3_0 : Memref sig .tc .vmem S512x1024 .f32).view
abbrev VS1_0 : View sig .tc .vmem S512x1 .f32 := scM1_0.view
abbrev VS1_1 : View sig .tc .vmem S512x1 .f32 := scM1_1.view
abbrev VS1_2 : View sig .tc .vmem S512x1024 .f32 := scM1_2.view

/-! ## What each case leaves -/

/-- The pieces case A stores into scratch 0 cover it. -/
theorem scover1_A_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) (y : S512x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S512x1.size (by sl_kernel_rfl) y
/-- What case A leaves in scratch 0: its pieces read back. -/
def sout1_A_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) : Vec F S512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)

/-- The pieces case A stores into scratch 1 cover it. -/
theorem scover1_A_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) (y : S512x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S512x1.size (by sl_kernel_rfl) y
/-- What case A leaves in scratch 1: its pieces read back. -/
def sout1_A_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) : Vec F S512x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

/-- The pieces case A stores into scratch 2 cover it. -/
theorem scover1_A_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) (y : S512x1024.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S512x1024.size (by sl_kernel_rfl) y
/-- What case A leaves in scratch 2: its pieces read back. -/
def sout1_A_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .bf16) (x1 x2 : Vec F S4096x1024 .bf16) : Vec F S512x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

/-- The pieces case B stores into scratch 0 cover it. -/
theorem scover1_B_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S512x1.size (by sl_kernel_rfl) y
/-- What case B leaves in scratch 0: its pieces read back. -/
def sout1_B_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)

/-- The pieces case B stores into scratch 1 cover it. -/
theorem scover1_B_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S512x1.size (by sl_kernel_rfl) y
/-- What case B leaves in scratch 1: its pieces read back. -/
def sout1_B_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)

/-- The pieces case B stores into scratch 2 cover it. -/
theorem scover1_B_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S512x1024.size (by sl_kernel_rfl) y
/-- What case B leaves in scratch 2: its pieces read back. -/
def sout1_B_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .bf16) (x1 x2 : Vec F S4096x1024 .bf16) (xs0 xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

/-- The pieces case C stores into scratch 0 cover it. -/
theorem scover1_C_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S512x1.size (by sl_kernel_rfl) y
/-- What case C leaves in scratch 0: its pieces read back. -/
def sout1_C_0 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- The pieces case C stores into scratch 1 cover it. -/
theorem scover1_C_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S512x1.size (by sl_kernel_rfl) y
/-- What case C leaves in scratch 1: its pieces read back. -/
def sout1_C_1 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- The pieces case C stores into scratch 2 cover it. -/
theorem scover1_C_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S512x1024.size (by sl_kernel_rfl) y
/-- What case C leaves in scratch 2: its pieces read back. -/
def sout1_C_2 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) : Vec F S512x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- The pieces the last case stores into the output block cover it. -/
theorem cover1_C_3 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S512x1024.size (by sl_kernel_rfl) y
/-- What the last case leaves in the output block. -/
def out1_C_3 (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .bf16) (x1 x2 : Vec F S4096x1024 .bf16) (xs0 xs1 : Vec F S512x1 .f32) (xs2 : Vec F S512x1024 .f32) : Vec F S512x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-! ## The state point by point -/

/-- The state after a point: the output block, then the three scratch buffers. -/
abbrev St1 (F : FTy → Type) [FloatOps F] : Type := Vec F S512x1024 .f32 × Vec F S512x1 .f32 × Vec F S512x1 .f32 × Vec F S512x1024 .f32

/-- The state a first key tile leaves (the output block is not stored: a placeholder). -/
def stA (c : Dev nD) (t : Fin cfg1.N) (h0 : t.val % 8 = 0) (h1 : ¬t.val % 8 = 7) : St1 F :=
  (VO1_3.read (Elt F) VO1_3.junk,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))
/-- The state a middle key tile leaves, from what the point before left. -/
def stB (c : Dev nD) (t : Fin cfg1.N) (h0 : ¬t.val % 8 = 0) (h1 : ¬t.val % 8 = 7) (p : St1 F) : St1 F :=
  (VO1_3.read (Elt F) VO1_3.junk,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)
/-- The state a last key tile leaves, from what the point before left. -/
def stC (c : Dev nD) (t : Fin cfg1.N) (h0 : ¬t.val % 8 = 0) (h1 : t.val % 8 = 7) (p : St1 F) : St1 F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

/-- THE ACCUMULATION: the state after the body at position `n`, by recursion on the position. -/
def outsAt1 (c : Dev nD) : (n : ℕ) → n < cfg1.N → St1 F
  | 0, hn => stA V c ⟨0, hn⟩ (Nat.zero_mod _) (by show ¬(0 % 8 = 7); decide)
  | n + 1, hn =>
    if h0 : (n + 1) % 8 = 0 then
      if h1 : (n + 1) % 8 = 7 then False.elim (by omega)
      else stA V c ⟨n + 1, hn⟩ h0 h1
    else
      if h1 : (n + 1) % 8 = 7 then stC V c ⟨n + 1, hn⟩ h0 h1 (outsAt1 c n (Nat.lt_of_succ_lt hn))
      else stB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = stA V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = stB V c t h0 h1 (outsAt1 V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = stC V c t h0 h1 (outsAt1 V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h1).trans rfl)

/-- The region invariant before position `n`: before the first point the class's; afterwards the other region's buffers at
    anything and the three scratch buffers at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-- The proof data of the attention region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the closed forms of the branch conditions say which case the point is in; the invariant hands
    the body the scratch at what the point before left (at anything before the first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold stA sout1_A_0 sout1_A_1 sout1_A_2; (try dsimp only)
    by_cases hz : t.val = 0
    · rw [PhiS1_castSucc V c t, PhiS1_zero V c _ _ hz, PhiA1_eq]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold stC out1_C_3 sout1_C_0 sout1_C_1 sout1_C_2; (try dsimp only)
      rw [PhiS1_castSucc V c t, PhiS1_pos V c _ _ hz]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold stB sout1_B_0 sout1_B_1 sout1_B_2; (try dsimp only)
      rw [PhiS1_castSucc V c t, PhiS1_pos V c _ _ hz]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation of the attention region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨B1, B2, B3, B4, B5, B6, B7, B8, B9, B10, B11, HS0, HS1, HS2⟩, Hg⟩
  isplitl [B1 B2 B3 B4 B5 B6 B7 B8 B9 B10 B11 HS0 HS1 HS2]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [HS0]; · iexists _; iexact HS0
    isplitl [HS1]; · iexists _; iexact HS1
    iexists _; iexact HS2
  iexact Hg

end Region1

end Cert.KernelIdeal.Hand

end
-- ==== Proof.IdealRun.lean ====
/-
  The idealized kernel's whole run: @main as a host stretch and two kernel regions, the buffer contents at each
  boundary, and the final state — the result buffer at what the attention region's write-backs leave, the arguments
  unchanged.
-/
import proofs.«175549_j54159537602870_2_alg».proof.Proof.Gen.KernelIdeal.Launch
import proofs.«175549_j54159537602870_2_alg».proof.Proof.Gen.KernelIdeal.Skeleton
import proofs.«175549_j54159537602870_2_alg».proof.Proof.Gen.KernelIdeal.Points
import proofs.«175549_j54159537602870_2_alg».proof.Proof.Gen.KernelIdeal.Regions
import proofs.«175549_j54159537602870_2_alg».proof.Proof.IdealRegion0
import proofs.«175549_j54159537602870_2_alg».proof.Proof.IdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's segments from the launch to the return

The host operations scale Wq and change the weights' format; then the projection region writes q, k, v; then the
attention region writes the result. The buffer contents at each boundary are a fold from the launch memory. -/

variable (m : (ℓ : Loc nD τ sig) → Buf (Elt F) ℓ) (ρ : Dev nD → PrngReg)

/-- Core `c`'s buffers at launch, and after the host operations (the projection region's entry). -/
abbrev W0 : Dev nD → Valuation τ sig (Elt F) := fun c => Gen.V0 m c
abbrev W1 : Dev nD → Valuation τ sig (Elt F) := fun c => Gen.V1 m c
abbrev V1' : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1' m) c).arrAt w cfg0.N
theorem W2_arr (c : Dev nD) (w : Fin cfg0.W) :
    W2 m c (Proc.devRef .tc (Pipeline.arrRef spec0 w)) = (dat0 (V1' m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2' : (c : Dev nD) → (b : Ref sig .tc) → Buf (Elt F) ((c : Thread nD τ).loc b) := fun c b => W2 m c b
theorem hF0 (c : Dev nD) (w : Fin cfg0.W) : (dat0 (V1' m) c).arrAt w cfg0.N = V2' m c (Pipeline.arrRef spec0 w) :=
  (W2_arr m c w).symm
theorem hrest0 (c : Dev nD) : ∀ b, b ∉ Finset.univ.image (Pipeline.arrRef spec0) → V2' m c b = V1' m c b :=
  fun b hb => W2_of_ne m c b fun w e => hb (Finset.mem_image.mpr ⟨w, Finset.mem_univ _, e⟩)
/-- At the attention region's exit. -/
def W3 (c : Dev nD) : Valuation τ sig (Elt F) :=
  Pipeline.withArrays spec1 c (W2 m c) fun w => (dat1 (V2' m) c).arrAt w cfg1.N
theorem W3_arr (c : Dev nD) (w : Fin cfg1.W) :
    W3 m c (Proc.devRef .tc (Pipeline.arrRef spec1 w)) = (dat1 (V2' m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3' : (c : Dev nD) → (b : Ref sig .tc) → Buf (Elt F) ((c : Thread nD τ).loc b) := fun c b => W3 m c b
theorem hF1 (c : Dev nD) (w : Fin cfg1.W) : (dat1 (V2' m) c).arrAt w cfg1.N = V3' m c (Pipeline.arrRef spec1 w) :=
  (W3_arr m c w).symm
theorem hrest1 (c : Dev nD) : ∀ b, b ∉ Finset.univ.image (Pipeline.arrRef spec1) → V3' m c b = V2' m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1' m) c).arrAt_in 0 rfl _).trans (A_eq0 (V1' m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1' m) c
  | ⟨1, _⟩ => fun c => dat1 (V2' m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at the contents before it, left with them at
    the contents after it. Its arrays are split out of the unscoped buffers and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1' m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1' m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1' m c) (V2' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2' m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2' m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2' m) c
    unfold Pipeline.ΦA at h
    rw [show (pdats m 1 c).Φ 0 = (dat1 (V2' m) c).Φ 0 from rfl]
    iintro ⟨Hp, -, Hr⟩
    iapply h
    isplitl [Hr]; · iexact Hr
    iexact Hp
  hout c := by
    rw [Pipeline.ownSems0_none, show (pdats m 1 c).Φ (Fin.last _) = (dat1 (V2' m) c).Φ (Fin.last cfg1.N) from rfl]
    have h := hout1 (V2' m) c
    unfold Pipeline.ΦA at h
    have h2 : (iprop(Pipeline.scopedRest spec1 c ∗ ∃ r, prngReg c r) : sProp 𝕄)
        ⊢ iprop((∃ r, prngReg c r) ∗ emp ∗ Pipeline.scopedRest spec1 c) := by
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2' m c) (V3' m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final state holds the result buffer at the last fold's contents and each argument as launched. -/
theorem run_main : θ_run defs (onTc (τ := τ) (main (F := F))) ⟨m, fun _ => 0, ρ⟩ (fun r => ∀ c : Dev nD,
      r.2.mem ((c.tc : Thread nD τ).loc main_v6) = W3 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v6 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.IdealFinite.lean ====
/-
  The precondition read back. The finiteness check compares the absolute value of every entry of the four argument
  arrays with +∞ and takes the conjunction of all the comparisons; when the result is one, every entry of every
  argument array is a real number.
-/
import proofs.«175549_j54159537602870_2_alg».proof.Defs
import proofs.«175549_j54159537602870_2_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal.Val

open Idealize.ShloMosaic Idealize.ShloMosaic.ValueIdx Idealize.SL.Sem
open Cert.Pre_finite_inputs (S4096x1024 S1024x1024 S_)

/-- The scalar shape has one index. -/
instance : Subsingleton S_.Idx := ⟨fun a b => funext fun d => d.elim0⟩

/-- The word 0x7F800000 denotes +∞. -/
theorem ofBits_pos_inf : Ideal.ofBits .f32 0x7F800000#32 = (⊤ : EReal) := by simp [Ideal.ofBits, Ideal.ieee]

/-- An extended real whose absolute value is strictly below +∞ is a real number: at either infinity the absolute
    value is +∞ itself. -/
theorem real_of_abs_lt_top (x : EReal) (h : Ideal.cmp .olt (max x (-x)) (Ideal.ofBits .f32 0x7F800000#32) = 1#1) :
    ∃ r : ℝ, x = (r : EReal) := by
  rw [ofBits_pos_inf] at h
  induction x using EReal.rec with
  | bot => exact absurd h (by simp [Ideal.cmp])
  | coe r => exact ⟨r, rfl⟩
  | top => exact absurd h (by simp [Ideal.cmp])

/-- One array's check: when the conjunction, over all entries, of "the absolute value is below +∞" is one, every entry
    is a real number. -/
theorem reals_of_all {S : Shape} {axes : List (Fin S.rank)} (x : FVec Ideal S .f32)
    (bc : S_.BroadcastsInDim S (![] : Fin 0 → Fin S.rank)) (rt : S.ReducesTo axes S_) (hu : 0 < S_.numel)
    (h : Host.reduce IntOp.andi
        (cmpf .olt (Host.absf x) (broadcastInDim S ![] bc (constant (F := Ideal) S_ .f32 0x7F800000#32)))
        (constantI S_ 1 1#1) rt hu ix0 = 1#1)
    (i : S.Idx) : ∃ r : ℝ, x i = (r : EReal) :=
  real_of_abs_lt_top (x i) (Host.reduce_andi_all _ _ rt hu ix0 h i)

/-- The whole check: when it is one, every entry of each of the four arrays is a real number. -/
theorem entries_real (a0 : FVec Ideal S4096x1024 .f32) (a1 a2 a3 : FVec Ideal S1024x1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [Cert.Pre_finite_inputs.fn, Cert.Pre_finite_inputs.fn_part1] at h0
  obtain ⟨h13, h17⟩ := IntOp.andi_eq_one.1 h0
  obtain ⟨h8, h12⟩ := IntOp.andi_eq_one.1 h13
  obtain ⟨h3, h7⟩ := IntOp.andi_eq_one.1 h8
  exact ⟨fun i => reals_of_all a0 _ _ _ h3 i, fun i => reals_of_all a1 _ _ _ h7 i,
    fun i => reals_of_all a2 _ _ _ h12 i, fun i => reals_of_all a3 _ _ _ h17 i⟩

/-- Under the precondition the four argument arrays are arrays of real numbers, entry by entry. -/
theorem reals_of_pre (m : (ℓ : Loc Cert.KernelIdeal.nD Cert.KernelIdeal.τ Cert.KernelIdeal.sig) → Buf (Elt Ideal) ℓ) (c : Dev Cert.KernelIdeal.nD)
    (h : (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)) :
    ∃ (X : Fin 4096 → Fin 1024 → ℝ) (WQ WK WV : Fin 1024 → Fin 1024 → ℝ),
      (∀ s j, m ((c.tc : Thread Cert.KernelIdeal.nD Cert.KernelIdeal.τ).loc Cert.KernelIdeal.main_arg0) (ix2 s j) = ((X s j : ℝ) : EReal))
      ∧ (∀ j d, m ((c.tc : Thread Cert.KernelIdeal.nD Cert.KernelIdeal.τ).loc Cert.KernelIdeal.main_arg1) (ix2 j d) = ((WQ j d : ℝ) : EReal))
      ∧ (∀ j d, m ((c.tc : Thread Cert.KernelIdeal.nD Cert.KernelIdeal.τ).loc Cert.KernelIdeal.main_arg2) (ix2 j d) = ((WK j d : ℝ) : EReal))
      ∧ (∀ j d, m ((c.tc : Thread Cert.KernelIdeal.nD Cert.KernelIdeal.τ).loc Cert.KernelIdeal.main_arg3) (ix2 j d) = ((WV j d : ℝ) : EReal)) := by
  obtain ⟨r0, r1, r2, r3⟩ := entries_real _ _ _ _ h
  choose X hX using fun (s : Fin 4096) (j : Fin 1024) => r0 (ix2 s j)
  choose WQ hQ using fun (j : Fin 1024) (d : Fin 1024) => r1 (ix2 j d)
  choose WK hK using fun (j : Fin 1024) (d : Fin 1024) => r2 (ix2 j d)
  choose WV hV using fun (j : Fin 1024) (d : Fin 1024) => r3 (ix2 j d)
  exact ⟨X, WQ, WK, WV, hX, hQ, hK, hV⟩

end Cert.KernelIdeal.Val

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.LibCoeLift.lean ====
/-
  Extended-real operations on real arguments stay real: finite sums, the quotient by a nonzero real, and a running
  maximum started at -∞ over a nonempty range. With these, a chain of sums, products, exponentials, quotients and
  maxima of real inputs is read as one real number.
-/
import Idealize.ShloMosaic.PureOps.Ideal
import Idealize.ShloMosaic.PureOps.Ideal.Laws

noncomputable section

namespace Cert.Proof.CoeLift

open Idealize.ShloMosaic

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The extended quotient of two reals, the divisor nonzero, is the real quotient. -/
theorem div_coe_coe (a b : ℝ) (hb : b ≠ 0) : Ideal.div (a : EReal) (b : EReal) = ((a / b : ℝ) : EReal) := by
  rw [Ideal.div_coe hb, ← EReal.coe_mul, mul_one_div]

/-- The word of the negative infinity denotes the bottom of the extended reals. -/
theorem ofBits_neg_inf : Ideal.ofBits .f32 0xFF800000#32 = (⊥ : EReal) := by
  simp [Ideal.ofBits, Ideal.ieee]

/-- A running maximum from -∞ over a nonempty finite set of reals is a real. -/
theorem fold_max_coe_of_nonempty {ι : Type} (s : Finset ι) (hs : s.Nonempty) (f : ι → ℝ) :
    ∃ c : ℝ, s.fold max (⊥ : EReal) (fun i => ((f i : ℝ) : EReal)) = (c : EReal) := by
  induction hs using Finset.Nonempty.cons_induction with
  | singleton a => exact ⟨f a, by rw [Finset.fold_singleton, max_bot_right]⟩
  | cons a s ha hs ih =>
    obtain ⟨c, hc⟩ := ih
    exact ⟨max (f a) c, by rw [Finset.fold_cons, hc]; exact (EReal.coe_strictMono.monotone.map_max).symm⟩

/-- The same over a whole nonempty range. -/
theorem fold_max_coe {n : ℕ} (hn : 0 < n) (f : Fin n → ℝ) :
    ∃ c : ℝ, (Finset.univ : Finset (Fin n)).fold max (⊥ : EReal) (fun i => ((f i : ℝ) : EReal)) = (c : EReal) :=
  fold_max_coe_of_nonempty _ ⟨⟨0, hn⟩, Finset.mem_univ _⟩ f

end Cert.Proof.CoeLift

end
-- ==== Proof.IdealPayloads.lean ====
/-
  The values the idealized kernel computes, read at one entry as sums, maxima and exponentials of extended reals.

  The projection kernel forms three matrix products of one block of rows with three weight matrices. The attention
  kernel keeps, for each row, a running maximum, a running sum of exponentials and a running weighted sum; at one
  tile of keys it forms the scores (a product of the row block with the key tile, contracted over the feature axis),
  raises the maximum, rescales the two running sums by the exponential of the maximum's change and adds the tile's
  terms; at the end it divides the weighted sum by the sum of exponentials. Every statement below is one of these
  values at explicit coordinates.
-/
import proofs.«175549_j54159537602870_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«175549_j54159537602870_2_alg».proof.Proof.LibPlainDot
import proofs.«175549_j54159537602870_2_alg».proof.Proof.LibCoeLift

noncomputable section

namespace Cert.KernelIdeal.Pay

open Cert.KernelIdeal Cert.KernelIdeal.Gen Idealize.ShloMosaic
open Idealize.ShloMosaic.ValueIdx

/-! ## Matrix products at an entry -/

/-- A product of a 512 × 1024 block with a 1024 × 1024 matrix, into zero, at entry (p, d): the sum over j of
    the block at (p, j) times the matrix at (j, d). -/
theorem proj_dot_apply (x : FVec Ideal S512x1024 .bf16) (w : FVec Ideal S1024x1024 .bf16) (p : Fin 512) (d : Fin 1024) :
    FloatOps.matmul dot_S512x1024_S1024x1024_S512x1024_1_0_0_1_n_n none x w
        (constant (F := Ideal) S512x1024 .f32 0x00000000#32) (ix2 p d)
      = ∑ j : Fin 1024, x (ix2 p j) * w (ix2 j d) := by
  refine Cert.LibPlainDot.matmul_zero_apply dot_S512x1024_S1024x1024_S512x1024_1_0_0_1_n_n none 1024 rfl rfl x w
    (ix2 p d) (fun j => ix2 p j) (fun j => ix2 j d) (fun q => ?_) (fun q => ?_)
  · refine Cert.LibPlainDot.ext2 _ _ ?_ ?_
    · unfold DotDims.lhsIdx
      rw [dif_neg (show ¬(0 : Fin S512x1024.rank) ∈ dot_S512x1024_S1024x1024_S512x1024_1_0_0_1_n_n.lhsBatch by decide),
        dif_pos (show (0 : Fin S512x1024.rank) ∈ dot_S512x1024_S1024x1024_S512x1024_1_0_0_1_n_n.lhsNonContracting by decide)]
      rfl
    · exact dot_S512x1024_S1024x1024_S512x1024_1_0_0_1_n_n.lhsIdx_val_of_single rfl (ix2 p d) q
  · refine Cert.LibPlainDot.ext2 _ _ ?_ ?_
    · exact dot_S512x1024_S1024x1024_S512x1024_1_0_0_1_n_n.rhsIdx_val_of_single rfl (ix2 p d) q
    · unfold DotDims.rhsIdx
      rw [dif_neg (show ¬(1 : Fin S1024x1024.rank) ∈ dot_S512x1024_S1024x1024_S512x1024_1_0_0_1_n_n.rhsBatch by decide),
        dif_pos (show (1 : Fin S1024x1024.rank) ∈ dot_S512x1024_S1024x1024_S512x1024_1_0_0_1_n_n.rhsNonContracting by decide)]
      rfl

/-- The first projection at entry (p, d): the sum over j of the block at (p, j) times the weight at (j, d). -/
theorem k0_pay2_apply (x0 : Vec Ideal S512x1024 .f32) (x1 : Vec Ideal S1024x1024 .bf16) (p : Fin 512) (d : Fin 1024) :
    k0_pay2 (F := Ideal) x0 x1 (ix2 p d) = ∑ j : Fin 1024, x0 (ix2 p j) * x1 (ix2 j d) := by
  unfold k0_pay2 k0_pay1
  rw [shapeCast_self]
  exact proj_dot_apply _ x1 p d

/-- The second projection at entry (p, d), likewise. -/
theorem k0_pay3_apply (x0 : Vec Ideal S512x1024 .f32) (x1 : Vec Ideal S1024x1024 .bf16) (p : Fin 512) (d : Fin 1024) :
    k0_pay3 (F := Ideal) x0 x1 (ix2 p d) = ∑ j : Fin 1024, x0 (ix2 p j) * x1 (ix2 j d) := by
  unfold k0_pay3 k0_pay1
  rw [shapeCast_self]
  exact proj_dot_apply _ x1 p d

/-- The third projection at entry (p, d), likewise. -/
theorem k0_pay4_apply (x0 : Vec Ideal S512x1024 .f32) (x1 : Vec Ideal S1024x1024 .bf16) (p : Fin 512) (d : Fin 1024) :
    k0_pay4 (F := Ideal) x0 x1 (ix2 p d) = ∑ j : Fin 1024, x0 (ix2 p j) * x1 (ix2 j d) := by
  unfold k0_pay4 k0_pay1
  rw [shapeCast_self]
  exact proj_dot_apply _ x1 p d

/-- A product of a 512 × 1024 block with the transpose of a 512 × 1024 block, into zero, at entry (p, t): the sum
    over d of the first at (p, d) times the second at (t, d). -/
theorem score_dot_apply (x y : FVec Ideal S512x1024 .bf16) (p t : Fin 512) :
    FloatOps.matmul dot_S512x1024_S512x1024_S512x512_1_1_0_0_n_n none x y
        (constant (F := Ideal) S512x512 .f32 0x00000000#32) (ix2 p t)
      = ∑ d : Fin 1024, x (ix2 p d) * y (ix2 t d) := by
  refine Cert.LibPlainDot.matmul_zero_apply dot_S512x1024_S512x1024_S512x512_1_1_0_0_n_n none 1024 rfl rfl x y
    (ix2 p t) (fun d => ix2 p d) (fun d => ix2 t d) (fun q => ?_) (fun q => ?_)
  · refine Cert.LibPlainDot.ext2 _ _ ?_ ?_
    · unfold DotDims.lhsIdx
      rw [dif_neg (show ¬(0 : Fin S512x1024.rank) ∈ dot_S512x1024_S512x1024_S512x512_1_1_0_0_n_n.lhsBatch by decide),
        dif_pos (show (0 : Fin S512x1024.rank) ∈ dot_S512x1024_S512x1024_S512x512_1_1_0_0_n_n.lhsNonContracting by decide)]
      rfl
    · exact dot_S512x1024_S512x1024_S512x512_1_1_0_0_n_n.lhsIdx_val_of_single rfl (ix2 p t) q
  · refine Cert.LibPlainDot.ext2 _ _ ?_ ?_
    · unfold DotDims.rhsIdx
      rw [dif_neg (show ¬(0 : Fin S512x1024.rank) ∈ dot_S512x1024_S512x1024_S512x512_1_1_0_0_n_n.rhsBatch by decide),
        dif_pos (show (0 : Fin S512x1024.rank) ∈ dot_S512x1024_S512x1024_S512x512_1_1_0_0_n_n.rhsNonContracting by decide)]
      rfl
    · exact dot_S512x1024_S512x1024_S512x512_1_1_0_0_n_n.rhsIdx_val_of_single rfl (ix2 p t) q

/-- The scores at entry (p, t): the sum over d of the query block at (p, d) times the key tile at (t, d). -/
theorem k1_pay8_apply (v5 v8 : Vec Ideal S512x1024 .bf16) (p t : Fin 512) :
    k1_pay8 (F := Ideal) v5 v8 (ix2 p t) = ∑ d : Fin 1024, v5 (ix2 p d) * v8 (ix2 t d) := by
  unfold k1_pay8
  rw [shapeCast_self, shapeCast_self]
  exact score_dot_apply v5 v8 p t

/-! ## A column added, a column spread over the columns -/

/-- A vector of a entries viewed as an a × 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column spread over b columns reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Row reductions of a 512 × 512 tile -/

/-- The row index (p) with the column coordinate t put back is the entry (p, t). -/
theorem lift_row (p t : Fin 512) : reduces_S512x512_S512.lift (ix1 p) t = ix2 p t :=
  Cert.LibPlainDot.ext2 _ _ rfl rfl

/-- The maximum of row p of a 512 × 512 tile, started from -∞: the running maximum from -∞ over the row's entries. -/
theorem row_max_apply (src : FVec Ideal S512x512 .f32) (hφ : FKind.Formats .f32)
    (hacc : (0xFF800000#32 : BitVec 32) = FKind.maximumf.neutral .f32 hφ) (p : Fin 512) :
    multiReduction (F := Ideal) .maximumf [1] S512 src 0xFF800000#32 reduces_S512x512_S512 hφ hacc (ix1 p)
      = (Finset.univ : Finset (Fin 512)).fold max (⊥ : EReal) (fun t => src (ix2 p t)) := by
  refine (Ideal.multiReduction_maximumf_single src 0xFF800000#32 reduces_S512x512_S512 hφ hacc (ix1 p)).trans ?_
  rw [Ideal.ofBits_def, Cert.Proof.CoeLift.ofBits_neg_inf]
  exact congrArg (Finset.fold max (⊥ : EReal) · (Finset.univ : Finset (Fin 512))) (funext fun t => congrArg src (lift_row p t))

/-- The sum of row p of a 512 × 512 tile: the sum over the row's entries. -/
theorem row_sum_apply (src : FVec Ideal S512x512 .f32) (hφ : FKind.Formats .f32)
    (hacc : (0x00000000#32 : BitVec 32) = FKind.add.neutral .f32 hφ) (p : Fin 512) :
    multiReduction (F := Ideal) .add [1] S512 src 0x00000000#32 reduces_S512x512_S512 hφ hacc (ix1 p)
      = ∑ t : Fin 512, src (ix2 p t) := by
  refine (Ideal.multiReduction_add_single src 0x00000000#32 reduces_S512x512_S512 hφ hacc (ix1 p)).trans ?_
  exact Finset.sum_congr rfl fun t _ => congrArg src (lift_row p t)

/-! ## The attention step at an entry -/

/-- The new running maximum of row p: the larger of the old one and the maximum, from -∞, of the row's scores. -/
theorem k1_pay9_apply (v5 v8 : Vec Ideal S512x1024 .bf16) (v14 : Vec Ideal S512x1 .f32) (p : Fin 512) :
    k1_pay9 (F := Ideal) v5 v8 v14 (ix2 p (0 : Fin 1))
      = max (v14 (ix2 p (0 : Fin 1)))
          ((Finset.univ : Finset (Fin 512)).fold max (⊥ : EReal) (fun t => k1_pay8 (F := Ideal) v5 v8 (ix2 p t))) := by
  unfold k1_pay9
  refine congrArg (max (v14 (ix2 p (0 : Fin 1)))) ?_
  refine (shapeCast_a_a1_apply _ shapeCasts_S512_S512x1 p (0 : Fin 1)).trans ?_
  exact row_max_apply (k1_pay8 (F := Ideal) v5 v8) _ _ p

/-- The factor that rescales row p's running sums: the exponential of the old reference point minus the new maximum. -/
theorem k1_pay10_apply (v5 v8 : Vec Ideal S512x1024 .bf16) (v14 v18 : Vec Ideal S512x1 .f32) (p : Fin 512) :
    k1_pay10 (F := Ideal) v5 v8 v14 v18 (ix2 p (0 : Fin 1))
      = Ideal.exp (v18 (ix2 p (0 : Fin 1)) - k1_pay9 (F := Ideal) v5 v8 v14 (ix2 p (0 : Fin 1))) := rfl

/-- The tile's term at (p, t): the exponential of the score minus row p's new maximum. -/
theorem k1_pay11_apply (v5 v8 : Vec Ideal S512x1024 .bf16) (v14 : Vec Ideal S512x1 .f32) (p t : Fin 512) :
    k1_pay11 (F := Ideal) v5 v8 v14 (ix2 p t)
      = Ideal.exp (k1_pay8 (F := Ideal) v5 v8 (ix2 p t) - k1_pay9 (F := Ideal) v5 v8 v14 (ix2 p (0 : Fin 1))) := by
  unfold k1_pay11
  exact congrArg (fun z => Ideal.exp (k1_pay8 (F := Ideal) v5 v8 (ix2 p t) - z))
    (broadcastTo_a1_ab_apply (k1_pay9 (F := Ideal) v5 v8 v14) broadcasts_S512x1_S512x512 p t)

/-- The new running sum of row p: the rescaling factor times the old sum, plus the sum of the tile's terms. -/
theorem k1_pay12_apply (v5 v8 : Vec Ideal S512x1024 .bf16) (v14 v18 v24 : Vec Ideal S512x1 .f32) (p : Fin 512) :
    k1_pay12 (F := Ideal) v5 v8 v14 v18 v24 (ix2 p (0 : Fin 1))
      = k1_pay10 (F := Ideal) v5 v8 v14 v18 (ix2 p (0 : Fin 1)) * v24 (ix2 p (0 : Fin 1))
        + ∑ t : Fin 512, k1_pay11 (F := Ideal) v5 v8 v14 (ix2 p t) := by
  unfold k1_pay12
  rw [shapeCast_self]
  refine congrArg (k1_pay10 (F := Ideal) v5 v8 v14 v18 (ix2 p (0 : Fin 1)) * v24 (ix2 p (0 : Fin 1)) + ·) ?_
  refine (shapeCast_a_a1_apply _ shapeCasts_S512_S512x1 p (0 : Fin 1)).trans ?_
  exact row_sum_apply (k1_pay11 (F := Ideal) v5 v8 v14) _ _ p

/-- The rescaled running weighted sum at (p, d): row p's rescaling factor times the old weighted sum there. -/
theorem k1_pay13_apply (v5 v8 : Vec Ideal S512x1024 .bf16) (v14 v18 : Vec Ideal S512x1 .f32)
    (v32 : Vec Ideal S512x1024 .f32) (p : Fin 512) (d : Fin 1024) :
    k1_pay13 (F := Ideal) v5 v8 v14 v18 v32 (ix2 p d)
      = k1_pay10 (F := Ideal) v5 v8 v14 v18 (ix2 p (0 : Fin 1)) * v32 (ix2 p d) := by
  unfold k1_pay13
  exact congrArg (· * v32 (ix2 p d))
    (broadcastTo_a1_ab_apply (k1_pay10 (F := Ideal) v5 v8 v14 v18) broadcasts_S512x1_S512x1024 p d)

/-- The tile's terms in the narrower format are the same extended reals. -/
theorem k1_pay14_apply (v5 v8 : Vec Ideal S512x1024 .bf16) (v14 : Vec Ideal S512x1 .f32) (p t : Fin 512) :
    k1_pay14 (F := Ideal) v5 v8 v14 (ix2 p t) = k1_pay11 (F := Ideal) v5 v8 v14 (ix2 p t) := rfl

/-- A block recast to its own shape is the block. -/
theorem k1_pay7_eq (v11 : Vec Ideal S512x1024 .bf16) : k1_pay7 (F := Ideal) v11 = v11 := by
  unfold k1_pay7
  exact shapeCast_self _ _

/-- A column recast to its own shape is the column. -/
theorem k1_pay2_eq (v17 : FVec Ideal S512x1 .f32) : k1_pay2 (F := Ideal) v17 = v17 := by
  unfold k1_pay2
  exact shapeCast_self _ _

/-- A product of a 512 × 512 tile with a 512 × 1024 block, into zero, at entry (p, d): the sum over t of the tile at
    (p, t) times the block at (t, d). -/
theorem value_dot_apply (x : FVec Ideal S512x512 .bf16) (w : FVec Ideal S512x1024 .bf16) (p : Fin 512) (d : Fin 1024) :
    FloatOps.matmul dot_S512x512_S512x1024_S512x1024_1_0_0_1_n_n none x w
        (constant (F := Ideal) S512x1024 .f32 0x00000000#32) (ix2 p d)
      = ∑ t : Fin 512, x (ix2 p t) * w (ix2 t d) := by
  refine Cert.LibPlainDot.matmul_zero_apply dot_S512x512_S512x1024_S512x1024_1_0_0_1_n_n none 512 rfl rfl x w
    (ix2 p d) (fun t => ix2 p t) (fun t => ix2 t d) (fun q => ?_) (fun q => ?_)
  · refine Cert.LibPlainDot.ext2 _ _ ?_ ?_
    · unfold DotDims.lhsIdx
      rw [dif_neg (show ¬(0 : Fin S512x512.rank) ∈ dot_S512x512_S512x1024_S512x1024_1_0_0_1_n_n.lhsBatch by decide),
        dif_pos (show (0 : Fin S512x512.rank) ∈ dot_S512x512_S512x1024_S512x1024_1_0_0_1_n_n.lhsNonContracting by decide)]
      rfl
    · exact dot_S512x512_S512x1024_S512x1024_1_0_0_1_n_n.lhsIdx_val_of_single rfl (ix2 p d) q
  · refine Cert.LibPlainDot.ext2 _ _ ?_ ?_
    · exact dot_S512x512_S512x1024_S512x1024_1_0_0_1_n_n.rhsIdx_val_of_single rfl (ix2 p d) q
    · unfold DotDims.rhsIdx
      rw [dif_neg (show ¬(1 : Fin S512x1024.rank) ∈ dot_S512x512_S512x1024_S512x1024_1_0_0_1_n_n.rhsBatch by decide),
        dif_pos (show (1 : Fin S512x1024.rank) ∈ dot_S512x512_S512x1024_S512x1024_1_0_0_1_n_n.rhsNonContracting by decide)]
      rfl

/-- The new running weighted sum at (p, d): the rescaled old one plus the sum over t of the tile's term at (p, t)
    times the value tile at (t, d). -/
theorem k1_pay1_apply (v12 : FVec Ideal S512x1024 .bf16) (v34 : FVec Ideal S512x1024 .f32)
    (v35 : FVec Ideal S512x512 .bf16) (p : Fin 512) (d : Fin 1024) :
    k1_pay1 (F := Ideal) v12 v34 v35 (ix2 p d)
      = v34 (ix2 p d) + ∑ t : Fin 512, v35 (ix2 p t) * v12 (ix2 t d) := by
  unfold k1_pay1
  rw [shapeCast_self]
  exact congrArg (v34 (ix2 p d) + ·) (value_dot_apply v35 v12 p d)

/-- The output at (p, d): the weighted sum there divided by row p's sum of exponentials. -/
theorem k1_pay3_apply (v47 : Vec Ideal S512x1024 .f32) (v48 : Vec Ideal S512x1 .f32) (p : Fin 512) (d : Fin 1024) :
    k1_pay3 (F := Ideal) v47 v48 (ix2 p d) = Ideal.div (v47 (ix2 p d)) (v48 (ix2 p (0 : Fin 1))) := by
  unfold k1_pay3
  exact congrArg (Ideal.div (v47 (ix2 p d))) (broadcastTo_a1_ab_apply v48 broadcasts_S512x1_S512x1024 p d)

/-- The running maximum starts at -∞. -/
theorem k1_pay4_apply (p : Fin 512) : k1_pay4 (F := Ideal) (ix2 p (0 : Fin 1)) = (⊥ : EReal) := by
  unfold k1_pay4
  rw [shapeCast_self]
  exact Cert.Proof.CoeLift.ofBits_neg_inf

/-- The running sum starts at zero. -/
theorem k1_pay5_apply (p : Fin 512) : k1_pay5 (F := Ideal) (ix2 p (0 : Fin 1)) = (0 : EReal) := by
  unfold k1_pay5
  rw [shapeCast_self]
  exact Ideal.ofBits_zero_f32

/-- The running weighted sum starts at zero. -/
theorem k1_pay6_apply (p : Fin 512) (d : Fin 1024) : k1_pay6 (F := Ideal) (ix2 p d) = (0 : EReal) := by
  unfold k1_pay6
  rw [shapeCast_self]
  exact Ideal.ofBits_zero_f32

end Cert.KernelIdeal.Pay

end
-- ==== Proof.RefValue.lean ====
/-
  The reference program read as one function of its argument arrays.

  The reference computes q = x·Wq, k = x·Wk, v = x·Wv, the logits (q·kᵀ)·(1/√1024), subtracts each row's maximum,
  exponentiates, divides each row by its sum, and multiplies by v. This module states that function index by index
  and shows that the reference's run ends with it.
-/
import proofs.«175549_j54159537602870_2_alg».proof.Proof.Gen.ReferenceIdeal.Read
import proofs.«175549_j54159537602870_2_alg».proof.Proof.LibPlainDot
import Idealize.ShloMosaic.Lib.ValueIdx
import Idealize.ShloMosaic.PureOps.Ideal.Laws

noncomputable section

namespace Cert.RefValue

open Idealize.ShloMosaic
open Idealize.ShloMosaic.ValueIdx (ix1 ix2 eq_ix2)
open Cert.ReferenceIdeal (S4096x1024 S1024x1024 S4096x4096 S4096 S4096x1 S_)
open Cert.LibPlainDot (ext2)
open scoped BigOperators

/-! ## The function

Every array is a function from its indices to the extended reals; a row index `s` or `t` ranges over the 4096
positions, a feature index `d` or `j` over the 1024 features. -/

/-- The query projection: entry (s, d) of x·Wq, the sum over the input features j of x(s, j) · Wq(j, d). -/
def q (x : S4096x1024.Idx → EReal) (Wq : S1024x1024.Idx → EReal) (s : Fin 4096) (d : Fin 1024) : EReal :=
  ∑ j : Fin 1024, x (ix2 s j) * Wq (ix2 j d)

/-- The key projection: entry (t, d) of x·Wk, the sum over the input features j of x(t, j) · Wk(j, d). -/
def k (x : S4096x1024.Idx → EReal) (Wk : S1024x1024.Idx → EReal) (t : Fin 4096) (d : Fin 1024) : EReal :=
  ∑ j : Fin 1024, x (ix2 t j) * Wk (ix2 j d)

/-- The value projection: entry (t, d) of x·Wv, the sum over the input features j of x(t, j) · Wv(j, d). -/
def v (x : S4096x1024.Idx → EReal) (Wv : S1024x1024.Idx → EReal) (t : Fin 4096) (d : Fin 1024) : EReal :=
  ∑ j : Fin 1024, x (ix2 t j) * Wv (ix2 j d)

/-- The scale 1/√1024 exactly as the reference forms it: the quotient of the number the word 0x3F800000 denotes by the
    square root of the number the word 0x44800000 denotes. Neither word is evaluated here. -/
def scale : EReal :=
  Ideal.div (Ideal.ofBits .f32 0x3F800000#32) (Ideal.sqrt (Ideal.ofBits .f32 0x44800000#32))

/-- The logit of query position s against key position t: the inner product of their projections over the 1024
    features, times the scale. -/
def logit (x : S4096x1024.Idx → EReal) (Wq Wk : S1024x1024.Idx → EReal) (s t : Fin 4096) : EReal :=
  (∑ d : Fin 1024, q x Wq s d * k x Wk t d) * scale

/-- The maximum of row s of the logits, as a running maximum: the fold of `max` over the 4096 key positions started
    at the number the word 0xFF800000 denotes, and once more the maximum of that number with the result. -/
def rowMax (x : S4096x1024.Idx → EReal) (Wq Wk : S1024x1024.Idx → EReal) (s : Fin 4096) : EReal :=
  max (Ideal.ofBits .f32 0xFF800000#32)
    ((Finset.univ : Finset (Fin 4096)).fold max (Ideal.ofBits .f32 0xFF800000#32) (fun t => logit x Wq Wk s t))

/-- The unnormalised weight of key position t for query position s: the exponential of the logit minus its row's
    maximum. -/
def e (x : S4096x1024.Idx → EReal) (Wq Wk : S1024x1024.Idx → EReal) (s t : Fin 4096) : EReal :=
  Ideal.exp (logit x Wq Wk s t - rowMax x Wq Wk s)

/-- The normaliser of row s: the number the zero word denotes plus the sum of the row's 4096 weights. -/
def denom (x : S4096x1024.Idx → EReal) (Wq Wk : S1024x1024.Idx → EReal) (s : Fin 4096) : EReal :=
  Ideal.ofBits .f32 0x00000000#32 + ∑ t : Fin 4096, e x Wq Wk s t

/-- The attention output at (s, d): the sum over the key positions t of the normalised weight (the extended-real
    quotient of the weight by its row's normaliser) times the value projection at (t, d). -/
def out (x : S4096x1024.Idx → EReal) (Wq Wk Wv : S1024x1024.Idx → EReal) (s : Fin 4096) (d : Fin 1024) : EReal :=
  ∑ t : Fin 4096, Ideal.div (e x Wq Wk s t) (denom x Wq Wk s) * v x Wv t d

/-! ## Two facts about the row's maximum -/

/-- The outer maximum with the initial value changes nothing: the running maximum already starts from it. -/
theorem rowMax_eq_fold (x : S4096x1024.Idx → EReal) (Wq Wk : S1024x1024.Idx → EReal) (s : Fin 4096) :
    rowMax x Wq Wk s
      = (Finset.univ : Finset (Fin 4096)).fold max (Ideal.ofBits .f32 0xFF800000#32) (fun t => logit x Wq Wk s t) :=
  max_eq_right ((Finset.le_fold_max _).mpr (Or.inl le_rfl))

/-- Every logit of a row is at most the row's maximum. -/
theorem logit_le_rowMax (x : S4096x1024.Idx → EReal) (Wq Wk : S1024x1024.Idx → EReal) (s t : Fin 4096) :
    logit x Wq Wk s t ≤ rowMax x Wq Wk s :=
  le_max_of_le_right ((Finset.le_fold_max _).mpr (Or.inr ⟨t, Finset.mem_univ t, le_rfl⟩))

/-! ## The reference's stages at an index

Each stage of the reference is read at an index built from literal coordinates; a stage's own index map, applied to
such an index, is again one (the two agree coordinate by coordinate). -/

open Cert.ReferenceIdeal.Read

variable (x0 : S4096x1024.Idx → EReal) (x1 x2 x3 : S1024x1024.Idx → EReal)

/-- x·Wq at (s, d) is the query projection. -/
theorem val_v0 (s : Fin 4096) (d : Fin 1024) : val_main_v0 (F := Ideal) x0 x1 (ix2 s d) = q x0 x1 s d :=
  (val_main_v0_apply x0 x1 (ix2 s d)).trans (Finset.sum_congr rfl fun j _ => by
    rw [ext2 (lidx_main_v0 (ix2 s d) j) (ix2 s j) rfl rfl, ext2 (ridx_main_v0 (ix2 s d) j) (ix2 j d) rfl rfl])

/-- x·Wk at (t, d) is the key projection. -/
theorem val_v1 (t : Fin 4096) (d : Fin 1024) : val_main_v1 (F := Ideal) x0 x2 (ix2 t d) = k x0 x2 t d :=
  (val_main_v1_apply x0 x2 (ix2 t d)).trans (Finset.sum_congr rfl fun j _ => by
    rw [ext2 (lidx_main_v1 (ix2 t d) j) (ix2 t j) rfl rfl, ext2 (ridx_main_v1 (ix2 t d) j) (ix2 j d) rfl rfl])

/-- x·Wv at (t, d) is the value projection. -/
theorem val_v2 (t : Fin 4096) (d : Fin 1024) : val_main_v2 (F := Ideal) x0 x3 (ix2 t d) = v x0 x3 t d :=
  (val_main_v2_apply x0 x3 (ix2 t d)).trans (Finset.sum_congr rfl fun j _ => by
    rw [ext2 (lidx_main_v2 (ix2 t d) j) (ix2 t j) rfl rfl, ext2 (ridx_main_v2 (ix2 t d) j) (ix2 j d) rfl rfl])

/-- q·kᵀ at (s, t) is the inner product of the two projections over the features. -/
theorem val_v5 (s t : Fin 4096) :
    val_main_v5 (F := Ideal) x0 x1 x2 (ix2 s t) = ∑ d : Fin 1024, q x0 x1 s d * k x0 x2 t d :=
  (val_main_v5_apply x0 x1 x2 (ix2 s t)).trans (Finset.sum_congr rfl fun d _ => by
    rw [ext2 (lidx_main_v5 (ix2 s t) d) (ix2 s d) rfl rfl, ext2 (ridx_main_v5 (ix2 s t) d) (ix2 t d) rfl rfl,
      val_v0, val_v1])

/-- The broadcast scalar is the scale at every index. -/
theorem val_v6 (i : S4096x4096.Idx) : val_main_v6 (F := Ideal) i = scale := by
  rw [val_main_v6_apply]; rfl

/-- The scaled product at (s, t) is the logit. -/
theorem val_v7 (s t : Fin 4096) : val_main_v7 (F := Ideal) x0 x1 x2 (ix2 s t) = logit x0 x1 x2 s t := by
  rw [val_main_v7_apply, val_v5, val_v6]; rfl

/-- Row s's index with the key position t put back on the reduced axis is (s, t). -/
theorem lift_row (h : S4096x4096.Reduces [1] S4096) (s t : Fin 4096) : h.lift (ix1 s) t = ix2 s t :=
  funext fun c => Fin.ext (by match c with | ⟨0, _⟩ => rfl | ⟨1, _⟩ => rfl)

/-- The maximum-reduce over the key positions, at row s: the fold of `max` over the 4096 logits of the row from the
    initial value. -/
theorem val_v8 (s : Fin 4096) :
    val_main_v8 (F := Ideal) x0 x1 x2 (ix1 s)
      = (Finset.univ : Finset (Fin 4096)).fold max (Ideal.ofBits .f32 0xFF800000#32) (fun t => logit x0 x1 x2 s t) := by
  have h : S4096x4096.Reduces [1] S4096 := by decide
  unfold val_main_v8
  rw [Host.reduce_eq_fold_single FloatOps.maximumf _ _ _ h _ (ix1 s)]
  have hf : (val_main_v7 (F := Ideal) x0 x1 x2 ∘ h.lift (ix1 s)) = fun t : Fin 4096 => logit x0 x1 x2 s t :=
    funext fun t => (congrArg (val_main_v7 (F := Ideal) x0 x1 x2) (lift_row h s t)).trans (val_v7 x0 x1 x2 s t)
  exact congrArg (fun f => Finset.fold max (Ideal.ofBits .f32 0xFF800000#32) f (Finset.univ : Finset (Fin 4096))) hf

/-- The maximum with the broadcast initial value, at row s, is the row's maximum. -/
theorem val_v10 (s : Fin 4096) : val_main_v10 (F := Ideal) x0 x1 x2 (ix1 s) = rowMax x0 x1 x2 s := by
  rw [val_main_v10_apply, val_main_v9_apply, val_main_cst_2_apply, val_v8]; rfl

/-- The row's maximum broadcast along the row. -/
theorem val_v12 (s t : Fin 4096) : val_main_v12 (F := Ideal) x0 x1 x2 (ix2 s t) = rowMax x0 x1 x2 s := by
  rw [val_main_v12_apply, val_main_v11_apply]
  exact (congrArg (val_main_v10 (F := Ideal) x0 x1 x2)
    (funext fun a => Fin.ext (by match a with | ⟨0, _⟩ => rfl) : idx_main_v11 (idx_main_v12 (ix2 s t)) = ix1 s)).trans
    (val_v10 x0 x1 x2 s)

/-- The exponential of the shifted logit at (s, t) is the weight. -/
theorem val_v14 (s t : Fin 4096) : val_main_v14 (F := Ideal) x0 x1 x2 (ix2 s t) = e x0 x1 x2 s t := by
  rw [val_main_v14_apply, val_main_v13_apply, val_v7, val_v12]; rfl

/-- The sum-reduce over the key positions, at row s, is the normaliser. -/
theorem val_v15 (s : Fin 4096) : val_main_v15 (F := Ideal) x0 x1 x2 (ix1 s) = denom x0 x1 x2 s := by
  rw [val_main_v15_apply]
  unfold denom
  refine congrArg (Ideal.ofBits .f32 0x00000000#32 + ·) (Finset.sum_congr rfl fun t _ => ?_)
  rw [ext2 (idx_main_v15 (ix1 s) t) (ix2 s t) rfl rfl, val_v14]

/-- The normaliser broadcast along the row. -/
theorem val_v17 (s t : Fin 4096) : val_main_v17 (F := Ideal) x0 x1 x2 (ix2 s t) = denom x0 x1 x2 s := by
  rw [val_main_v17_apply, val_main_v16_apply]
  exact (congrArg (val_main_v15 (F := Ideal) x0 x1 x2)
    (funext fun a => Fin.ext (by match a with | ⟨0, _⟩ => rfl) : idx_main_v16 (idx_main_v17 (ix2 s t)) = ix1 s)).trans
    (val_v15 x0 x1 x2 s)

/-- The quotient at (s, t) is the normalised weight. -/
theorem val_v18 (s t : Fin 4096) :
    val_main_v18 (F := Ideal) x0 x1 x2 (ix2 s t) = Ideal.div (e x0 x1 x2 s t) (denom x0 x1 x2 s) := by
  rw [val_main_v18_apply, val_v14, val_v17]; rfl

/-! ## The reference is `out` -/

/-- The reference's last stage at (s, d) is `out` there. -/
theorem val_main_v19_ix2 (s : Fin 4096) (d : Fin 1024) :
    val_main_v19 (F := Ideal) x0 x1 x2 x3 (ix2 s d) = out x0 x1 x2 x3 s d :=
  (val_main_v19_apply x0 x1 x2 x3 (ix2 s d)).trans (Finset.sum_congr rfl fun t _ => by
    rw [ext2 (lidx_main_v19 (ix2 s d) t) (ix2 s t) rfl rfl, ext2 (ridx_main_v19 (ix2 s d) t) (ix2 t d) rfl rfl,
      val_v18, val_v2])

/-- THE THEOREM: at every index the reference's last stage is `out` at the index's two coordinates. -/
theorem val_main_v19_eq_out (i : S4096x1024.Idx) :
    val_main_v19 (F := Ideal) x0 x1 x2 x3 i = out x0 x1 x2 x3 (i 0) (i 1) :=
  (congrArg (val_main_v19 (F := Ideal) x0 x1 x2 x3) (eq_ix2 i)).trans (val_main_v19_ix2 x0 x1 x2 x3 (i 0) (i 1))

/-- The same as an equation of arrays. -/
theorem val_main_v19_fun :
    val_main_v19 (F := Ideal) x0 x1 x2 x3 = fun i => out x0 x1 x2 x3 (i 0) (i 1) :=
  funext (val_main_v19_eq_out x0 x1 x2 x3)

/-! ## The run -/

section Run

open Cert.ReferenceIdeal Cert.ReferenceIdeal.Gen Idealize.ShloMosaic.TcCoe Idealize.SL.Sem Idealize.ShloMosaic.StableHlo

/-- On every device, from any memory with zero counters, every weakly fair execution of the reference terminates with
    its result array equal, index by index, to `out` of the argument arrays as they were at the start, and the argument
    arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
          = (fun i => out (m ((c.tc : Thread nD τ).loc main_arg0)) (m ((c.tc : Thread nD τ).loc main_arg1))
              (m ((c.tc : Thread nD τ).loc main_arg2)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((val_main_v19_eq _ _ _ _).trans (val_main_v19_fun _ _ _ _)), (h c).2⟩)
    (Cert.ReferenceIdeal.Value.run (F := Ideal) m ρ)

end Run

end Cert.RefValue

end
-- ==== Proof.LibOnlineSoftmax.lean ====
/-
  A streaming softmax. The softmax-weighted sum of one row, with scores s i and values v i, can be taken tile by
  tile: keep the running maximum m of the scores seen so far, the running sum l of exp (s i - m) and the running
  weighted sum a of exp (s i - m) * v i; at a new tile, with m' the new maximum, multiply both sums by
  exp (m - m') and add the tile's terms exp (s i - m') and exp (s i - m') * v i. When every key has been seen,
  a / l is the one-pass softmax-weighted sum  ∑ i, exp (s i - M) / (∑ k, exp (s k - M)) * v i  with M the maximum
  of all scores. The running maximum starts at -∞, so the statements live in the extended reals, where
  exp (-∞) = 0; every proof finds the real numbers behind the extended ones and is then real algebra
  (exp (x + y) = exp x * exp y, a sum over a disjoint union).

  Also here: a constant factor moved out of a double sum, and the values of a few constants.
-/
import Idealize.ShloMosaic.PureOps.Ideal
import Idealize.ShloMosaic.PureOps.Ideal.Laws
import Mathlib

noncomputable section

namespace Cert.LibOnlineSoftmax

open Idealize.ShloMosaic

/-! ## Extended-real operations on real arguments -/

/-- A finite sum of reals, taken in the extended reals, is the real sum. -/
theorem coe_finset_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The extended quotient of two reals, the divisor nonzero, is the real quotient. -/
theorem div_coe_real (a b : ℝ) (hb : b ≠ 0) :
    Ideal.div (a : EReal) (b : EReal) = ((a / b : ℝ) : EReal) := by
  rw [Ideal.div_coe hb, ← EReal.coe_mul, mul_one_div]

/-- The extended exponential of a difference of two reals is the real exponential of the difference. -/
theorem exp_coe_sub_coe (x y : ℝ) :
    Ideal.exp ((x : EReal) - (y : EReal)) = ((Real.exp (x - y) : ℝ) : EReal) := by
  rw [← EReal.coe_sub, Ideal.exp_coe]

/-- The extended exponential of -∞ minus anything is zero: -∞ - x = -∞ and exp (-∞) = 0. -/
theorem exp_bot_sub (x : EReal) : Ideal.exp (⊥ - x) = 0 := by
  rw [EReal.bot_sub, Ideal.exp_bot]

/-- The maximum of two reals, taken in the extended reals, is the real maximum. -/
theorem max_coe_coe (x y : ℝ) : max (x : EReal) (y : EReal) = ((max x y : ℝ) : EReal) :=
  (EReal.coe_strictMono.monotone.map_max).symm

/-! ## The maximum of a nonempty finite family of reals -/

/-- An extended real that is above every member of a nonempty finite family of reals and equal to one of them
    is the family's maximum. -/
theorem eq_coe_sup' {ι : Type*} (s : ι → ℝ) (t : Finset ι) (ht : t.Nonempty) (μ : EReal)
    (hle : ∀ i ∈ t, ((s i : ℝ) : EReal) ≤ μ) (hex : ∃ i ∈ t, μ = ((s i : ℝ) : EReal)) :
    μ = ((t.sup' ht s : ℝ) : EReal) := by
  obtain ⟨j, hj, rfl⟩ := hex
  refine congrArg _ (le_antisymm (Finset.le_sup' s hj) (Finset.sup'_le ht s fun i hi => ?_))
  exact EReal.coe_le_coe_iff.mp (hle i hi)

/-- The running maximum from -∞ over a nonempty finite family of reals is the family's maximum. -/
theorem fold_max_eq_coe_sup' {ι : Type*} (s : ι → ℝ) (t : Finset ι) (ht : t.Nonempty) :
    t.fold max (⊥ : EReal) (fun i => ((s i : ℝ) : EReal)) = ((t.sup' ht s : ℝ) : EReal) := by
  induction ht using Finset.Nonempty.cons_induction with
  | singleton a => rw [Finset.fold_singleton, max_bot_right, Finset.sup'_singleton]
  | cons a t ha ht ih => rw [Finset.fold_cons, ih, Finset.sup'_cons ht, max_coe_coe]

/-- So that running maximum is above every member of the family. -/
theorem le_fold_max {ι : Type*} (s : ι → ℝ) (t : Finset ι) :
    ∀ i ∈ t, ((s i : ℝ) : EReal) ≤ t.fold max (⊥ : EReal) (fun i => ((s i : ℝ) : EReal)) := by
  intro i hi
  rw [fold_max_eq_coe_sup' s t ⟨i, hi⟩]
  exact EReal.coe_le_coe_iff.mpr (Finset.le_sup' s hi)

/-- And, the family nonempty, it is one of the members. -/
theorem fold_max_mem {ι : Type*} (s : ι → ℝ) (t : Finset ι) (ht : t.Nonempty) :
    ∃ i ∈ t, t.fold max (⊥ : EReal) (fun i => ((s i : ℝ) : EReal)) = ((s i : ℝ) : EReal) := by
  obtain ⟨i, hi, h⟩ := Finset.exists_mem_eq_sup' ht s
  exact ⟨i, hi, by rw [fold_max_eq_coe_sup' s t ht, h]⟩

/-! ## Changing the reference point of a sum of exponentials -/

/-- Multiplying a sum of terms exp (s i - M) * w i by exp (M - M') moves the reference point from M to M'. -/
theorem rescale_sum {ι : Type*} (s w : ι → ℝ) (t : Finset ι) (M M' : ℝ) :
    Real.exp (M - M') * ∑ i ∈ t, Real.exp (s i - M) * w i = ∑ i ∈ t, Real.exp (s i - M') * w i := by
  rw [Finset.mul_sum]
  refine Finset.sum_congr rfl fun i _ => ?_
  rw [← mul_assoc, ← Real.exp_add, show M - M' + (s i - M) = s i - M' by ring]

/-- The same without weights. -/
theorem rescale_sum_one {ι : Type*} (s : ι → ℝ) (t : Finset ι) (M M' : ℝ) :
    Real.exp (M - M') * ∑ i ∈ t, Real.exp (s i - M) = ∑ i ∈ t, Real.exp (s i - M') := by
  simpa using rescale_sum s (fun _ => 1) t M M'

/-! ## The invariant of the streaming softmax -/

/-- The state (m, l, a) after the keys in seen: before any key it is (-∞, 0, 0); afterwards m is the maximum
    score over seen, l the sum of exp (s i - m) and a the sum of exp (s i - m) * v i over seen. -/
def Inv {ι : Type*} (s v : ι → ℝ) (seen : Finset ι) (m l a : EReal) : Prop :=
  (seen = ∅ ∧ m = ⊥ ∧ l = 0 ∧ a = 0) ∨
  ∃ h : seen.Nonempty, m = ((seen.sup' h s : ℝ) : EReal) ∧
    l = ((∑ i ∈ seen, Real.exp (s i - seen.sup' h s) : ℝ) : EReal) ∧
    a = ((∑ i ∈ seen, Real.exp (s i - seen.sup' h s) * v i : ℝ) : EReal)

/-- The starting state (-∞, 0, 0) satisfies the invariant with no key seen. -/
theorem inv_init {ι : Type*} (s v : ι → ℝ) : Inv s v ∅ ⊥ 0 0 :=
  Or.inl ⟨rfl, rfl, rfl, rfl⟩

/-- One step: from a state satisfying the invariant on seen, a nonempty tile of new keys with maximum score μ
    gives — the new maximum m' = max m μ, both sums multiplied by exp (m - m') and the tile's terms added — a state
    satisfying the invariant on seen ∪ tile. -/
theorem inv_step {ι : Type*} [DecidableEq ι] (s v : ι → ℝ) (seen tile : Finset ι) (m l a μ : EReal)
    (hinv : Inv s v seen m l a) (ht : tile.Nonempty) (hdisj : Disjoint seen tile)
    (hle : ∀ i ∈ tile, ((s i : ℝ) : EReal) ≤ μ) (hex : ∃ i ∈ tile, μ = ((s i : ℝ) : EReal)) :
    Inv s v (seen ∪ tile) (max m μ)
      (Ideal.exp (m - max m μ) * l + ∑ i ∈ tile, Ideal.exp (((s i : ℝ) : EReal) - max m μ))
      (Ideal.exp (m - max m μ) * a
        + ∑ i ∈ tile, Ideal.exp (((s i : ℝ) : EReal) - max m μ) * ((v i : ℝ) : EReal)) := by
  have hμ := eq_coe_sup' s tile ht μ hle hex
  subst hμ
  rcases hinv with ⟨rfl, rfl, rfl, rfl⟩ | ⟨h, rfl, rfl, rfl⟩
  · rw [Finset.empty_union, max_bot_left, exp_bot_sub]
    refine Or.inr ⟨ht, rfl, ?_, ?_⟩
    · simp only [mul_zero, zero_add, exp_coe_sub_coe, coe_finset_sum]
    · simp only [mul_zero, zero_add, exp_coe_sub_coe, ← EReal.coe_mul, coe_finset_sum]
  · have hM' : (seen ∪ tile).sup' (h.mono Finset.subset_union_left) s
        = max (seen.sup' h s) (tile.sup' ht s) := by
      rw [Finset.sup'_union h ht s]
    refine Or.inr ⟨h.mono Finset.subset_union_left, ?_, ?_, ?_⟩
    · rw [max_coe_coe, hM']
    · rw [hM', max_coe_coe]
      simp only [exp_coe_sub_coe, ← EReal.coe_mul, coe_finset_sum, ← EReal.coe_add]
      rw [Finset.sum_union hdisj, rescale_sum_one]
    · rw [hM', max_coe_coe]
      simp only [exp_coe_sub_coe, ← EReal.coe_mul, coe_finset_sum, ← EReal.coe_add]
      rw [Finset.sum_union hdisj, rescale_sum]

/-- The same step with the tile's maximum taken as the running maximum from -∞ over the tile. -/
theorem inv_step_fold {ι : Type*} [DecidableEq ι] (s v : ι → ℝ) (seen tile : Finset ι) (m l a : EReal)
    (hinv : Inv s v seen m l a) (ht : tile.Nonempty) (hdisj : Disjoint seen tile) :
    Inv s v (seen ∪ tile) (max m (tile.fold max (⊥ : EReal) (fun i => ((s i : ℝ) : EReal))))
      (Ideal.exp (m - max m (tile.fold max (⊥ : EReal) (fun i => ((s i : ℝ) : EReal)))) * l
        + ∑ i ∈ tile, Ideal.exp (((s i : ℝ) : EReal)
            - max m (tile.fold max (⊥ : EReal) (fun i => ((s i : ℝ) : EReal)))))
      (Ideal.exp (m - max m (tile.fold max (⊥ : EReal) (fun i => ((s i : ℝ) : EReal)))) * a
        + ∑ i ∈ tile, Ideal.exp (((s i : ℝ) : EReal)
            - max m (tile.fold max (⊥ : EReal) (fun i => ((s i : ℝ) : EReal)))) * ((v i : ℝ) : EReal)) :=
  inv_step s v seen tile m l a _ hinv ht hdisj (le_fold_max s tile) (fold_max_mem s tile ht)

/-! ## The end of the stream -/

/-- Once every key has been seen the state holds real numbers: m the maximum R of all scores, l the positive sum
    of exp (s i - R), a the sum of exp (s i - R) * v i. -/
theorem inv_univ {ι : Type*} [Fintype ι] [Nonempty ι] (s v : ι → ℝ) (m l a : EReal)
    (hinv : Inv s v Finset.univ m l a) :
    m = ((Finset.univ.sup' Finset.univ_nonempty s : ℝ) : EReal)
      ∧ l = ((∑ i, Real.exp (s i - Finset.univ.sup' Finset.univ_nonempty s) : ℝ) : EReal)
      ∧ a = ((∑ i, Real.exp (s i - Finset.univ.sup' Finset.univ_nonempty s) * v i : ℝ) : EReal)
      ∧ 0 < ∑ i, Real.exp (s i - Finset.univ.sup' Finset.univ_nonempty s) := by
  rcases hinv with ⟨h0, -⟩ | ⟨h, hm, hl, ha⟩
  · exact absurd h0 Finset.univ_nonempty.ne_empty
  · exact ⟨hm, hl, ha, Finset.sum_pos (fun i _ => Real.exp_pos _) Finset.univ_nonempty⟩

/-- At the end the quotient a / l is the real number (∑ exp (s i - R) * v i) / (∑ exp (s k - R)), R the maximum of
    all scores. -/
theorem div_end_real {ι : Type*} [Fintype ι] [Nonempty ι] (s v : ι → ℝ) (m l a : EReal)
    (hinv : Inv s v Finset.univ m l a) :
    Ideal.div a l
      = (((∑ i, Real.exp (s i - Finset.univ.sup' Finset.univ_nonempty s) * v i)
          / (∑ k, Real.exp (s k - Finset.univ.sup' Finset.univ_nonempty s)) : ℝ) : EReal) := by
  obtain ⟨-, rfl, rfl, hpos⟩ := inv_univ s v m l a hinv
  exact div_coe_real _ _ hpos.ne'

/-- The one-pass softmax-weighted sum, written with extended-real operations and reference point the maximum M of
    all scores, is the same real number. -/
theorem onepass_real {ι : Type*} [Fintype ι] [Nonempty ι] (s v : ι → ℝ) (M : EReal)
    (hle : ∀ i, ((s i : ℝ) : EReal) ≤ M) (hex : ∃ i, M = ((s i : ℝ) : EReal)) :
    ∑ i, Ideal.div (Ideal.exp (((s i : ℝ) : EReal) - M)) (0 + ∑ k, Ideal.exp (((s k : ℝ) : EReal) - M))
        * ((v i : ℝ) : EReal)
      = (((∑ i, Real.exp (s i - Finset.univ.sup' Finset.univ_nonempty s) * v i)
          / (∑ k, Real.exp (s k - Finset.univ.sup' Finset.univ_nonempty s)) : ℝ) : EReal) := by
  have hM := eq_coe_sup' s Finset.univ Finset.univ_nonempty M (fun i _ => hle i)
    (by obtain ⟨i, hi⟩ := hex; exact ⟨i, Finset.mem_univ i, hi⟩)
  subst hM
  have hpos : 0 < ∑ k, Real.exp (s k - Finset.univ.sup' Finset.univ_nonempty s) :=
    Finset.sum_pos (fun i _ => Real.exp_pos _) Finset.univ_nonempty
  simp only [exp_coe_sub_coe, coe_finset_sum, zero_add, div_coe_real _ _ hpos.ne', ← EReal.coe_mul]
  rw [Finset.sum_div]
  exact congrArg _ (Finset.sum_congr rfl fun i _ => div_mul_eq_mul_div _ _ _)

/-- The end of the stream: with every key seen, a / l is the one-pass softmax-weighted sum
    ∑ i, exp (s i - M) / (0 + ∑ k, exp (s k - M)) * v i, M the maximum of all scores. -/
theorem div_end {ι : Type*} [Fintype ι] [Nonempty ι] (s v : ι → ℝ) (m l a M : EReal)
    (hinv : Inv s v Finset.univ m l a)
    (hle : ∀ i, ((s i : ℝ) : EReal) ≤ M) (hex : ∃ i, M = ((s i : ℝ) : EReal)) :
    Ideal.div a l
      = ∑ i, Ideal.div (Ideal.exp (((s i : ℝ) : EReal) - M)) (0 + ∑ k, Ideal.exp (((s k : ℝ) : EReal) - M))
          * ((v i : ℝ) : EReal) := by
  rw [div_end_real s v m l a hinv, onepass_real s v M hle hex]

/-- The same with the one-pass side in plain extended-real operations: exponentials of coerced differences,
    the quotient a product with an inverse, no leading zero. -/
theorem div_end_plain {ι : Type*} [Fintype ι] [Nonempty ι] (s v : ι → ℝ) (m l a : EReal) (R : ℝ)
    (hinv : Inv s v Finset.univ m l a) (hle : ∀ i, s i ≤ R) (hex : ∃ i, R = s i) :
    Ideal.div a l
      = ∑ i, ((Real.exp (s i - R) : ℝ) : EReal) * (((∑ k, Real.exp (s k - R) : ℝ) : EReal))⁻¹
          * ((v i : ℝ) : EReal) := by
  rw [div_end s v m l a (R : EReal) hinv (fun i => EReal.coe_le_coe_iff.mpr (hle i))
    (by obtain ⟨i, hi⟩ := hex; exact ⟨i, congrArg _ hi⟩)]
  have hpos : 0 < ∑ k, Real.exp (s k - R) :=
    Finset.sum_pos (fun i _ => Real.exp_pos _) Finset.univ_nonempty
  refine Finset.sum_congr rfl fun i _ => ?_
  simp only [exp_coe_sub_coe, coe_finset_sum, zero_add]
  rw [Ideal.div, if_neg (by exact_mod_cast hpos.ne')]

/-- The end of the stream with the overall maximum taken as the running maximum from -∞ over all scores. -/
theorem div_end_fold {ι : Type*} [Fintype ι] [Nonempty ι] (s v : ι → ℝ) (m l a : EReal)
    (hinv : Inv s v Finset.univ m l a) :
    Ideal.div a l
      = ∑ i, Ideal.div
            (Ideal.exp (((s i : ℝ) : EReal)
              - Finset.univ.fold max (⊥ : EReal) (fun k => ((s k : ℝ) : EReal))))
            (0 + ∑ k, Ideal.exp (((s k : ℝ) : EReal)
              - Finset.univ.fold max (⊥ : EReal) (fun k => ((s k : ℝ) : EReal))))
          * ((v i : ℝ) : EReal) := by
  obtain ⟨j, -, hj⟩ := fold_max_mem s Finset.univ Finset.univ_nonempty
  exact div_end s v m l a _ hinv (fun i => le_fold_max s Finset.univ i (Finset.mem_univ i)) ⟨j, hj⟩

/-! ## Constants -/

/-- The single-precision word 0x44800000 denotes 1024. -/
theorem ofBits_1024 : Ideal.ofBits .f32 0x44800000#32 = ((1024 : ℝ) : EReal) := by
  simp [Ideal.ofBits, Ideal.ieee, -EReal.coe_mul]; norm_num

/-- The single-precision word 0x3F800000 denotes 1. -/
theorem ofBits_one : Ideal.ofBits .f32 0x3F800000#32 = ((1 : ℝ) : EReal) := by
  simp [Ideal.ofBits, Ideal.ieee, -EReal.coe_mul]; norm_num

/-- The single-precision word 0x3D000000 denotes 1/32. -/
theorem ofBits_inv32 : Ideal.ofBits .f32 0x3D000000#32 = ((1 / 32 : ℝ) : EReal) := by
  simp [Ideal.ofBits, Ideal.ieee, -EReal.coe_mul]; norm_num

/-- The single-precision word 0x00000000 denotes 0. -/
theorem ofBits_zero : Ideal.ofBits .f32 0x00000000#32 = 0 := Ideal.ofBits_zero_f32

/-- The square root of 1024 is 32, since 1024 = 32². -/
theorem sqrt_1024 : Ideal.sqrt ((1024 : ℝ) : EReal) = ((32 : ℝ) : EReal) := by
  have h : Real.sqrt 1024 = 32 := by
    rw [show (1024 : ℝ) = 32 ^ 2 by norm_num]; exact Real.sqrt_sq (by norm_num)
  rw [Ideal.sqrt_coe, if_neg (by norm_num), h]

/-- One over the square root of 1024 is 1/32. -/
theorem one_div_sqrt_1024 :
    Ideal.div ((1 : ℝ) : EReal) (Ideal.sqrt ((1024 : ℝ) : EReal)) = ((1 / 32 : ℝ) : EReal) := by
  rw [sqrt_1024, div_coe_real _ _ (by norm_num)]

/-! ## A constant factor leaves a double sum -/

/-- Over the reals: a factor c on every weight w j d comes out of the sum over d of (∑ j, x j * w j d) * k d. -/
theorem scale_out_finset {α β : Type*} (J : Finset α) (D : Finset β) (x : α → ℝ) (w : α → β → ℝ) (k : β → ℝ)
    (c : ℝ) :
    ∑ d ∈ D, (∑ j ∈ J, x j * (w j d * c)) * k d = (∑ d ∈ D, (∑ j ∈ J, x j * w j d) * k d) * c := by
  rw [Finset.sum_mul]
  refine Finset.sum_congr rfl fun d _ => ?_
  have h : ∑ j ∈ J, x j * (w j d * c) = (∑ j ∈ J, x j * w j d) * c := by
    rw [Finset.sum_mul]; exact Finset.sum_congr rfl fun j _ => (mul_assoc _ _ _).symm
  rw [h]; ring

/-- The same over finite index types. -/
theorem scale_out {α β : Type*} [Fintype α] [Fintype β] (x : α → ℝ) (w : α → β → ℝ) (k : β → ℝ) (c : ℝ) :
    ∑ d, (∑ j, x j * (w j d * c)) * k d = (∑ d, (∑ j, x j * w j d) * k d) * c :=
  scale_out_finset Finset.univ Finset.univ x w k c

/-- A double sum of products of coerced reals is the coerced real double sum. -/
theorem coe_double_sum {α β : Type*} [Fintype α] [Fintype β] (x : α → ℝ) (w : α → β → ℝ) (k : β → ℝ) :
    ∑ d, (∑ j, ((x j : ℝ) : EReal) * ((w j d : ℝ) : EReal)) * ((k d : ℝ) : EReal)
      = ((∑ d, (∑ j, x j * w j d) * k d : ℝ) : EReal) := by
  simp only [← EReal.coe_mul, coe_finset_sum]

/-- The extended-real form, every entry a coerced real: the factor comes out of the double sum. -/
theorem scale_out_coe {α β : Type*} [Fintype α] [Fintype β] (x : α → ℝ) (w : α → β → ℝ) (k : β → ℝ) (c : ℝ) :
    ∑ d, (∑ j, ((x j : ℝ) : EReal) * (((w j d : ℝ) : EReal) * ((c : ℝ) : EReal))) * ((k d : ℝ) : EReal)
      = (∑ d, (∑ j, ((x j : ℝ) : EReal) * ((w j d : ℝ) : EReal)) * ((k d : ℝ) : EReal)) * ((c : ℝ) : EReal) := by
  simp only [← EReal.coe_mul, coe_finset_sum]
  rw [scale_out]

end Cert.LibOnlineSoftmax

end
-- ==== Proof.Bridge.lean ====
/-
  The streaming softmax-weighted sum equals the one-pass attention output.

  With real inputs X (4096 positions by 1024 features) and real weights WQ, WK, WV, every array of the one-pass
  computation is a real number: the key and value projections Kr = X·WK and Vr = X·WV, the query projection with the
  scale folded into the weight, Qr = X·(WQ·(1/32)), and the scores, score s t = ∑ d, Qr s d · Kr t d, which are the
  one-pass logits (X·WQ)(X·WK)ᵀ·(1/√1024) because 1/√1024 = 1/32 and a constant factor leaves a double sum. The one-pass
  output at (s, d) is then the softmax-weighted sum of the values Vr t d with scores score s t, which a state satisfying
  the streaming invariant over all 4096 key positions reproduces as the quotient a / l.

  Last, the 4096 key positions as 8 tiles of 512: the positions below 512·(k+1) are the positions below 512·k together
  with tile k, and a sum or a running maximum over a tile is one over its 512 offsets.
-/
import proofs.«175549_j54159537602870_2_alg».proof.Proof.RefValue
import proofs.«175549_j54159537602870_2_alg».proof.Proof.LibOnlineSoftmax
import proofs.«175549_j54159537602870_2_alg».proof.Proof.LibCoeLift

noncomputable section

namespace Cert.Bridge

open Idealize.ShloMosaic
open Idealize.ShloMosaic.ValueIdx (ix2)
open Cert.ReferenceIdeal (S4096x1024 S1024x1024)
open Cert.LibOnlineSoftmax

/-! ## The real arrays -/

/-- The query projection with the scale 1/32 folded into the weight: entry (s, d) of X·(WQ·(1/32)). -/
def Qr (X : Fin 4096 → Fin 1024 → ℝ) (WQ : Fin 1024 → Fin 1024 → ℝ) (s : Fin 4096) (d : Fin 1024) : ℝ :=
  ∑ j, X s j * (WQ j d * (1 / 32))

/-- The key projection: entry (t, d) of X·WK. -/
def Kr (X : Fin 4096 → Fin 1024 → ℝ) (WK : Fin 1024 → Fin 1024 → ℝ) (t : Fin 4096) (d : Fin 1024) : ℝ :=
  ∑ j, X t j * WK j d

/-- The value projection: entry (t, d) of X·WV. -/
def Vr (X : Fin 4096 → Fin 1024 → ℝ) (WV : Fin 1024 → Fin 1024 → ℝ) (t : Fin 4096) (d : Fin 1024) : ℝ :=
  ∑ j, X t j * WV j d

/-- The score of query position s against key position t: the inner product of the scaled query projection and the
    key projection over the 1024 features. -/
def score (X : Fin 4096 → Fin 1024 → ℝ) (WQ WK : Fin 1024 → Fin 1024 → ℝ) (s t : Fin 4096) : ℝ :=
  ∑ d, Qr X WQ s d * Kr X WK t d

/-! ## The one-pass arrays are these reals -/

section Reals

variable (X : Fin 4096 → Fin 1024 → ℝ) (WQ WK WV : Fin 1024 → Fin 1024 → ℝ)
  (x : S4096x1024.Idx → EReal) (wq wk wv : S1024x1024.Idx → EReal)

/-- A projection of real inputs by real weights, taken in the extended reals, is the real projection. -/
theorem proj_eq (W : Fin 1024 → Fin 1024 → ℝ) (w : S1024x1024.Idx → EReal)
    (hx : ∀ s j, x (ix2 s j) = ((X s j : ℝ) : EReal)) (hw : ∀ j d, w (ix2 j d) = ((W j d : ℝ) : EReal))
    (s : Fin 4096) (d : Fin 1024) :
    ∑ j : Fin 1024, x (ix2 s j) * w (ix2 j d) = ((∑ j, X s j * W j d : ℝ) : EReal) := by
  simp only [hx, hw, ← EReal.coe_mul, coe_finset_sum]

/-- The one-pass key projection is the real key projection. -/
theorem k_eq (hx : ∀ s j, x (ix2 s j) = ((X s j : ℝ) : EReal)) (hk : ∀ j d, wk (ix2 j d) = ((WK j d : ℝ) : EReal))
    (t : Fin 4096) (d : Fin 1024) : RefValue.k x wk t d = ((Kr X WK t d : ℝ) : EReal) :=
  proj_eq X x WK wk hx hk t d

/-- The one-pass value projection is the real value projection. -/
theorem v_eq (hx : ∀ s j, x (ix2 s j) = ((X s j : ℝ) : EReal)) (hv : ∀ j d, wv (ix2 j d) = ((WV j d : ℝ) : EReal))
    (t : Fin 4096) (d : Fin 1024) : RefValue.v x wv t d = ((Vr X WV t d : ℝ) : EReal) :=
  proj_eq X x WV wv hx hv t d

/-- The projection by the weight times 1/32, taken in the extended reals, is the real scaled query projection. -/
theorem q_scaled_eq (hx : ∀ s j, x (ix2 s j) = ((X s j : ℝ) : EReal))
    (hq : ∀ j d, wq (ix2 j d) = ((WQ j d : ℝ) : EReal)) (s : Fin 4096) (d : Fin 1024) :
    ∑ j : Fin 1024, x (ix2 s j) * (wq (ix2 j d) * ((1 / 32 : ℝ) : EReal)) = ((Qr X WQ s d : ℝ) : EReal) := by
  unfold Qr
  simp only [hx, hq, ← EReal.coe_mul, coe_finset_sum]

/-- The one-pass scale 1/√1024 is 1/32. -/
theorem scale_eq : RefValue.scale = ((1 / 32 : ℝ) : EReal) := by
  unfold RefValue.scale
  rw [ofBits_one, ofBits_1024, one_div_sqrt_1024]

/-- The one-pass logit is the real score: the scale, applied after the inner product there, is inside the query
    projection here. -/
theorem logit_eq (hx : ∀ s j, x (ix2 s j) = ((X s j : ℝ) : EReal))
    (hq : ∀ j d, wq (ix2 j d) = ((WQ j d : ℝ) : EReal)) (hk : ∀ j d, wk (ix2 j d) = ((WK j d : ℝ) : EReal))
    (s t : Fin 4096) : RefValue.logit x wq wk s t = ((score X WQ WK s t : ℝ) : EReal) := by
  unfold RefValue.logit RefValue.q
  rw [scale_eq]
  simp only [k_eq X WK x wk hx hk, proj_eq X x WQ wq hx hq, ← EReal.coe_mul, coe_finset_sum]
  unfold score Qr
  rw [scale_out]

/-- The one-pass output written over the real scores and values: the softmax-weighted sum with the running maximum
    from -∞ as reference point and a leading zero in the normaliser. -/
theorem out_eq (hx : ∀ s j, x (ix2 s j) = ((X s j : ℝ) : EReal))
    (hq : ∀ j d, wq (ix2 j d) = ((WQ j d : ℝ) : EReal)) (hk : ∀ j d, wk (ix2 j d) = ((WK j d : ℝ) : EReal))
    (hv : ∀ j d, wv (ix2 j d) = ((WV j d : ℝ) : EReal)) (s : Fin 4096) (d : Fin 1024) :
    RefValue.out x wq wk wv s d
      = ∑ t : Fin 4096, Ideal.div
            (Ideal.exp (((score X WQ WK s t : ℝ) : EReal)
              - (Finset.univ : Finset (Fin 4096)).fold max (⊥ : EReal) (fun k => ((score X WQ WK s k : ℝ) : EReal))))
            (0 + ∑ k : Fin 4096, Ideal.exp (((score X WQ WK s k : ℝ) : EReal)
              - (Finset.univ : Finset (Fin 4096)).fold max (⊥ : EReal) (fun k => ((score X WQ WK s k : ℝ) : EReal))))
          * ((Vr X WV t d : ℝ) : EReal) := by
  unfold RefValue.out RefValue.denom RefValue.e
  simp only [RefValue.rowMax_eq_fold, logit_eq X WQ WK x wq wk hx hq hk, v_eq X WV x wv hx hv,
    Cert.Proof.CoeLift.ofBits_neg_inf, Ideal.ofBits_zero_f32]

/-- THE BRIDGE: a state satisfying the streaming invariant over all 4096 key positions, for the scores of query
    position s and the values of feature d, has quotient a / l equal to the one-pass output at (s, d). -/
theorem bridge (hx : ∀ s j, x (ix2 s j) = ((X s j : ℝ) : EReal))
    (hq : ∀ j d, wq (ix2 j d) = ((WQ j d : ℝ) : EReal)) (hk : ∀ j d, wk (ix2 j d) = ((WK j d : ℝ) : EReal))
    (hv : ∀ j d, wv (ix2 j d) = ((WV j d : ℝ) : EReal)) (s : Fin 4096) (d : Fin 1024) (m l a : EReal)
    (hinv : Inv (fun t : Fin 4096 => score X WQ WK s t) (fun t => Vr X WV t d) Finset.univ m l a) :
    Ideal.div a l = RefValue.out x wq wk wv s d := by
  rw [out_eq X WQ WK WV x wq wk wv hx hq hk hv s d]
  exact div_end_fold (fun t : Fin 4096 => score X WQ WK s t) (fun t => Vr X WV t d) m l a hinv

end Reals

/-! ## The key positions as 8 tiles of 512 -/

/-- Offset t of tile k is position 512·k + t. -/
def tileIdx (ki : Fin 8) (t : Fin 512) : Fin 4096 :=
  ⟨512 * ki.val + t.val, by have := ki.isLt; have := t.isLt; omega⟩

/-- The position of offset t of tile k, as a number. -/
theorem tileIdx_val (ki : Fin 8) (t : Fin 512) : (tileIdx ki t).val = 512 * ki.val + t.val := rfl

/-- Distinct offsets of a tile are distinct positions. -/
theorem tileIdx_injective (ki : Fin 8) : Function.Injective (tileIdx ki) := by
  intro t t' h
  have h' := congrArg Fin.val h
  simp only [tileIdx_val] at h'
  exact Fin.ext (by omega)

/-- Tile k: the 512 positions 512·k, …, 512·k + 511. -/
def tile (ki : Fin 8) : Finset (Fin 4096) := Finset.univ.image (tileIdx ki)

/-- The positions below 512·(k+1): tiles 0 to k. -/
def seen (ki : Fin 8) : Finset (Fin 4096) := Finset.univ.filter fun j => j.val < 512 * (ki.val + 1)

/-- The positions below 512·k: the tiles before tile k. -/
def seenBefore (ki : Fin 8) : Finset (Fin 4096) := Finset.univ.filter fun j => j.val < 512 * ki.val

/-- A position is in tile k exactly when it lies from 512·k up to, not including, 512·(k+1). -/
theorem mem_tile (ki : Fin 8) (j : Fin 4096) :
    j ∈ tile ki ↔ 512 * ki.val ≤ j.val ∧ j.val < 512 * (ki.val + 1) := by
  unfold tile
  rw [Finset.mem_image]
  constructor
  · rintro ⟨t, -, rfl⟩
    have := t.isLt
    simp only [tileIdx_val]
    omega
  · rintro ⟨h1, h2⟩
    exact ⟨⟨j.val - 512 * ki.val, by omega⟩, Finset.mem_univ _, Fin.ext (by simp only [tileIdx_val]; omega)⟩

/-- A position is among those up to tile k exactly when it is below 512·(k+1). -/
theorem mem_seen (ki : Fin 8) (j : Fin 4096) : j ∈ seen ki ↔ j.val < 512 * (ki.val + 1) := by
  simp [seen]

/-- A position is before tile k exactly when it is below 512·k. -/
theorem mem_seenBefore (ki : Fin 8) (j : Fin 4096) : j ∈ seenBefore ki ↔ j.val < 512 * ki.val := by
  simp [seenBefore]

/-- Before tile 0 there is nothing. -/
theorem seenBefore_zero : seenBefore 0 = ∅ := by
  ext j
  simp [mem_seenBefore]

/-- Before tile k+1 are the positions up to tile k. -/
theorem seenBefore_succ (ki : Fin 8) (h : ki.val + 1 < 8) : seenBefore ⟨ki.val + 1, h⟩ = seen ki := rfl

/-- The positions up to tile k are those before it together with it. -/
theorem seen_eq_union (ki : Fin 8) : seen ki = seenBefore ki ∪ tile ki := by
  ext j
  rw [Finset.mem_union, mem_seen, mem_seenBefore, mem_tile]
  omega

/-- A tile is disjoint from the positions before it. -/
theorem disjoint_seenBefore_tile (ki : Fin 8) : Disjoint (seenBefore ki) (tile ki) := by
  rw [Finset.disjoint_left]
  intro j hj ht
  rw [mem_seenBefore] at hj
  rw [mem_tile] at ht
  omega

/-- A tile is not empty. -/
theorem tile_nonempty (ki : Fin 8) : (tile ki).Nonempty :=
  ⟨tileIdx ki ⟨0, by norm_num⟩, Finset.mem_image_of_mem _ (Finset.mem_univ _)⟩

/-- The positions up to tile 0 are tile 0. -/
theorem seen_zero : seen 0 = tile 0 := by
  rw [seen_eq_union, seenBefore_zero, Finset.empty_union]

/-- The positions up to tile k+1 are those up to tile k together with tile k+1. -/
theorem seen_succ (ki : Fin 8) (h : ki.val + 1 < 8) : seen ⟨ki.val + 1, h⟩ = seen ki ∪ tile ⟨ki.val + 1, h⟩ := by
  rw [seen_eq_union, seenBefore_succ]

/-- Tile k+1 is disjoint from the positions up to tile k. -/
theorem disjoint_seen_tile (ki : Fin 8) (h : ki.val + 1 < 8) : Disjoint (seen ki) (tile ⟨ki.val + 1, h⟩) := by
  rw [← seenBefore_succ ki h]
  exact disjoint_seenBefore_tile _

/-- The positions up to the last tile are all positions. -/
theorem seen_last : seen ⟨7, by norm_num⟩ = Finset.univ := by
  ext j
  have := j.isLt
  simp only [mem_seen, Finset.mem_univ, iff_true]
  omega

/-- A sum over a tile is the sum over its 512 offsets. -/
theorem sum_tile {M : Type*} [AddCommMonoid M] (ki : Fin 8) (f : Fin 4096 → M) :
    ∑ j ∈ tile ki, f j = ∑ t : Fin 512, f (tileIdx ki t) :=
  Finset.sum_image fun t _ t' _ h => tileIdx_injective ki h

/-- A running maximum over a tile is the running maximum over its 512 offsets. -/
theorem fold_max_tile (ki : Fin 8) (b : EReal) (f : Fin 4096 → EReal) :
    (tile ki).fold max b f = (Finset.univ : Finset (Fin 512)).fold max b (fun t => f (tileIdx ki t)) :=
  Finset.fold_image fun t _ t' _ h => tileIdx_injective ki h

/-- One streaming step over tile k, written over the tile's 512 offsets: from a state satisfying the invariant on
    the positions before tile k to one satisfying it on the positions up to tile k. -/
theorem inv_step_tile (sc vl : Fin 4096 → ℝ) (ki : Fin 8) (m l a : EReal)
    (hinv : Inv sc vl (seenBefore ki) m l a) :
    Inv sc vl (seen ki)
      (max m ((Finset.univ : Finset (Fin 512)).fold max (⊥ : EReal) (fun t => ((sc (tileIdx ki t) : ℝ) : EReal))))
      (Ideal.exp (m - max m ((Finset.univ : Finset (Fin 512)).fold max (⊥ : EReal)
            (fun t => ((sc (tileIdx ki t) : ℝ) : EReal)))) * l
        + ∑ t : Fin 512, Ideal.exp (((sc (tileIdx ki t) : ℝ) : EReal)
            - max m ((Finset.univ : Finset (Fin 512)).fold max (⊥ : EReal)
                (fun t => ((sc (tileIdx ki t) : ℝ) : EReal)))))
      (Ideal.exp (m - max m ((Finset.univ : Finset (Fin 512)).fold max (⊥ : EReal)
            (fun t => ((sc (tileIdx ki t) : ℝ) : EReal)))) * a
        + ∑ t : Fin 512, Ideal.exp (((sc (tileIdx ki t) : ℝ) : EReal)
            - max m ((Finset.univ : Finset (Fin 512)).fold max (⊥ : EReal)
                (fun t => ((sc (tileIdx ki t) : ℝ) : EReal)))) * ((vl (tileIdx ki t) : ℝ) : EReal)) := by
  have h := inv_step_fold sc vl (seenBefore ki) (tile ki) m l a hinv (tile_nonempty ki)
    (disjoint_seenBefore_tile ki)
  rw [← seen_eq_union, fold_max_tile, sum_tile, sum_tile] at h
  exact h

end Cert.Bridge

end
-- ==== Proof.IdealValue0.lean ====
/-
  The projection region's three result arrays, entry by entry. The host stretch before the region multiplies Wq by the
  number the word 0x3D000000 denotes (1/32) and leaves Wk and Wv as they are; the region then writes, block of 512 rows
  by block, the products of x with the three matrices. With real inputs every entry of the three results is the real
  scaled query projection, key projection and value projection.
-/
import proofs.«175549_j54159537602870_2_alg».proof.Proof.IdealRun
import proofs.«175549_j54159537602870_2_alg».proof.Proof.IdealPayloads
import proofs.«175549_j54159537602870_2_alg».proof.Proof.Bridge
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The four argument arrays on core `c`, as arrays of extended reals. -/
abbrev argX (c : Dev nD) : S4096x1024.Idx → EReal := m ((c.tc : Thread nD τ).loc main_arg0)
abbrev argWq (c : Dev nD) : S1024x1024.Idx → EReal := m ((c.tc : Thread nD τ).loc main_arg1)
abbrev argWk (c : Dev nD) : S1024x1024.Idx → EReal := m ((c.tc : Thread nD τ).loc main_arg2)
abbrev argWv (c : Dev nD) : S1024x1024.Idx → EReal := m ((c.tc : Thread nD τ).loc main_arg3)

/-! ## The contents when the projection region is entered -/

/-- No host operation writes x: the region finds it as launched. -/
theorem entry_x (c : Dev nD) : (V1' m c main_arg0 : S4096x1024.Idx → EReal) = argX m c :=
  V1_of m c main_arg0 (by decide)

/-- The region's first weight operand is Wq times the number the word 0x3D000000 denotes, entry by entry (the change of
    format after the product is the identity on extended reals). -/
theorem entry_wq (c : Dev nD) :
    (V1' m c main_v2 : S1024x1024.Idx → EReal) = fun i => argWq m c i * Ideal.ofBits .f32 0x3D000000#32 := by
  show StableHlo.after hostOps0 (fun b => m (c, b)) (Proc.devRef .tc main_v2) = _
  after_results
  rfl

/-- The region's second weight operand is Wk. -/
theorem entry_wk (c : Dev nD) : (V1' m c main_v3 : S1024x1024.Idx → EReal) = argWk m c := by
  show StableHlo.after hostOps0 (fun b => m (c, b)) (Proc.devRef .tc main_v3) = _
  after_results
  rfl

/-- The region's third weight operand is Wv. -/
theorem entry_wv (c : Dev nD) : (V1' m c main_v4 : S1024x1024.Idx → EReal) = argWv m c := by
  show StableHlo.after hostOps0 (fun b => m (c, b)) (Proc.devRef .tc main_v4) = _
  after_results
  rfl

/-! ## A product of x with a matrix, entry by entry -/

/-- The zero offsets of a whole-buffer access. -/
theorem hzero2 : (![0, 0] : Fin 2 → Nat) = fun _ => 0 := funext fun a => by fin_cases a <;> rfl

/-- The product of a 4096 × 1024 array with a 1024 × 1024 matrix: at (s, d) the sum over j of x(s, j) · w(j, d). -/
def rowProd (x : S4096x1024.Idx → EReal) (w : S1024x1024.Idx → EReal) : S4096x1024.Idx → EReal :=
  fun i => ∑ j : Fin 1024, x (ix2 (⟨(i 0).val, idx2_lt0 i⟩ : Fin 4096) j) * w (ix2 j (⟨(i 1).val, idx2_lt1 i⟩ : Fin 1024))

theorem rowProd_apply (x : S4096x1024.Idx → EReal) (w : S1024x1024.Idx → EReal) (s : Fin 4096) (d : Fin 1024) :
    rowProd x w (ix2 s d) = ∑ j : Fin 1024, x (ix2 s j) * w (ix2 j d) := rfl

/-! ## The blocks of the projection region

At point t the x window and the three result windows are at block (t, 0) — rows 512·t to 512·t + 511 —, the three
weight windows at block (0, 0), the whole matrix. -/

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section Blocks

variable (V : (c : Dev nD) → (b : Ref sig .tc) → Buf (Elt Ideal) ((c : Thread nD τ).loc b))

/-- What point t writes back to result window 4 is block t of the product of x with the window 1 matrix, both as
    the region finds them. -/
theorem flushed0_4_eq (c : Dev nD) (t : Fin cfg0.N) :
    (dat0 V c).flushed 4 t
      = ((cfg0.win 4).blk t).view.read (Elt Ideal) (rowProd (V c main_arg0) (V c main_v2)) := by
  show (cfg0.win 4).cut (grid0.coords t) ((dat0 V c).after 4 t) = _
  rw [after0_4]
  unfold out0_4
  rw [View.canon_unit_zero hzero2]
  simp only [View.ld_unit_zero (S := S512x1024) hzero2, View.ld_unit_zero (S := S1024x1024) hzero2]
  obtain ⟨e00, e01, e10, e11, e20, e21, e30, e31, e40, e41, e50, e51, e60, e61⟩ := idx_facts0 t
  funext j
  have hp : (j 0).val < 512 := (j 0).isLt
  have hd : (j 1).val < 1024 := (j 1).isLt
  have hx : (cfg0.win 4).xinj (grid0.coords t) j = ix2 (⟨(j 0).val, hp⟩ : Fin 512) (⟨(j 1).val, hd⟩ : Fin 1024) :=
    funext fun a => Fin.ext (by match a with | ⟨0, _⟩ => rfl | ⟨1, _⟩ => rfl)
  show k0_pay2 (F := Ideal) (iblk0 V c 0 t) (iblk0 V c 1 t) ((cfg0.win 4).xinj (grid0.coords t) j)
    = rowProd (V c main_arg0) (V c main_v2) (((cfg0.win 4).blk t).view.emb j)
  rw [hx]
  refine (Pay.k0_pay2_apply (iblk0 V c 0 t) (iblk0 V c 1 t) _ _).trans ?_
  refine Finset.sum_congr rfl fun k _ => ?_
  have h1 : iblk0 V c 0 t (ix2 (⟨(j 0).val, hp⟩ : Fin 512) k)
      = V c main_arg0 (ix2 (⟨((((cfg0.win 4).blk t).view.emb j) 0).val, idx2_lt0 _⟩ : Fin 4096) k) :=
    congrArg (V c main_arg0) (funext fun a => Fin.ext (by
      match a with
      | ⟨0, _⟩ => show win0_0.index t (0 : Fin 2) * 512 + 1 * (j 0).val = win0_4.index t (0 : Fin 2) * 512 + 1 * (j 0).val; omega
      | ⟨1, _⟩ => show win0_0.index t (1 : Fin 2) * 1024 + 1 * k.val = k.val; omega))
  have h2 : iblk0 V c 1 t (ix2 k (⟨(j 1).val, hd⟩ : Fin 1024))
      = V c main_v2 (ix2 k (⟨((((cfg0.win 4).blk t).view.emb j) 1).val, idx2_lt1 _⟩ : Fin 1024)) :=
    congrArg (V c main_v2) (funext fun a => Fin.ext (by
      match a with
      | ⟨0, _⟩ => show win0_1.index t (0 : Fin 2) * 1024 + 1 * k.val = k.val; omega
      | ⟨1, _⟩ => show win0_1.index t (1 : Fin 2) * 1024 + 1 * (j 1).val = win0_4.index t (1 : Fin 2) * 1024 + 1 * (j 1).val; omega))
  rw [h1, h2]

/-- An index of result array 0 is in point t's block when each coordinate is in the block's range on its axis. -/
theorem mem_blk0_4 (t : Fin cfg0.N) (i : S4096x1024.Idx) :
    i ∈ ((cfg0.win 4).blk t).view.set
      ↔ ∀ a : Fin 2, win0_4.index t a * S512x1024.size a ≤ (i a).val
          ∧ (i a).val < win0_4.index t a * S512x1024.size a + S512x1024.size a := by
  show i ∈ ((View.whole main_v5_0).slice (win0_4.rect t)).set ↔ _
  rw [View.set_slice_whole, Rect.mem_set_unit]
  exact Iff.rfl

/-- Every index of result array 0 is in the block of the point its row belongs to: row r is in block r / 512. -/
theorem cover0_4 (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_4 _, ?_⟩
  rw [mem_blk0_4]
  obtain ⟨e00, e01, e10, e11, e20, e21, e30, e31, e40, e41, e50, e51, e60, e61⟩ :=
    idx_facts0 ⟨(i 0).val / 512, by rw [hN]; omega⟩
  intro a
  match a with
  | ⟨0, _⟩ =>
    show win0_4.index ⟨(i 0).val / 512, _⟩ (0 : Fin 2) * 512 ≤ (i 0).val
      ∧ (i 0).val < win0_4.index ⟨(i 0).val / 512, _⟩ (0 : Fin 2) * 512 + 512
    rw [e40]; show (i 0).val / 512 * 512 ≤ (i 0).val ∧ (i 0).val < (i 0).val / 512 * 512 + 512; omega
  | ⟨1, _⟩ =>
    show win0_4.index ⟨(i 0).val / 512, _⟩ (1 : Fin 2) * 1024 ≤ (i 1).val
      ∧ (i 1).val < win0_4.index ⟨(i 0).val / 512, _⟩ (1 : Fin 2) * 1024 + 1024
    rw [e41]; omega

/-- Result array 0 after the region: the product of x with the window 1 matrix, both as the region finds them. -/
theorem final0_4 (c : Dev nD) :
    (dat0 V c).arrAt 4 cfg0.N = rowProd (V c main_arg0) (V c main_v2) :=
  (dat0 V c).arrAt_eq_of_cover 4 _ (fun t _ => flushed0_4_eq V c t) cover0_4

/-- What point t writes back to result window 5 is block t of the product of x with the window 2 matrix, both as
    the region finds them. -/
theorem flushed0_5_eq (c : Dev nD) (t : Fin cfg0.N) :
    (dat0 V c).flushed 5 t
      = ((cfg0.win 5).blk t).view.read (Elt Ideal) (rowProd (V c main_arg0) (V c main_v3)) := by
  show (cfg0.win 5).cut (grid0.coords t) ((dat0 V c).after 5 t) = _
  rw [after0_5]
  unfold out0_5
  rw [View.canon_unit_zero hzero2]
  simp only [View.ld_unit_zero (S := S512x1024) hzero2, View.ld_unit_zero (S := S1024x1024) hzero2]
  obtain ⟨e00, e01, e10, e11, e20, e21, e30, e31, e40, e41, e50, e51, e60, e61⟩ := idx_facts0 t
  funext j
  have hp : (j 0).val < 512 := (j 0).isLt
  have hd : (j 1).val < 1024 := (j 1).isLt
  have hx : (cfg0.win 5).xinj (grid0.coords t) j = ix2 (⟨(j 0).val, hp⟩ : Fin 512) (⟨(j 1).val, hd⟩ : Fin 1024) :=
    funext fun a => Fin.ext (by match a with | ⟨0, _⟩ => rfl | ⟨1, _⟩ => rfl)
  show k0_pay3 (F := Ideal) (iblk0 V c 0 t) (iblk0 V c 2 t) ((cfg0.win 5).xinj (grid0.coords t) j)
    = rowProd (V c main_arg0) (V c main_v3) (((cfg0.win 5).blk t).view.emb j)
  rw [hx]
  refine (Pay.k0_pay3_apply (iblk0 V c 0 t) (iblk0 V c 2 t) _ _).trans ?_
  refine Finset.sum_congr rfl fun k _ => ?_
  have h1 : iblk0 V c 0 t (ix2 (⟨(j 0).val, hp⟩ : Fin 512) k)
      = V c main_arg0 (ix2 (⟨((((cfg0.win 5).blk t).view.emb j) 0).val, idx2_lt0 _⟩ : Fin 4096) k) :=
    congrArg (V c main_arg0) (funext fun a => Fin.ext (by
      match a with
      | ⟨0, _⟩ => show win0_0.index t (0 : Fin 2) * 512 + 1 * (j 0).val = win0_5.index t (0 : Fin 2) * 512 + 1 * (j 0).val; omega
      | ⟨1, _⟩ => show win0_0.index t (1 : Fin 2) * 1024 + 1 * k.val = k.val; omega))
  have h2 : iblk0 V c 2 t (ix2 k (⟨(j 1).val, hd⟩ : Fin 1024))
      = V c main_v3 (ix2 k (⟨((((cfg0.win 5).blk t).view.emb j) 1).val, idx2_lt1 _⟩ : Fin 1024)) :=
    congrArg (V c main_v3) (funext fun a => Fin.ext (by
      match a with
      | ⟨0, _⟩ => show win0_2.index t (0 : Fin 2) * 1024 + 1 * k.val = k.val; omega
      | ⟨1, _⟩ => show win0_2.index t (1 : Fin 2) * 1024 + 1 * (j 1).val = win0_5.index t (1 : Fin 2) * 1024 + 1 * (j 1).val; omega))
  rw [h1, h2]

/-- An index of result array 1 is in point t's block when each coordinate is in the block's range on its axis. -/
theorem mem_blk0_5 (t : Fin cfg0.N) (i : S4096x1024.Idx) :
    i ∈ ((cfg0.win 5).blk t).view.set
      ↔ ∀ a : Fin 2, win0_5.index t a * S512x1024.size a ≤ (i a).val
          ∧ (i a).val < win0_5.index t a * S512x1024.size a + S512x1024.size a := by
  show i ∈ ((View.whole main_v5_1).slice (win0_5.rect t)).set ↔ _
  rw [View.set_slice_whole, Rect.mem_set_unit]
  exact Iff.rfl

/-- Every index of result array 1 is in the block of the point its row belongs to: row r is in block r / 512. -/
theorem cover0_5 (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_5 _, ?_⟩
  rw [mem_blk0_5]
  obtain ⟨e00, e01, e10, e11, e20, e21, e30, e31, e40, e41, e50, e51, e60, e61⟩ :=
    idx_facts0 ⟨(i 0).val / 512, by rw [hN]; omega⟩
  intro a
  match a with
  | ⟨0, _⟩ =>
    show win0_5.index ⟨(i 0).val / 512, _⟩ (0 : Fin 2) * 512 ≤ (i 0).val
      ∧ (i 0).val < win0_5.index ⟨(i 0).val / 512, _⟩ (0 : Fin 2) * 512 + 512
    rw [e50]; show (i 0).val / 512 * 512 ≤ (i 0).val ∧ (i 0).val < (i 0).val / 512 * 512 + 512; omega
  | ⟨1, _⟩ =>
    show win0_5.index ⟨(i 0).val / 512, _⟩ (1 : Fin 2) * 1024 ≤ (i 1).val
      ∧ (i 1).val < win0_5.index ⟨(i 0).val / 512, _⟩ (1 : Fin 2) * 1024 + 1024
    rw [e51]; omega

/-- Result array 1 after the region: the product of x with the window 2 matrix, both as the region finds them. -/
theorem final0_5 (c : Dev nD) :
    (dat0 V c).arrAt 5 cfg0.N = rowProd (V c main_arg0) (V c main_v3) :=
  (dat0 V c).arrAt_eq_of_cover 5 _ (fun t _ => flushed0_5_eq V c t) cover0_5

/-- What point t writes back to result window 6 is block t of the product of x with the window 3 matrix, both as
    the region finds them. -/
theorem flushed0_6_eq (c : Dev nD) (t : Fin cfg0.N) :
    (dat0 V c).flushed 6 t
      = ((cfg0.win 6).blk t).view.read (Elt Ideal) (rowProd (V c main_arg0) (V c main_v4)) := by
  show (cfg0.win 6).cut (grid0.coords t) ((dat0 V c).after 6 t) = _
  rw [after0_6]
  unfold out0_6
  rw [View.canon_unit_zero hzero2]
  simp only [View.ld_unit_zero (S := S512x1024) hzero2, View.ld_unit_zero (S := S1024x1024) hzero2]
  obtain ⟨e00, e01, e10, e11, e20, e21, e30, e31, e40, e41, e50, e51, e60, e61⟩ := idx_facts0 t
  funext j
  have hp : (j 0).val < 512 := (j 0).isLt
  have hd : (j 1).val < 1024 := (j 1).isLt
  have hx : (cfg0.win 6).xinj (grid0.coords t) j = ix2 (⟨(j 0).val, hp⟩ : Fin 512) (⟨(j 1).val, hd⟩ : Fin 1024) :=
    funext fun a => Fin.ext (by match a with | ⟨0, _⟩ => rfl | ⟨1, _⟩ => rfl)
  show k0_pay4 (F := Ideal) (iblk0 V c 0 t) (iblk0 V c 3 t) ((cfg0.win 6).xinj (grid0.coords t) j)
    = rowProd (V c main_arg0) (V c main_v4) (((cfg0.win 6).blk t).view.emb j)
  rw [hx]
  refine (Pay.k0_pay4_apply (iblk0 V c 0 t) (iblk0 V c 3 t) _ _).trans ?_
  refine Finset.sum_congr rfl fun k _ => ?_
  have h1 : iblk0 V c 0 t (ix2 (⟨(j 0).val, hp⟩ : Fin 512) k)
      = V c main_arg0 (ix2 (⟨((((cfg0.win 6).blk t).view.emb j) 0).val, idx2_lt0 _⟩ : Fin 4096) k) :=
    congrArg (V c main_arg0) (funext fun a => Fin.ext (by
      match a with
      | ⟨0, _⟩ => show win0_0.index t (0 : Fin 2) * 512 + 1 * (j 0).val = win0_6.index t (0 : Fin 2) * 512 + 1 * (j 0).val; omega
      | ⟨1, _⟩ => show win0_0.index t (1 : Fin 2) * 1024 + 1 * k.val = k.val; omega))
  have h2 : iblk0 V c 3 t (ix2 k (⟨(j 1).val, hd⟩ : Fin 1024))
      = V c main_v4 (ix2 k (⟨((((cfg0.win 6).blk t).view.emb j) 1).val, idx2_lt1 _⟩ : Fin 1024)) :=
    congrArg (V c main_v4) (funext fun a => Fin.ext (by
      match a with
      | ⟨0, _⟩ => show win0_3.index t (0 : Fin 2) * 1024 + 1 * k.val = k.val; omega
      | ⟨1, _⟩ => show win0_3.index t (1 : Fin 2) * 1024 + 1 * (j 1).val = win0_6.index t (1 : Fin 2) * 1024 + 1 * (j 1).val; omega))
  rw [h1, h2]

/-- An index of result array 2 is in point t's block when each coordinate is in the block's range on its axis. -/
theorem mem_blk0_6 (t : Fin cfg0.N) (i : S4096x1024.Idx) :
    i ∈ ((cfg0.win 6).blk t).view.set
      ↔ ∀ a : Fin 2, win0_6.index t a * S512x1024.size a ≤ (i a).val
          ∧ (i a).val < win0_6.index t a * S512x1024.size a + S512x1024.size a := by
  show i ∈ ((View.whole main_v5_2).slice (win0_6.rect t)).set ↔ _
  rw [View.set_slice_whole, Rect.mem_set_unit]
  exact Iff.rfl

/-- Every index of result array 2 is in the block of the point its row belongs to: row r is in block r / 512. -/
theorem cover0_6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_6 _, ?_⟩
  rw [mem_blk0_6]
  obtain ⟨e00, e01, e10, e11, e20, e21, e30, e31, e40, e41, e50, e51, e60, e61⟩ :=
    idx_facts0 ⟨(i 0).val / 512, by rw [hN]; omega⟩
  intro a
  match a with
  | ⟨0, _⟩ =>
    show win0_6.index ⟨(i 0).val / 512, _⟩ (0 : Fin 2) * 512 ≤ (i 0).val
      ∧ (i 0).val < win0_6.index ⟨(i 0).val / 512, _⟩ (0 : Fin 2) * 512 + 512
    rw [e60]; show (i 0).val / 512 * 512 ≤ (i 0).val ∧ (i 0).val < (i 0).val / 512 * 512 + 512; omega
  | ⟨1, _⟩ =>
    show win0_6.index ⟨(i 0).val / 512, _⟩ (1 : Fin 2) * 1024 ≤ (i 1).val
      ∧ (i 1).val < win0_6.index ⟨(i 0).val / 512, _⟩ (1 : Fin 2) * 1024 + 1024
    rw [e61]; omega

/-- Result array 2 after the region: the product of x with the window 3 matrix, both as the region finds them. -/
theorem final0_6 (c : Dev nD) :
    (dat0 V c).arrAt 6 cfg0.N = rowProd (V c main_arg0) (V c main_v4) :=
  (dat0 V c).arrAt_eq_of_cover 6 _ (fun t _ => flushed0_6_eq V c t) cover0_6

end Blocks

/-! ## The three results with real inputs -/

/-- The scaled query projection: with real x and Wq, result array 0 at (s, d) is the real number
    ∑ j, X s j · (WQ j d · (1/32)). -/
theorem q_arr (c : Dev nD) (X : Fin 4096 → Fin 1024 → ℝ) (WQ : Fin 1024 → Fin 1024 → ℝ)
    (hx : ∀ s j, m ((c.tc : Thread nD τ).loc main_arg0) (ix2 s j) = ((X s j : ℝ) : EReal))
    (hq : ∀ j d, m ((c.tc : Thread nD τ).loc main_arg1) (ix2 j d) = ((WQ j d : ℝ) : EReal)) :
    ∀ s d, V2' m c main_v5_0 (ix2 s d) = ((Bridge.Qr X WQ s d : ℝ) : EReal) := by
  intro s d
  have hA : (V2' m c main_v5_0 : S4096x1024.Idx → EReal) = rowProd (V1' m c main_arg0) (V1' m c main_v2) :=
    (W2_arr m c 4).trans (final0_4 (V1' m) c)
  rw [hA, rowProd_apply, entry_x, entry_wq]
  simp only [Cert.LibOnlineSoftmax.ofBits_inv32]
  exact Bridge.q_scaled_eq X WQ (argX m c) (argWq m c) hx hq s d

/-- The key projection: with real x and Wk, result array 1 at (t, d) is the real number ∑ j, X t j · WK j d. -/
theorem k_arr (c : Dev nD) (X : Fin 4096 → Fin 1024 → ℝ) (WK : Fin 1024 → Fin 1024 → ℝ)
    (hx : ∀ s j, m ((c.tc : Thread nD τ).loc main_arg0) (ix2 s j) = ((X s j : ℝ) : EReal))
    (hk : ∀ j d, m ((c.tc : Thread nD τ).loc main_arg2) (ix2 j d) = ((WK j d : ℝ) : EReal)) :
    ∀ t d, V2' m c main_v5_1 (ix2 t d) = ((Bridge.Kr X WK t d : ℝ) : EReal) := by
  intro t d
  have hA : (V2' m c main_v5_1 : S4096x1024.Idx → EReal) = rowProd (V1' m c main_arg0) (V1' m c main_v3) :=
    (W2_arr m c 5).trans (final0_5 (V1' m) c)
  rw [hA, rowProd_apply, entry_x, entry_wk]
  exact Bridge.proj_eq X (argX m c) WK (argWk m c) hx hk t d

/-- The value projection: with real x and Wv, result array 2 at (t, d) is the real number ∑ j, X t j · WV j d. -/
theorem v_arr (c : Dev nD) (X : Fin 4096 → Fin 1024 → ℝ) (WV : Fin 1024 → Fin 1024 → ℝ)
    (hx : ∀ s j, m ((c.tc : Thread nD τ).loc main_arg0) (ix2 s j) = ((X s j : ℝ) : EReal))
    (hv : ∀ j d, m ((c.tc : Thread nD τ).loc main_arg3) (ix2 j d) = ((WV j d : ℝ) : EReal)) :
    ∀ t d, V2' m c main_v5_2 (ix2 t d) = ((Bridge.Vr X WV t d : ℝ) : EReal) := by
  intro t d
  have hA : (V2' m c main_v5_2 : S4096x1024.Idx → EReal) = rowProd (V1' m c main_arg0) (V1' m c main_v4) :=
    (W2_arr m c 6).trans (final0_6 (V1' m) c)
  rw [hA, rowProd_apply, entry_x, entry_wv]
  exact Bridge.proj_eq X (argX m c) WV (argWv m c) hx hv t d

end Cert.KernelIdeal.Val

end
-- ==== Proof.IdealPieces.lean ====
/-
  The attention body's stored pieces, named: what each case of the body leaves in the three scratch buffers (the
  running maximum, the running sum, the running weighted sum) and, in the last case, in the output block, as explicit
  terms of the body's arithmetic over the query tile, the key and value tiles, and the scratch before the point.
-/
import proofs.«175549_j54159537602870_2_alg».proof.Proof.Gen.KernelIdeal.Launch
import proofs.«175549_j54159537602870_2_alg».proof.Proof.Gen.KernelIdeal.Skeleton
import proofs.«175549_j54159537602870_2_alg».proof.Proof.Gen.KernelIdeal.Points
import proofs.«175549_j54159537602870_2_alg».proof.Proof.IdealRegion1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Pieces

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx (ix2)

/-- The zero offsets of a whole-buffer access, however they are spelt. -/
theorem hz : (![0, 0] : Fin 2 → Nat) = fun _ => 0 := funext fun a => by fin_cases a <;> rfl

/-- The tile of a [4096, 1024] array that the body reads at point `i`: its 512 rows from row 512 · (i 1) on — the key
    tile of the key array, the value tile of the value array. -/
abbrev tile (i : grid1.Coords) (x : Vec F S4096x1024 .bf16) : Vec F S512x1024 .bf16 :=
  View.ld (Val := Elt F) x (Rect.unit (s := S4096x1024) (k1_off1 i) S512x1024.size (k1_off1_inb i))

/-- The tile is the array read through the rectangle of the body's load. -/
theorem tile_eq_ld (i : grid1.Coords) (x : Vec F S4096x1024 .bf16) :
    tile i x = View.ld (Val := Elt F) x (Rect.unit (s := S4096x1024) (k1_off1 i) S512x1024.size (k1_off1_inb i)) := rfl

/-- Row 512 · (i 1) + t of the array is inside it. -/
theorem tile_row_lt (i : grid1.Coords) (t : Fin 512) : 512 * (i 1).val + t.val < 4096 := by
  have h := k1_off1_inb i 0
  rw [k1_off1_eq] at h
  have h' : 512 * (i 1).val + 512 ≤ 4096 := h
  omega

/-- The tile at (t, d) is the array at (512 · (i 1) + t, d). -/
theorem tile_apply (i : grid1.Coords) (x : Vec F S4096x1024 .bf16) (t : Fin 512) (d : Fin 1024) :
    tile i x (ix2 t d) = x (ix2 (⟨512 * (i 1).val + t.val, tile_row_lt i t⟩ : Fin 4096) d) := by
  show x _ = x _
  refine congrArg x (funext fun a => Fin.ext ?_)
  match a with
  | ⟨0, _⟩ =>
    show (k1_off1 i) 0 + 1 * t.val = 512 * (i 1).val + t.val
    rw [k1_off1_eq]; show 512 * (i 1).val + 1 * t.val = _; omega
  | ⟨1, _⟩ =>
    show (k1_off1 i) 1 + 1 * d.val = d.val
    rw [k1_off1_eq]; show 0 + 1 * d.val = _; omega

variable (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole)

/-! ## A middle key tile

The scratch is carried: `xs0`, `xs1`, `xs2` are the running maximum, sum and weighted sum the point before left. -/

/-- Scratch 0 after a middle key tile: the new running maximum from the carried one. -/
theorem sout1_B_0_eq (hc0 : ¬cond1_0 i) (hc1 : ¬cond1_1 i)
    (x0 : Vec F S512x1024 .bf16) (x1 x2 : Vec F S4096x1024 .bf16) (xs0 xs1 : Vec F S512x1 .f32) (xs2 : Vec F S512x1024 .f32) :
    sout1_B_0 c i arg2 harg2 arg3 harg3 arg4 harg4 arg5 harg5 arg6 harg6 arg7 harg7 arg8 harg8 hc0 hc1 x0 x1 x2 xs0 xs1 xs2 = k1_pay2 (k1_pay9 x0 (tile i x1) xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz]
  simp only [View.readAt_eq_ld, harg2.read_unread, harg3.read_unread, harg6.read_unread,
    View.ld_unit_zero (S := S512x1024) hz, View.ld_unit_zero (S := S512x1) hz]
  rfl

/-- Scratch 1 after a middle key tile: the new running sum from the carried maximum and sum. -/
theorem sout1_B_1_eq (hc0 : ¬cond1_0 i) (hc1 : ¬cond1_1 i)
    (x0 : Vec F S512x1024 .bf16) (x1 x2 : Vec F S4096x1024 .bf16) (xs0 xs1 : Vec F S512x1 .f32) (xs2 : Vec F S512x1024 .f32) :
    sout1_B_1 c i arg2 harg2 arg3 harg3 arg4 harg4 arg5 harg5 arg6 harg6 arg7 harg7 arg8 harg8 hc0 hc1 x0 x1 x2 xs0 xs1 xs2 = k1_pay12 x0 (tile i x1) xs0 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz]
  simp only [View.readAt_eq_ld, harg2.read_unread, harg3.read_unread, harg6.read_unread, harg7.read_unread,
    View.ld_unit_zero (S := S512x1024) hz, View.ld_unit_zero (S := S512x1) hz]
  rfl

/-- Scratch 2 after a middle key tile: the new running weighted sum from the carried maximum and weighted sum. -/
theorem sout1_B_2_eq (hc0 : ¬cond1_0 i) (hc1 : ¬cond1_1 i)
    (x0 : Vec F S512x1024 .bf16) (x1 x2 : Vec F S4096x1024 .bf16) (xs0 xs1 : Vec F S512x1 .f32) (xs2 : Vec F S512x1024 .f32) :
    sout1_B_2 c i arg2 harg2 arg3 harg3 arg4 harg4 arg5 harg5 arg6 harg6 arg7 harg7 arg8 harg8 hc0 hc1 x0 x1 x2 xs0 xs1 xs2
      = k1_pay1 (k1_pay7 (tile i x2)) (k1_pay13 x0 (tile i x1) xs0 xs0 xs2) (k1_pay14 x0 (tile i x1) xs0) := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz]
  simp only [View.readAt_eq_ld, harg2.read_unread, harg3.read_unread, harg4.read_unread, harg6.read_unread, harg8.read_unread,
    View.ld_unit_zero (S := S512x1024) hz, View.ld_unit_zero (S := S512x1) hz]
  rfl

/-! ## The last key tile

The scratch is carried as at a middle tile; the output block is then stored from the scratch just written. -/

/-- Scratch 0 after the last key tile: the new running maximum from the carried one. -/
theorem sout1_C_0_eq (hc0 : ¬cond1_0 i) (hc1 : cond1_1 i)
    (x0 : Vec F S512x1024 .bf16) (x1 x2 : Vec F S4096x1024 .bf16) (xs0 xs1 : Vec F S512x1 .f32) (xs2 : Vec F S512x1024 .f32) :
    sout1_C_0 c i arg2 harg2 arg3 harg3 arg4 harg4 arg5 harg5 arg6 harg6 arg7 harg7 arg8 harg8 hc0 hc1 x0 x1 x2 xs0 xs1 xs2 = k1_pay2 (k1_pay9 x0 (tile i x1) xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x1024) hz, View.ld_unit_zero (S := S512x1) hz]
  rfl

/-- Scratch 1 after the last key tile: the new running sum from the carried maximum and sum. -/
theorem sout1_C_1_eq (hc0 : ¬cond1_0 i) (hc1 : cond1_1 i)
    (x0 : Vec F S512x1024 .bf16) (x1 x2 : Vec F S4096x1024 .bf16) (xs0 xs1 : Vec F S512x1 .f32) (xs2 : Vec F S512x1024 .f32) :
    sout1_C_1 c i arg2 harg2 arg3 harg3 arg4 harg4 arg5 harg5 arg6 harg6 arg7 harg7 arg8 harg8 hc0 hc1 x0 x1 x2 xs0 xs1 xs2 = k1_pay12 x0 (tile i x1) xs0 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x1024) hz, View.ld_unit_zero (S := S512x1) hz]
  rfl

/-- Scratch 2 after the last key tile: the new running weighted sum from the carried maximum and weighted sum. -/
theorem sout1_C_2_eq (hc0 : ¬cond1_0 i) (hc1 : cond1_1 i)
    (x0 : Vec F S512x1024 .bf16) (x1 x2 : Vec F S4096x1024 .bf16) (xs0 xs1 : Vec F S512x1 .f32) (xs2 : Vec F S512x1024 .f32) :
    sout1_C_2 c i arg2 harg2 arg3 harg3 arg4 harg4 arg5 harg5 arg6 harg6 arg7 harg7 arg8 harg8 hc0 hc1 x0 x1 x2 xs0 xs1 xs2
      = k1_pay1 (k1_pay7 (tile i x2)) (k1_pay13 x0 (tile i x1) xs0 xs0 xs2) (k1_pay14 x0 (tile i x1) xs0) := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x1024) hz, View.ld_unit_zero (S := S512x1) hz]
  rfl

/-- The output block after the last key tile: the new running weighted sum divided, row by row, by the new running sum. -/
theorem out1_C_3_eq (hc0 : ¬cond1_0 i) (hc1 : cond1_1 i)
    (x0 : Vec F S512x1024 .bf16) (x1 x2 : Vec F S4096x1024 .bf16) (xs0 xs1 : Vec F S512x1 .f32) (xs2 : Vec F S512x1024 .f32) :
    out1_C_3 c i arg2 harg2 arg3 harg3 arg4 harg4 arg5 harg5 arg6 harg6 arg7 harg7 arg8 harg8 hc0 hc1 x0 x1 x2 xs0 xs1 xs2
      = k1_pay3 (k1_pay1 (k1_pay7 (tile i x2)) (k1_pay13 x0 (tile i x1) xs0 xs0 xs2) (k1_pay14 x0 (tile i x1) xs0))
          (k1_pay12 x0 (tile i x1) xs0 xs0 xs1) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz, View.readCov_unit_zero (S := S512x1024) _ hz, View.readCov_unit_zero (S := S512x1) _ hz]
  simp only [View.readAt_eq_ld, harg2.read_unread, harg3.read_unread, harg4.read_unread, harg6.read_unread, harg7.read_unread, harg8.read_unread,
    View.ld_unit_zero (S := S512x1024) hz, View.ld_unit_zero (S := S512x1) hz]
  rfl

/-- The same through the scratch: the output block is scratch 2 divided, row by row, by scratch 1, both as the last key
    tile leaves them. -/
theorem out1_C_3_eq_scratch (hc0 : ¬cond1_0 i) (hc1 : cond1_1 i)
    (x0 : Vec F S512x1024 .bf16) (x1 x2 : Vec F S4096x1024 .bf16) (xs0 xs1 : Vec F S512x1 .f32) (xs2 : Vec F S512x1024 .f32) :
    out1_C_3 c i arg2 harg2 arg3 harg3 arg4 harg4 arg5 harg5 arg6 harg6 arg7 harg7 arg8 harg8 hc0 hc1 x0 x1 x2 xs0 xs1 xs2 = k1_pay3 (sout1_C_2 c i arg2 harg2 arg3 harg3 arg4 harg4 arg5 harg5 arg6 harg6 arg7 harg7 arg8 harg8 hc0 hc1 x0 x1 x2 xs0 xs1 xs2) (sout1_C_1 c i arg2 harg2 arg3 harg3 arg4 harg4 arg5 harg5 arg6 harg6 arg7 harg7 arg8 harg8 hc0 hc1 x0 x1 x2 xs0 xs1 xs2) := by
  rw [out1_C_3_eq, sout1_C_2_eq, sout1_C_1_eq]

/-! ## The first key tile

The scratch is first reset — the running maximum to `k1_pay4` (every entry the number the word 0xFF800000 denotes), the
running sum to `k1_pay5` and the running weighted sum to `k1_pay6` (every entry the number the zero word denotes) — and
then updated from those values exactly as at a middle tile. -/

/-- Scratch 0 after the first key tile: the new running maximum from the reset one. -/
theorem sout1_A_0_eq (hc0 : cond1_0 i) (hc1 : ¬cond1_1 i)
    (x0 : Vec F S512x1024 .bf16) (x1 x2 : Vec F S4096x1024 .bf16) :
    sout1_A_0 c i arg2 harg2 arg3 harg3 arg4 harg4 arg5 harg5 arg6 harg6 arg7 harg7 arg8 harg8 hc0 hc1 x0 x1 x2 = k1_pay2 (k1_pay9 x0 (tile i x1) k1_pay4) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S512x1) hz]
  simp only [View.readCov_unit_zero (S := S512x1) _ hz, View.readCov_unit_zero (S := S512x1024) _ hz,
    View.readAt_eq_ld, harg2.read_unread, harg3.read_unread, harg4.read_unread,
    View.ld_unit_zero (S := S512x1024) hz, View.ld_unit_zero (S := S512x1) hz]
  rfl

/-- Scratch 1 after the first key tile: the new running sum from the reset maximum and sum. -/
theorem sout1_A_1_eq (hc0 : cond1_0 i) (hc1 : ¬cond1_1 i)
    (x0 : Vec F S512x1024 .bf16) (x1 x2 : Vec F S4096x1024 .bf16) :
    sout1_A_1 c i arg2 harg2 arg3 harg3 arg4 harg4 arg5 harg5 arg6 harg6 arg7 harg7 arg8 harg8 hc0 hc1 x0 x1 x2 = k1_pay12 x0 (tile i x1) k1_pay4 k1_pay4 k1_pay5 := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S512x1) hz]
  simp only [View.readCov_unit_zero (S := S512x1) _ hz, View.readCov_unit_zero (S := S512x1024) _ hz,
    View.readAt_eq_ld, harg2.read_unread, harg3.read_unread, harg4.read_unread,
    View.ld_unit_zero (S := S512x1024) hz, View.ld_unit_zero (S := S512x1) hz]
  rfl

/-- Scratch 2 after the first key tile: the new running weighted sum from the reset maximum and weighted sum. -/
theorem sout1_A_2_eq (hc0 : cond1_0 i) (hc1 : ¬cond1_1 i)
    (x0 : Vec F S512x1024 .bf16) (x1 x2 : Vec F S4096x1024 .bf16) :
    sout1_A_2 c i arg2 harg2 arg3 harg3 arg4 harg4 arg5 harg5 arg6 harg6 arg7 harg7 arg8 harg8 hc0 hc1 x0 x1 x2
      = k1_pay1 (k1_pay7 (tile i x2)) (k1_pay13 x0 (tile i x1) k1_pay4 k1_pay4 k1_pay6) (k1_pay14 x0 (tile i x1) k1_pay4) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S512x1024) hz]
  simp only [View.readCov_unit_zero (S := S512x1) _ hz, View.readCov_unit_zero (S := S512x1024) _ hz,
    View.readAt_eq_ld, harg2.read_unread, harg3.read_unread, harg4.read_unread,
    View.ld_unit_zero (S := S512x1024) hz, View.ld_unit_zero (S := S512x1) hz]
  rfl

end Cert.KernelIdeal.Pieces

end
-- ==== Proof.IdealSem.lean ====
/-
  One grid point of the attention kernel as a step of the streaming softmax.

  A grid point pairs a tile of 512 query rows with a tile of 512 key positions. Row p of query tile qi is global row
  512·qi + p; its scores against all 4096 key positions are sc p, and the values of feature d are vl d. If, before the
  point, each row's running maximum, running sum and running weighted sums satisfy the streaming invariant on the key
  positions before tile ki, then the values the point computes satisfy it on the positions up to tile ki. The values the
  kernel writes at a row's first key tile satisfy the invariant on no positions, and once all positions are seen the
  quotient the kernel writes is the one-pass attention output.
-/
import proofs.«175549_j54159537602870_2_alg».proof.Proof.IdealPayloads
import proofs.«175549_j54159537602870_2_alg».proof.Proof.Bridge

noncomputable section

namespace Cert.KernelIdeal.Sem

open Cert.KernelIdeal Cert.KernelIdeal.Gen Idealize.ShloMosaic
open Idealize.ShloMosaic.ValueIdx
open Cert.LibOnlineSoftmax Cert.KernelIdeal.Pay
open Cert.Bridge (tileIdx seen seenBefore)

/-! ## The scores of a row and the values of a feature -/

/-- The scores of row p of query tile qi against all 4096 key positions. -/
abbrev sc (X : Fin 4096 → Fin 1024 → ℝ) (WQ WK : Fin 1024 → Fin 1024 → ℝ) (qi : Fin 8) (p : Fin 512) :
    Fin 4096 → ℝ :=
  fun j => Bridge.score X WQ WK (tileIdx qi p) j

/-- The values of feature d at all 4096 key positions. -/
abbrev vl (X : Fin 4096 → Fin 1024 → ℝ) (WV : Fin 1024 → Fin 1024 → ℝ) (d : Fin 1024) : Fin 4096 → ℝ :=
  fun j => Bridge.Vr X WV j d

/-! ## The three values a grid point computes -/

/-- The new running maxima: each row's old maximum raised by the maximum of its scores against the key tile. -/
def stepM (v5 v8 : Vec Ideal S512x1024 .bf16) (m0 : Vec Ideal S512x1 .f32) : FVec Ideal S512x1 .f32 :=
  k1_pay2 (F := Ideal) (k1_pay9 (F := Ideal) v5 v8 m0)

/-- The new running sums: each row's old sum rescaled to the new maximum, plus the key tile's terms. -/
def stepL (v5 v8 : Vec Ideal S512x1024 .bf16) (m0 l0 : Vec Ideal S512x1 .f32) : FVec Ideal S512x1 .f32 :=
  k1_pay12 (F := Ideal) v5 v8 m0 m0 l0

/-- The new running weighted sums: each row's old ones rescaled to the new maximum, plus the key tile's terms times
    the value tile. -/
def stepA (v5 v8 vt : Vec Ideal S512x1024 .bf16) (m0 : Vec Ideal S512x1 .f32) (a0 : Vec Ideal S512x1024 .f32) :
    FVec Ideal S512x1024 .f32 :=
  k1_pay1 (F := Ideal) (k1_pay7 (F := Ideal) vt) (k1_pay13 (F := Ideal) v5 v8 m0 m0 a0)
    (k1_pay14 (F := Ideal) v5 v8 m0)

section Point

variable (X : Fin 4096 → Fin 1024 → ℝ) (WQ WK WV : Fin 1024 → Fin 1024 → ℝ) (qi ki : Fin 8)
  (v5 v8 vt : Vec Ideal S512x1024 .bf16) (m0 l0 : Vec Ideal S512x1 .f32) (a0 : Vec Ideal S512x1024 .f32)

/-- The score tile at (p, t) is the real score of global row 512·qi + p against global key position 512·ki + t. -/
theorem score_tile
    (h5 : ∀ p d', v5 (ix2 p d') = ((Bridge.Qr X WQ (tileIdx qi p) d' : ℝ) : EReal))
    (h8 : ∀ t d', v8 (ix2 t d') = ((Bridge.Kr X WK (tileIdx ki t) d' : ℝ) : EReal)) (p t : Fin 512) :
    k1_pay8 (F := Ideal) v5 v8 (ix2 p t)
      = ((Bridge.score X WQ WK (tileIdx qi p) (tileIdx ki t) : ℝ) : EReal) := by
  rw [k1_pay8_apply]
  unfold Bridge.score
  simp only [h5, h8, ← EReal.coe_mul, coe_finset_sum]

/-- The new running maximum of row p: the old one raised by the running maximum, from -∞, of the row's scores
    against the key tile. -/
theorem stepM_apply
    (h5 : ∀ p d', v5 (ix2 p d') = ((Bridge.Qr X WQ (tileIdx qi p) d' : ℝ) : EReal))
    (h8 : ∀ t d', v8 (ix2 t d') = ((Bridge.Kr X WK (tileIdx ki t) d' : ℝ) : EReal)) (p : Fin 512) :
    stepM v5 v8 m0 (ix2 p (0 : Fin 1))
      = max (m0 (ix2 p (0 : Fin 1)))
          ((Finset.univ : Finset (Fin 512)).fold max (⊥ : EReal)
            (fun t => ((sc X WQ WK qi p (tileIdx ki t) : ℝ) : EReal))) := by
  unfold stepM
  rw [k1_pay2_eq, k1_pay9_apply]
  simp only [score_tile X WQ WK qi ki v5 v8 h5 h8]

/-- THE STEP: if before the grid point every row's state satisfies the streaming invariant on the key positions before
    tile ki, then the three values the point computes satisfy it on the positions up to tile ki. -/
theorem step_inv
    (h5 : ∀ p d', v5 (ix2 p d') = ((Bridge.Qr X WQ (tileIdx qi p) d' : ℝ) : EReal))
    (h8 : ∀ t d', v8 (ix2 t d') = ((Bridge.Kr X WK (tileIdx ki t) d' : ℝ) : EReal))
    (hvt : ∀ t d, vt (ix2 t d) = ((Bridge.Vr X WV (tileIdx ki t) d : ℝ) : EReal))
    (hinv : ∀ p d, Inv (sc X WQ WK qi p) (vl X WV d) (seenBefore ki)
      (m0 (ix2 p (0 : Fin 1))) (l0 (ix2 p (0 : Fin 1))) (a0 (ix2 p d)))
    (p : Fin 512) (d : Fin 1024) :
    Inv (sc X WQ WK qi p) (vl X WV d) (seen ki)
      (stepM v5 v8 m0 (ix2 p (0 : Fin 1))) (stepL v5 v8 m0 l0 (ix2 p (0 : Fin 1)))
      (stepA v5 v8 vt m0 a0 (ix2 p d)) := by
  have h := Bridge.inv_step_tile (sc X WQ WK qi p) (vl X WV d) ki _ _ _ (hinv p d)
  have e9 : k1_pay9 (F := Ideal) v5 v8 m0 (ix2 p (0 : Fin 1))
      = max (m0 (ix2 p (0 : Fin 1)))
          ((Finset.univ : Finset (Fin 512)).fold max (⊥ : EReal)
            (fun t => ((sc X WQ WK qi p (tileIdx ki t) : ℝ) : EReal))) := by
    rw [k1_pay9_apply]
    simp only [score_tile X WQ WK qi ki v5 v8 h5 h8]
  have eM := stepM_apply X WQ WK qi ki v5 v8 m0 h5 h8 p
  have eL : stepL v5 v8 m0 l0 (ix2 p (0 : Fin 1))
      = Ideal.exp (m0 (ix2 p (0 : Fin 1)) - max (m0 (ix2 p (0 : Fin 1)))
            ((Finset.univ : Finset (Fin 512)).fold max (⊥ : EReal)
              (fun t => ((sc X WQ WK qi p (tileIdx ki t) : ℝ) : EReal)))) * l0 (ix2 p (0 : Fin 1))
        + ∑ t : Fin 512, Ideal.exp (((sc X WQ WK qi p (tileIdx ki t) : ℝ) : EReal)
            - max (m0 (ix2 p (0 : Fin 1)))
                ((Finset.univ : Finset (Fin 512)).fold max (⊥ : EReal)
                  (fun t => ((sc X WQ WK qi p (tileIdx ki t) : ℝ) : EReal)))) := by
    unfold stepL
    rw [k1_pay12_apply, k1_pay10_apply]
    simp only [k1_pay11_apply, e9, score_tile X WQ WK qi ki v5 v8 h5 h8]
  have eA : stepA v5 v8 vt m0 a0 (ix2 p d)
      = Ideal.exp (m0 (ix2 p (0 : Fin 1)) - max (m0 (ix2 p (0 : Fin 1)))
            ((Finset.univ : Finset (Fin 512)).fold max (⊥ : EReal)
              (fun t => ((sc X WQ WK qi p (tileIdx ki t) : ℝ) : EReal)))) * a0 (ix2 p d)
        + ∑ t : Fin 512, Ideal.exp (((sc X WQ WK qi p (tileIdx ki t) : ℝ) : EReal)
            - max (m0 (ix2 p (0 : Fin 1)))
                ((Finset.univ : Finset (Fin 512)).fold max (⊥ : EReal)
                  (fun t => ((sc X WQ WK qi p (tileIdx ki t) : ℝ) : EReal))))
            * ((vl X WV d (tileIdx ki t) : ℝ) : EReal) := by
    unfold stepA
    rw [k1_pay1_apply, k1_pay13_apply, k1_pay10_apply, k1_pay7_eq]
    simp only [k1_pay14_apply, k1_pay11_apply, e9, score_tile X WQ WK qi ki v5 v8 h5 h8, hvt]
  rw [eM, eL, eA]
  exact h

/-- The step with the kernel's own terms written out: the running maximum is read twice before it is stored, so both
    reads are the old maximum. -/
theorem step_inv_payloads
    (h5 : ∀ p d', v5 (ix2 p d') = ((Bridge.Qr X WQ (tileIdx qi p) d' : ℝ) : EReal))
    (h8 : ∀ t d', v8 (ix2 t d') = ((Bridge.Kr X WK (tileIdx ki t) d' : ℝ) : EReal))
    (hvt : ∀ t d, vt (ix2 t d) = ((Bridge.Vr X WV (tileIdx ki t) d : ℝ) : EReal))
    (hinv : ∀ p d, Inv (sc X WQ WK qi p) (vl X WV d) (seenBefore ki)
      (m0 (ix2 p (0 : Fin 1))) (l0 (ix2 p (0 : Fin 1))) (a0 (ix2 p d)))
    (p : Fin 512) (d : Fin 1024) :
    Inv (sc X WQ WK qi p) (vl X WV d) (seen ki)
      (k1_pay2 (F := Ideal) (k1_pay9 (F := Ideal) v5 v8 m0) (ix2 p (0 : Fin 1)))
      (k1_pay12 (F := Ideal) v5 v8 m0 m0 l0 (ix2 p (0 : Fin 1)))
      (k1_pay1 (F := Ideal) (k1_pay7 (F := Ideal) vt) (k1_pay13 (F := Ideal) v5 v8 m0 m0 a0)
        (k1_pay14 (F := Ideal) v5 v8 m0) (ix2 p d)) :=
  step_inv X WQ WK WV qi ki v5 v8 vt m0 l0 a0 h5 h8 hvt hinv p d

end Point

/-! ## The reset and the end -/

/-- THE RESET: the values written at a row's first key tile, -∞, 0 and 0, satisfy the invariant on the positions
    before tile 0, of which there are none. -/
theorem reset_inv (X : Fin 4096 → Fin 1024 → ℝ) (WQ WK WV : Fin 1024 → Fin 1024 → ℝ) (qi : Fin 8)
    (p : Fin 512) (d : Fin 1024) :
    Inv (sc X WQ WK qi p) (vl X WV d) (seenBefore 0)
      (k1_pay4 (F := Ideal) (ix2 p (0 : Fin 1))) (k1_pay5 (F := Ideal) (ix2 p (0 : Fin 1)))
      (k1_pay6 (F := Ideal) (ix2 p d)) := by
  rw [k1_pay4_apply, k1_pay5_apply, k1_pay6_apply, Bridge.seenBefore_zero]
  exact inv_init _ _

/-- THE END: once every row's state satisfies the invariant on all 4096 key positions, the quotient the kernel writes
    at (p, d) is the one-pass attention output at global row 512·qi + p and feature d. -/
theorem end_eq_out (X : Fin 4096 → Fin 1024 → ℝ) (WQ WK WV : Fin 1024 → Fin 1024 → ℝ) (qi : Fin 8)
    (x : Cert.ReferenceIdeal.S4096x1024.Idx → EReal) (wq wk wv : Cert.ReferenceIdeal.S1024x1024.Idx → EReal)
    (hx : ∀ s j, x (ix2 s j) = ((X s j : ℝ) : EReal))
    (hq : ∀ j d, wq (ix2 j d) = ((WQ j d : ℝ) : EReal)) (hk : ∀ j d, wk (ix2 j d) = ((WK j d : ℝ) : EReal))
    (hv : ∀ j d, wv (ix2 j d) = ((WV j d : ℝ) : EReal))
    (m1 l1 : Vec Ideal S512x1 .f32) (a1 : Vec Ideal S512x1024 .f32)
    (hfin : ∀ p d, Inv (sc X WQ WK qi p) (vl X WV d) Finset.univ
      (m1 (ix2 p (0 : Fin 1))) (l1 (ix2 p (0 : Fin 1))) (a1 (ix2 p d)))
    (p : Fin 512) (d : Fin 1024) :
    k1_pay3 (F := Ideal) a1 l1 (ix2 p d) = Cert.RefValue.out x wq wk wv (tileIdx qi p) d := by
  rw [k1_pay3_apply]
  exact Bridge.bridge X WQ WK WV x wq wk wv hx hq hk hv (tileIdx qi p) d _ _ _ (hfin p d)

end Cert.KernelIdeal.Sem

end
-- ==== Proof.IdealCover1.lean ====
/-
  The attention region's blocks. The grid is 8 query tiles by 8 key tiles, point t being query tile t / 8 and key tile
  t % 8. At point t the query window and the output window are at block (t / 8, 0) — rows 512·(t / 8) to
  512·(t / 8) + 511 of their arrays —, the key and value windows at block (0, 0), the whole array. The output window is
  written back at the last key tile of each query tile, and those eight blocks cover the output array.
-/
import proofs.«175549_j54159537602870_2_alg».proof.Proof.IdealRun
import Idealize.ShloMosaic.Lib.Pipeline.Value
import Idealize.ShloMosaic.Lib.ValueIdx

set_option maxRecDepth 16384

noncomputable section

namespace Cert.KernelIdeal.Cover1

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable {F : FTy → Type} [FloatOps F]

/-! ## The block indices, point by point -/

/-- Each window's block index at point t, and the point's two grid coordinates. -/
theorem idx_facts1 : ∀ t : Fin cfg1.N,
    win1_0.index t (0 : Fin 2) = t.val / 8 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ (grid1.coords t (0 : Fin 2)).val = t.val / 8 ∧ (grid1.coords t (1 : Fin 2)).val = t.val % 8 :=
  (by decide +kernel : ∀ t : Fin grid1.N, _)

/-- Row p of query tile t / 8 is a row of the array. -/
theorem row_lt (t : Fin cfg1.N) (p : Fin 512) : 512 * (t.val / 8) + p.val < 4096 := by
  have hN : cfg1.N = 64 := N_1
  have := t.isLt
  omega

section Blocks

variable (V : (c : Dev nD) → (b : Ref sig .tc) → Buf (Elt F) ((c : Thread nD τ).loc b))

/-! ## The input windows' blocks -/

/-- The query window's block at point t, at (p, d): the query array at row 512·(t / 8) + p, column d. -/
theorem iblk1_0_apply (c : Dev nD) (t : Fin cfg1.N) (p : Fin 512) (d : Fin 1024) :
    iblk1 V c 0 t (ix2 p d) = V c main_v5_0 (ix2 (⟨512 * (t.val / 8) + p.val, row_lt t p⟩ : Fin 4096) d) := by
  obtain ⟨e00, e01, -⟩ := idx_facts1 t
  exact congrArg (V c main_v5_0) (funext fun a => Fin.ext (by
    match a with
    | ⟨0, _⟩ => show win1_0.index t (0 : Fin 2) * 512 + 1 * p.val = 512 * (t.val / 8) + p.val; omega
    | ⟨1, _⟩ => show win1_0.index t (1 : Fin 2) * 1024 + 1 * d.val = d.val; omega))

/-- The key window's block at any point is the whole key array. -/
theorem iblk1_1_eq (c : Dev nD) (t : Fin cfg1.N) :
    (iblk1 V c 1 t : S4096x1024.Idx → Elt F .bf16) = V c main_v5_1 := by
  obtain ⟨-, -, e10, e11, -⟩ := idx_facts1 t
  funext i
  have h0 : (i 0).val < 4096 := (i 0).isLt
  have h1 : (i 1).val < 1024 := (i 1).isLt
  exact congrArg (V c main_v5_1) (funext fun a => Fin.ext (by
    match a with
    | ⟨0, _⟩ => show win1_1.index t (0 : Fin 2) * 4096 + 1 * (i 0).val = (i 0).val; omega
    | ⟨1, _⟩ => show win1_1.index t (1 : Fin 2) * 1024 + 1 * (i 1).val = (i 1).val; omega))

/-- The same at an entry. -/
theorem iblk1_1_apply (c : Dev nD) (t : Fin cfg1.N) (r : Fin 4096) (d : Fin 1024) :
    iblk1 V c 1 t (ix2 r d) = V c main_v5_1 (ix2 r d) :=
  congrFun (iblk1_1_eq V c t) (ix2 r d)

/-- The value window's block at any point is the whole value array. -/
theorem iblk1_2_eq (c : Dev nD) (t : Fin cfg1.N) :
    (iblk1 V c 2 t : S4096x1024.Idx → Elt F .bf16) = V c main_v5_2 := by
  obtain ⟨-, -, -, -, e20, e21, -⟩ := idx_facts1 t
  funext i
  have h0 : (i 0).val < 4096 := (i 0).isLt
  have h1 : (i 1).val < 1024 := (i 1).isLt
  exact congrArg (V c main_v5_2) (funext fun a => Fin.ext (by
    match a with
    | ⟨0, _⟩ => show win1_2.index t (0 : Fin 2) * 4096 + 1 * (i 0).val = (i 0).val; omega
    | ⟨1, _⟩ => show win1_2.index t (1 : Fin 2) * 1024 + 1 * (i 1).val = (i 1).val; omega))

/-- The same at an entry. -/
theorem iblk1_2_apply (c : Dev nD) (t : Fin cfg1.N) (r : Fin 4096) (d : Fin 1024) :
    iblk1 V c 2 t (ix2 r d) = V c main_v5_2 (ix2 r d) :=
  congrFun (iblk1_2_eq V c t) (ix2 r d)

end Blocks

/-! ## The output window -/

/-- An index of the output array is in point t's block when each coordinate is in the block's range on its axis. -/
theorem mem_blk1_3 (t : Fin cfg1.N) (i : S4096x1024.Idx) :
    i ∈ ((cfg1.win 3).blk t).view.set
      ↔ ∀ a : Fin 2, win1_3.index t a * S512x1024.size a ≤ (i a).val
          ∧ (i a).val < win1_3.index t a * S512x1024.size a + S512x1024.size a := by
  show i ∈ ((View.whole main_v6).slice (win1_3.rect t)).set ↔ _
  rw [View.set_slice_whole, Rect.mem_set_unit]
  exact Iff.rfl

/-- Every index of the output array is in the block of a point that writes back: row r is in the block of the last key
    tile of query tile r / 512, the point 8·(r / 512) + 7. -/
theorem cover1_3 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 64 := N_1
  refine ⟨⟨8 * ((i 0).val / 512) + 7, by rw [hN]; omega⟩, (flush1_3 _).mpr (by show (8 * ((i 0).val / 512) + 7) % 8 = 7; omega), ?_⟩
  rw [mem_blk1_3]
  obtain ⟨-, -, -, -, -, -, e30, e31, -⟩ := idx_facts1 ⟨8 * ((i 0).val / 512) + 7, by rw [hN]; omega⟩
  intro a
  match a with
  | ⟨0, _⟩ =>
    show win1_3.index ⟨8 * ((i 0).val / 512) + 7, _⟩ (0 : Fin 2) * 512 ≤ (i 0).val
      ∧ (i 0).val < win1_3.index ⟨8 * ((i 0).val / 512) + 7, _⟩ (0 : Fin 2) * 512 + 512
    rw [e30]; show (8 * ((i 0).val / 512) + 7) / 8 * 512 ≤ (i 0).val ∧ (i 0).val < (8 * ((i 0).val / 512) + 7) / 8 * 512 + 512; omega
  | ⟨1, _⟩ =>
    show win1_3.index ⟨8 * ((i 0).val / 512) + 7, _⟩ (1 : Fin 2) * 1024 ≤ (i 1).val
      ∧ (i 1).val < win1_3.index ⟨8 * ((i 0).val / 512) + 7, _⟩ (1 : Fin 2) * 1024 + 1024
    rw [e31]; omega

/-- Entry (p, d) of point t's output block sits at row 512·(t / 8) + p, column d of the output array. -/
theorem emb1_3 (t : Fin cfg1.N) (p : Fin 512) (d : Fin 1024) :
    (((cfg1.win 3).blk t).view.emb (ix2 p d) : S4096x1024.Idx)
      = ix2 (⟨512 * (t.val / 8) + p.val, row_lt t p⟩ : Fin 4096) d := by
  obtain ⟨-, -, -, -, -, -, e30, e31, -⟩ := idx_facts1 t
  exact funext fun a => Fin.ext (by
    match a with
    | ⟨0, _⟩ => show win1_3.index t (0 : Fin 2) * 512 + 1 * p.val = 512 * (t.val / 8) + p.val; omega
    | ⟨1, _⟩ => show win1_3.index t (1 : Fin 2) * 1024 + 1 * d.val = d.val; omega)

section Array

variable (V : (c : Dev nD) → (b : Ref sig .tc) → Buf (Elt F) ((c : Thread nD τ).loc b))

/-- The output array after the region is any one function G of which every written-back block is the block: the
    written-back blocks cover the array. -/
theorem final1_3_of (c : Dev nD) (G : S4096x1024.Idx → Elt F .f32)
    (hG : ∀ t : Fin cfg1.N, t.val % 8 = 7 → (dat1 V c).flushed 3 t = ((cfg1.win 3).blk t).view.read (Elt F) G) :
    (dat1 V c).arrAt 3 cfg1.N = G :=
  (dat1 V c).arrAt_eq_of_cover 3 G (fun t hf => hG t ((flush1_3 t).mp hf)) cover1_3

/-- What a last key tile writes back is the output block the body leaves there, from what the point before left. -/
theorem flushed1_3_C (c : Dev nD) (t : Fin cfg1.N) (h0 : ¬t.val % 8 = 0) (h1 : t.val % 8 = 7) :
    (dat1 V c).flushed 3 t
      = (stC V c t h0 h1 (outsAt1 V c (t.val - 1) (Nat.lt_of_le_of_lt (Nat.sub_le _ _) t.isLt))).1 := by
  show (cfg1.win 3).cut (grid1.coords t) ((dat1 V c).after 3 t) = _
  rw [after1_3, outsAt1_C V c t h0 h1]
  rfl

end Array

end Cert.KernelIdeal.Cover1

end
-- ==== Proof.IdealValue1.lean ====
/-
  The attention region's result array is the one-pass attention output.

  The region runs 64 grid points, point 8·qi + ki pairing query tile qi with key tile ki. Its three scratch buffers
  hold, for each of the 512 rows of the query tile, a running maximum, a running sum and running weighted sums. By
  induction over the points they satisfy the streaming-softmax invariant, for the rows of query tile qi, on the key
  positions up to tile ki: a first key tile resets them and takes one step, every later tile takes one step from what
  the point before left. After the last key tile all 4096 key positions are seen and the block written back — the
  weighted sums divided by the sums — is the one-pass output on the rows of query tile qi; the eight written-back
  blocks cover the result array.
-/
import proofs.«175549_j54159537602870_2_alg».proof.Proof.IdealRun
import proofs.«175549_j54159537602870_2_alg».proof.Proof.IdealPieces
import proofs.«175549_j54159537602870_2_alg».proof.Proof.IdealSem
import proofs.«175549_j54159537602870_2_alg».proof.Proof.IdealCover1
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix2)
open Cert.LibOnlineSoftmax (Inv)
open Cert.Bridge (tileIdx seen seenBefore)

/-! ## The grid and the blocks -/

/-- The block index of each window at every grid point, and the key-tile coordinate: the query block and the output
    block are block t / 8 of their arrays' rows, the key and value arrays are one block, and the second grid
    coordinate is t mod 8. -/
theorem idx_facts : ∀ t : Fin cfg1.N,
    win1_0.index t (0 : Fin 2) = t.val / 8 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ ((grid1.coords t) 1).val = t.val % 8 :=
  (by decide +kernel : ∀ t : Fin grid1.N, _)

section Blocks

variable (V : (c : Dev nD) → (b : Ref sig .tc) → Buf (Elt Ideal) ((c : Thread nD τ).loc b)) (c : Dev nD)

/-- The query block at point t = 8·qi + ki, at (p, d'), is the query array at global row 512·qi + p. -/
theorem iblk1_0_apply (t : Fin cfg1.N) (qi ki : Fin 8) (ht : t.val = 8 * qi.val + ki.val) (p : Fin 512) (d' : Fin 1024) :
    iblk1 V c 0 t (ix2 p d') = V c main_v5_0 (ix2 (tileIdx qi p) d') := by
  obtain ⟨e00, e01, -⟩ := idx_facts t
  have hki := ki.isLt
  have h : ((cfg1.win 0).blk t).view.emb (ix2 p d') = ix2 (tileIdx qi p) d' := by
    funext a; apply Fin.ext
    match a with
    | ⟨0, _⟩ => show win1_0.index t (0 : Fin 2) * 512 + 1 * p.val = 512 * qi.val + p.val; omega
    | ⟨1, _⟩ => show win1_0.index t (1 : Fin 2) * 1024 + 1 * d'.val = d'.val; omega
  show V c main_v5_0 (((cfg1.win 0).blk t).view.emb (ix2 p d')) = _
  rw [h]

/-- The key array's one block is the key array. -/
theorem iblk1_1_eq (t : Fin cfg1.N) : iblk1 V c 1 t = V c main_v5_1 := by
  obtain ⟨-, -, e10, e11, -⟩ := idx_facts t
  funext j
  have h : ((cfg1.win 1).blk t).view.emb j = j := by
    funext a; apply Fin.ext
    match a with
    | ⟨0, _⟩ => show win1_1.index t (0 : Fin 2) * 4096 + 1 * (j 0).val = (j 0).val; omega
    | ⟨1, _⟩ => show win1_1.index t (1 : Fin 2) * 1024 + 1 * (j 1).val = (j 1).val; omega
  show V c main_v5_1 (((cfg1.win 1).blk t).view.emb j) = _
  rw [h]

/-- The value array's one block is the value array. -/
theorem iblk1_2_eq (t : Fin cfg1.N) : iblk1 V c 2 t = V c main_v5_2 := by
  obtain ⟨-, -, -, -, e20, e21, -⟩ := idx_facts t
  funext j
  have h : ((cfg1.win 2).blk t).view.emb j = j := by
    funext a; apply Fin.ext
    match a with
    | ⟨0, _⟩ => show win1_2.index t (0 : Fin 2) * 4096 + 1 * (j 0).val = (j 0).val; omega
    | ⟨1, _⟩ => show win1_2.index t (1 : Fin 2) * 1024 + 1 * (j 1).val = (j 1).val; omega
  show V c main_v5_2 (((cfg1.win 2).blk t).view.emb j) = _
  rw [h]

/-- The tile of a whole array that the body cuts at point t = 8·qi + ki, at (t', d), is the array at global row
    512·ki + t'. -/
theorem tile_apply' (t : Fin cfg1.N) (qi ki : Fin 8) (ht : t.val = 8 * qi.val + ki.val)
    (x : Vec Ideal S4096x1024 .bf16) (t' : Fin 512) (d : Fin 1024) :
    Pieces.tile (grid1.coords t) x (ix2 t' d) = x (ix2 (tileIdx ki t') d) := by
  obtain ⟨-, -, -, -, -, -, -, -, ek⟩ := idx_facts t
  have hki := ki.isLt
  rw [Pieces.tile_apply]
  refine congrArg x (congrArg (fun r => ix2 r d) (Fin.ext ?_))
  show 512 * ((grid1.coords t) 1).val + t'.val = 512 * ki.val + t'.val
  omega

end Blocks

/-! ## The state after a point, through the body's arithmetic -/

section State

variable (V : (c : Dev nD) → (b : Ref sig .tc) → Buf (Elt Ideal) ((c : Thread nD τ).loc b)) (c : Dev nD)

/-- The running maximum a first key tile leaves: the reset one raised by the tile. -/
theorem stA_m (t : Fin cfg1.N) (h0 : t.val % 8 = 0) (h1 : ¬t.val % 8 = 7) :
    (stA V c t h0 h1).2.1
      = k1_pay2 (F := Ideal) (k1_pay9 (F := Ideal) (iblk1 V c 0 t) (Pieces.tile (grid1.coords t) (iblk1 V c 1 t))
          (k1_pay4 (F := Ideal))) := by
  unfold stA
  exact Pieces.sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)

/-- The running sum a first key tile leaves. -/
theorem stA_l (t : Fin cfg1.N) (h0 : t.val % 8 = 0) (h1 : ¬t.val % 8 = 7) :
    (stA V c t h0 h1).2.2.1
      = k1_pay12 (F := Ideal) (iblk1 V c 0 t) (Pieces.tile (grid1.coords t) (iblk1 V c 1 t))
          (k1_pay4 (F := Ideal)) (k1_pay4 (F := Ideal)) (k1_pay5 (F := Ideal)) := by
  unfold stA
  exact Pieces.sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)

/-- The running weighted sum a first key tile leaves. -/
theorem stA_a (t : Fin cfg1.N) (h0 : t.val % 8 = 0) (h1 : ¬t.val % 8 = 7) :
    (stA V c t h0 h1).2.2.2
      = k1_pay1 (F := Ideal) (k1_pay7 (F := Ideal) (Pieces.tile (grid1.coords t) (iblk1 V c 2 t)))
          (k1_pay13 (F := Ideal) (iblk1 V c 0 t) (Pieces.tile (grid1.coords t) (iblk1 V c 1 t))
            (k1_pay4 (F := Ideal)) (k1_pay4 (F := Ideal)) (k1_pay6 (F := Ideal)))
          (k1_pay14 (F := Ideal) (iblk1 V c 0 t) (Pieces.tile (grid1.coords t) (iblk1 V c 1 t)) (k1_pay4 (F := Ideal))) := by
  unfold stA
  dsimp only
  rw [Pieces.sout1_A_2_eq]

/-- The running maximum a middle key tile leaves: the carried one raised by the tile. -/
theorem stB_m (t : Fin cfg1.N) (h0 : ¬t.val % 8 = 0) (h1 : ¬t.val % 8 = 7) (pr : St1 Ideal) :
    (stB V c t h0 h1 pr).2.1
      = k1_pay2 (F := Ideal) (k1_pay9 (F := Ideal) (iblk1 V c 0 t) (Pieces.tile (grid1.coords t) (iblk1 V c 1 t)) pr.2.1) := by
  unfold stB
  exact Pieces.sout1_B_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) pr.2.1 pr.2.2.1 pr.2.2.2

/-- The running sum a middle key tile leaves. -/
theorem stB_l (t : Fin cfg1.N) (h0 : ¬t.val % 8 = 0) (h1 : ¬t.val % 8 = 7) (pr : St1 Ideal) :
    (stB V c t h0 h1 pr).2.2.1
      = k1_pay12 (F := Ideal) (iblk1 V c 0 t) (Pieces.tile (grid1.coords t) (iblk1 V c 1 t)) pr.2.1 pr.2.1 pr.2.2.1 := by
  unfold stB
  exact Pieces.sout1_B_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) pr.2.1 pr.2.2.1 pr.2.2.2

/-- The running weighted sum a middle key tile leaves. -/
theorem stB_a (t : Fin cfg1.N) (h0 : ¬t.val % 8 = 0) (h1 : ¬t.val % 8 = 7) (pr : St1 Ideal) :
    (stB V c t h0 h1 pr).2.2.2
      = k1_pay1 (F := Ideal) (k1_pay7 (F := Ideal) (Pieces.tile (grid1.coords t) (iblk1 V c 2 t)))
          (k1_pay13 (F := Ideal) (iblk1 V c 0 t) (Pieces.tile (grid1.coords t) (iblk1 V c 1 t)) pr.2.1 pr.2.1 pr.2.2.2)
          (k1_pay14 (F := Ideal) (iblk1 V c 0 t) (Pieces.tile (grid1.coords t) (iblk1 V c 1 t)) pr.2.1) := by
  unfold stB
  dsimp only
  rw [Pieces.sout1_B_2_eq]

/-- The running maximum a last key tile leaves: the carried one raised by the tile. -/
theorem stC_m (t : Fin cfg1.N) (h0 : ¬t.val % 8 = 0) (h1 : t.val % 8 = 7) (pr : St1 Ideal) :
    (stC V c t h0 h1 pr).2.1
      = k1_pay2 (F := Ideal) (k1_pay9 (F := Ideal) (iblk1 V c 0 t) (Pieces.tile (grid1.coords t) (iblk1 V c 1 t)) pr.2.1) := by
  unfold stC
  exact Pieces.sout1_C_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) pr.2.1 pr.2.2.1 pr.2.2.2

/-- The running sum a last key tile leaves. -/
theorem stC_l (t : Fin cfg1.N) (h0 : ¬t.val % 8 = 0) (h1 : t.val % 8 = 7) (pr : St1 Ideal) :
    (stC V c t h0 h1 pr).2.2.1
      = k1_pay12 (F := Ideal) (iblk1 V c 0 t) (Pieces.tile (grid1.coords t) (iblk1 V c 1 t)) pr.2.1 pr.2.1 pr.2.2.1 := by
  unfold stC
  exact Pieces.sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) pr.2.1 pr.2.2.1 pr.2.2.2

/-- The running weighted sum a last key tile leaves. -/
theorem stC_a (t : Fin cfg1.N) (h0 : ¬t.val % 8 = 0) (h1 : t.val % 8 = 7) (pr : St1 Ideal) :
    (stC V c t h0 h1 pr).2.2.2
      = k1_pay1 (F := Ideal) (k1_pay7 (F := Ideal) (Pieces.tile (grid1.coords t) (iblk1 V c 2 t)))
          (k1_pay13 (F := Ideal) (iblk1 V c 0 t) (Pieces.tile (grid1.coords t) (iblk1 V c 1 t)) pr.2.1 pr.2.1 pr.2.2.2)
          (k1_pay14 (F := Ideal) (iblk1 V c 0 t) (Pieces.tile (grid1.coords t) (iblk1 V c 1 t)) pr.2.1) := by
  unfold stC
  dsimp only
  rw [Pieces.sout1_C_2_eq]

/-- The output block a last key tile leaves: the weighted sum it leaves divided, row by row, by the sum it leaves. -/
theorem stC_out (t : Fin cfg1.N) (h0 : ¬t.val % 8 = 0) (h1 : t.val % 8 = 7) (pr : St1 Ideal) :
    (stC V c t h0 h1 pr).1
      = k1_pay3 (F := Ideal) (stC V c t h0 h1 pr).2.2.2 (stC V c t h0 h1 pr).2.2.1 := by
  unfold stC
  dsimp only
  rw [Pieces.out1_C_3_eq_scratch]

end State

/-! ## The invariant at every grid point -/

/-- The positions before a key tile that is not the first are the positions up to the tile before it. -/
theorem seenBefore_eq_seen_pred (ki : Fin 8) (h : ki.val ≠ 0) :
    seenBefore ki = seen ⟨ki.val - 1, by have := ki.isLt; omega⟩ := by
  ext j
  rw [Bridge.mem_seenBefore, Bridge.mem_seen]
  show j.val < 512 * ki.val ↔ j.val < 512 * (ki.val - 1 + 1)
  rw [Nat.sub_add_cancel (Nat.pos_of_ne_zero h)]

/-- Every row's running maximum, running sum and running weighted sums in a state satisfy the streaming invariant, for
    query tile qi, on the key positions S. -/
def StInv (X : Fin 4096 → Fin 1024 → ℝ) (WQ WK WV : Fin 1024 → Fin 1024 → ℝ) (qi : Fin 8) (S : Finset (Fin 4096))
    (st : St1 Ideal) : Prop :=
  ∀ (p : Fin 512) (d : Fin 1024), Inv (Sem.sc X WQ WK qi p) (Sem.vl X WV d) S
    (st.2.1 (ix2 p (0 : Fin 1))) (st.2.2.1 (ix2 p (0 : Fin 1))) (st.2.2.2 (ix2 p d))

section Invariant

variable (V : (c : Dev nD) → (b : Ref sig .tc) → Buf (Elt Ideal) ((c : Thread nD τ).loc b)) (c : Dev nD)
  (X : Fin 4096 → Fin 1024 → ℝ) (WQ WK WV : Fin 1024 → Fin 1024 → ℝ)

/-- THE INVARIANT: with the query, key and value arrays the real projections, after grid point n = 8·qi + ki the
    scratch buffers satisfy the streaming invariant for query tile qi on the key positions up to tile ki. -/
theorem inv_at
    (hQ : ∀ s d, V c main_v5_0 (ix2 s d) = ((Bridge.Qr X WQ s d : ℝ) : EReal))
    (hK : ∀ t d, V c main_v5_1 (ix2 t d) = ((Bridge.Kr X WK t d : ℝ) : EReal))
    (hV : ∀ t d, V c main_v5_2 (ix2 t d) = ((Bridge.Vr X WV t d : ℝ) : EReal)) :
    ∀ (n : ℕ) (hn : n < cfg1.N) (qi ki : Fin 8), n = 8 * qi.val + ki.val →
      StInv X WQ WK WV qi (seen ki) (outsAt1 V c n hn) := by
  intro n
  induction n using Nat.strong_induction_on with
  | _ n ih =>
    intro hn qi ki hnk p d
    have hki := ki.isLt
    have h5 : ∀ (p : Fin 512) (d' : Fin 1024), iblk1 V c 0 ⟨n, hn⟩ (ix2 p d')
        = ((Bridge.Qr X WQ (tileIdx qi p) d' : ℝ) : EReal) :=
      fun p d' => (iblk1_0_apply V c ⟨n, hn⟩ qi ki hnk p d').trans (hQ _ _)
    have h8 : ∀ (t' : Fin 512) (d' : Fin 1024),
        Pieces.tile (grid1.coords ⟨n, hn⟩) (iblk1 V c 1 ⟨n, hn⟩) (ix2 t' d')
          = ((Bridge.Kr X WK (tileIdx ki t') d' : ℝ) : EReal) := fun t' d' => by
      rw [iblk1_1_eq]
      exact (tile_apply' ⟨n, hn⟩ qi ki hnk _ t' d').trans (hK _ _)
    have hvt : ∀ (t' : Fin 512) (d : Fin 1024),
        Pieces.tile (grid1.coords ⟨n, hn⟩) (iblk1 V c 2 ⟨n, hn⟩) (ix2 t' d)
          = ((Bridge.Vr X WV (tileIdx ki t') d : ℝ) : EReal) := fun t' d => by
      rw [iblk1_2_eq]
      exact (tile_apply' ⟨n, hn⟩ qi ki hnk _ t' d).trans (hV _ _)
    by_cases h0 : n % 8 = 0
    · -- the first key tile of its query tile: the scratch is reset, then updated
      have h7 : ¬n % 8 = 7 := by omega
      have hk0 : ki = 0 := Fin.ext (show ki.val = 0 by omega)
      subst hk0
      have e : outsAt1 V c n hn = stA V c ⟨n, hn⟩ h0 h7 := outsAt1_A V c ⟨n, hn⟩ h0 h7
      rw [e, stA_m, stA_l, stA_a]
      exact Sem.step_inv_payloads X WQ WK WV qi 0 _ _ _ _ _ _ h5 h8 hvt
        (fun p d => Sem.reset_inv X WQ WK WV qi p d) p d
    · -- a later key tile: the scratch is carried from the point before
      have hk1 : ki.val ≠ 0 := by omega
      have hn1 : n - 1 < cfg1.N := by omega
      have ihp : StInv X WQ WK WV qi (seen ⟨ki.val - 1, by omega⟩) (outsAt1 V c (n - 1) hn1) :=
        ih (n - 1) (by omega) hn1 qi ⟨ki.val - 1, by omega⟩ (show n - 1 = 8 * qi.val + (ki.val - 1) by omega)
      have hprev : ∀ (p : Fin 512) (d : Fin 1024), Inv (Sem.sc X WQ WK qi p) (Sem.vl X WV d) (seenBefore ki)
          ((outsAt1 V c (n - 1) hn1).2.1 (ix2 p (0 : Fin 1))) ((outsAt1 V c (n - 1) hn1).2.2.1 (ix2 p (0 : Fin 1)))
          ((outsAt1 V c (n - 1) hn1).2.2.2 (ix2 p d)) := fun p d => by
        rw [seenBefore_eq_seen_pred ki hk1]
        exact ihp p d
      by_cases h7 : n % 8 = 7
      · have e : outsAt1 V c n hn = stC V c ⟨n, hn⟩ h0 h7 (outsAt1 V c (n - 1) hn1) := outsAt1_C V c ⟨n, hn⟩ h0 h7
        rw [e, stC_m, stC_l, stC_a]
        exact Sem.step_inv_payloads X WQ WK WV qi ki _ _ _ _ _ _ h5 h8 hvt hprev p d
      · have e : outsAt1 V c n hn = stB V c ⟨n, hn⟩ h0 h7 (outsAt1 V c (n - 1) hn1) := outsAt1_B V c ⟨n, hn⟩ h0 h7
        rw [e, stB_m, stB_l, stB_a]
        exact Sem.step_inv_payloads X WQ WK WV qi ki _ _ _ _ _ _ h5 h8 hvt hprev p d

end Invariant

/-! ## The output array -/

section Output

variable (V : (c : Dev nD) → (b : Ref sig .tc) → Buf (Elt Ideal) ((c : Thread nD τ).loc b)) (c : Dev nD)
  (X : Fin 4096 → Fin 1024 → ℝ) (WQ WK WV : Fin 1024 → Fin 1024 → ℝ)

/-- After a last key tile the output block is the weighted-sum scratch divided, row by row, by the sum scratch, both as
    that point leaves them. -/
theorem outsAt1_out (t : Fin cfg1.N) (h7 : t.val % 8 = 7) :
    (outsAt1 V c t.val t.isLt).1
      = k1_pay3 (F := Ideal) (outsAt1 V c t.val t.isLt).2.2.2 (outsAt1 V c t.val t.isLt).2.2.1 := by
  have h0 : ¬t.val % 8 = 0 := by omega
  rw [outsAt1_C V c t h0 h7]
  exact stC_out V c t h0 h7 _

/-- What a last key tile writes back is its block of the one-pass attention output of the argument arrays. -/
theorem flushed3_eq
    (x : Cert.ReferenceIdeal.S4096x1024.Idx → EReal) (wq wk wv : Cert.ReferenceIdeal.S1024x1024.Idx → EReal)
    (hx : ∀ s j, x (ix2 s j) = ((X s j : ℝ) : EReal))
    (hq : ∀ j d, wq (ix2 j d) = ((WQ j d : ℝ) : EReal)) (hk : ∀ j d, wk (ix2 j d) = ((WK j d : ℝ) : EReal))
    (hv : ∀ j d, wv (ix2 j d) = ((WV j d : ℝ) : EReal))
    (hQ : ∀ s d, V c main_v5_0 (ix2 s d) = ((Bridge.Qr X WQ s d : ℝ) : EReal))
    (hK : ∀ t d, V c main_v5_1 (ix2 t d) = ((Bridge.Kr X WK t d : ℝ) : EReal))
    (hV : ∀ t d, V c main_v5_2 (ix2 t d) = ((Bridge.Vr X WV t d : ℝ) : EReal))
    (t : Fin cfg1.N) (h7 : t.val % 8 = 7) :
    (dat1 V c).flushed 3 t
      = ((cfg1.win 3).blk t).view.read (Elt Ideal) (fun i => Cert.RefValue.out x wq wk wv (i 0) (i 1)) := by
  have hN : cfg1.N = 64 := N_1
  have htl := t.isLt
  have hq8 : t.val / 8 < 8 := by omega
  show (cfg1.win 3).cut (grid1.coords t) ((dat1 V c).after 3 t) = _
  rw [after1_3]
  funext j
  obtain ⟨p, d, rfl⟩ : ∃ (p : Fin 512) (d : Fin 1024), j = ix2 p d := ⟨j 0, j 1, eq_ix2 j⟩
  show (outsAt1 V c t.val t.isLt).1 (ix2 p d)
    = Cert.RefValue.out x wq wk wv ((((cfg1.win 3).blk t).view.emb (ix2 p d) : S4096x1024.Idx) 0)
        ((((cfg1.win 3).blk t).view.emb (ix2 p d) : S4096x1024.Idx) 1)
  rw [Cover1.emb1_3 t p d, outsAt1_out V c t h7]
  have hinv := inv_at V c X WQ WK WV hQ hK hV t.val t.isLt ⟨t.val / 8, hq8⟩ ⟨7, by norm_num⟩
    (show t.val = 8 * (t.val / 8) + 7 by omega)
  rw [Bridge.seen_last] at hinv
  exact Sem.end_eq_out X WQ WK WV ⟨t.val / 8, hq8⟩ x wq wk wv hx hq hk hv _ _ _ hinv p d

end Output

/-! ## The result -/

/-- THE RESULT: with real argument arrays, and the query, key and value arrays at the attention region's entry the
    real projections, the result array after the run is the one-pass attention output of the argument arrays, entry
    by entry. -/
theorem result_eq (m : (ℓ : Loc nD τ sig) → Buf (Elt Ideal) ℓ) (c : Dev nD)
    (X : Fin 4096 → Fin 1024 → ℝ) (WQ WK WV : Fin 1024 → Fin 1024 → ℝ)
    (hx : ∀ s j, m ((c.tc : Thread nD τ).loc main_arg0) (ix2 s j) = ((X s j : ℝ) : EReal))
    (hq : ∀ j d, m ((c.tc : Thread nD τ).loc main_arg1) (ix2 j d) = ((WQ j d : ℝ) : EReal))
    (hk : ∀ j d, m ((c.tc : Thread nD τ).loc main_arg2) (ix2 j d) = ((WK j d : ℝ) : EReal))
    (hv : ∀ j d, m ((c.tc : Thread nD τ).loc main_arg3) (ix2 j d) = ((WV j d : ℝ) : EReal))
    (hQ : ∀ s d, V2' m c main_v5_0 (ix2 s d) = ((Bridge.Qr X WQ s d : ℝ) : EReal))
    (hK : ∀ t d, V2' m c main_v5_1 (ix2 t d) = ((Bridge.Kr X WK t d : ℝ) : EReal))
    (hV : ∀ t d, V2' m c main_v5_2 (ix2 t d) = ((Bridge.Vr X WV t d : ℝ) : EReal)) :
    W3 m c (Proc.devRef .tc main_v6)
      = fun i => Cert.RefValue.out (m ((c.tc : Thread nD τ).loc main_arg0)) (m ((c.tc : Thread nD τ).loc main_arg1))
          (m ((c.tc : Thread nD τ).loc main_arg2)) (m ((c.tc : Thread nD τ).loc main_arg3)) (i 0) (i 1) :=
  (W3_arr m c 3).trans (Cover1.final1_3_of (V2' m) c _ fun t h7 =>
    flushed3_eq (V2' m) c X WQ WK WV _ _ _ _ hx hq hk hv hQ hK hV t h7)

end Cert.KernelIdeal.Val

end
-- ==== Proof.lean ====
/-
  Single-head attention: a two-kernel streaming computation against the plain softmax formula.

  The kernel first projects x against Wq·(1/32), Wk and Wv (one grid point per 512 rows), then, per 512-row query tile,
  walks the eight 512-row key tiles keeping a running row maximum, a running sum of exponentials and a running weighted
  sum of value rows, rescaling the two sums whenever the maximum grows, and at the last key tile stores the quotient of
  the weighted sum by the sum. The reference forms all logits (x·Wq)(x·Wk)ᵀ·(1/√1024), subtracts each row's maximum,
  exponentiates, normalises each row by its sum and multiplies by x·Wv.

  On finite inputs every quantity is a real number. √1024 = 32, so the two scales agree and the scale moves through the
  sums; the running triple after the key tiles seen so far is (max, Σ exp(s − max), Σ exp(s − max)·v) over exactly those
  keys, because exp(m − m')·exp(s − m) = exp(s − m'); after the last tile the quotient is the softmax-weighted sum.

  Frames: each program is @main's host operations followed by its two kernel regions; the attention region's invariant
  carries the three scratch buffers from point to point. The reference's frame is its run with the result dropped.
-/
import proofs.«175549_j54159537602870_2_alg».proof.Defs
import proofs.«175549_j54159537602870_2_alg».proof.Proof.Gen.Kernel
import proofs.«175549_j54159537602870_2_alg».proof.Proof.Gen.KernelIdeal
import proofs.«175549_j54159537602870_2_alg».proof.Proof.Gen.ReferenceIdeal
import proofs.«175549_j54159537602870_2_alg».proof.Proof.Gen.Pre_finite_inputs
import proofs.«175549_j54159537602870_2_alg».proof.Proof.BitsRun
import proofs.«175549_j54159537602870_2_alg».proof.Proof.IdealRun
import proofs.«175549_j54159537602870_2_alg».proof.Proof.IdealFinite
import proofs.«175549_j54159537602870_2_alg».proof.Proof.IdealValue0
import proofs.«175549_j54159537602870_2_alg».proof.Proof.IdealValue1
import proofs.«175549_j54159537602870_2_alg».proof.Proof.RefValue

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The printed kernel runs and leaves its arguments unchanged. -/
theorem frame_k : Cert.frame_Kernel := fun m ρ _ => Cert.Kernel.Hand.frame m ρ

/-- The idealized kernel runs and leaves its arguments unchanged. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On finite inputs both programs end with the softmax-weighted sum of value rows, entry by entry. -/
theorem algebraic : Cert.algebraic_KernelIdeal_ReferenceIdeal := by
  intro m ρ m' ρ' hpre hagree
  refine ⟨fun c i => Cert.RefValue.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1), ?_, ?_⟩
  · refine (θ_run Cert.KernelIdeal.defs _ _).mono (fun _ h c => ⟨(h c).1.trans ?_, (h c).2⟩) (Cert.KernelIdeal.Hand.run_main (F := Ideal) m ρ)
    obtain ⟨X, WQ, WK, WV, hx, hq, hk, hv⟩ := Cert.KernelIdeal.Val.reals_of_pre m c (hpre c)
    exact Cert.KernelIdeal.Val.result_eq m c X WQ WK WV hx hq hk hv
      (Cert.KernelIdeal.Val.q_arr m c X WQ hx hq) (Cert.KernelIdeal.Val.k_arr m c X WK hx hk) (Cert.KernelIdeal.Val.v_arr m c X WV hx hv)
  · refine (θ_run Cert.ReferenceIdeal.defs _ _).mono (fun _ h c => ⟨(h c).1.trans ?_, (h c).2⟩) (Cert.RefValue.run m' ρ')
    rw [(hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
